-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16384x512 .f32) (main_arg1 : FVec F S16384x8192 .f32) (main_arg2 : FVec F S512x512 .f32) (main_arg3 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S512x8192 : Shape := ⟨2, ![512, 8192]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S1024x512 : Shape := ⟨2, ![1024, 512]⟩
abbrev S1024x2048 : Shape := ⟨2, ![1024, 2048]⟩
abbrev S1024x1 : Shape := ⟨2, ![1024, 1]⟩
abbrev S512x2048 : Shape := ⟨2, ![512, 2048]⟩

abbrev nBuf : Space → Nat
  | .hbm => 8
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x8192, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S16384x512, .bf16⟩
  | .hbm, ⟨6, _⟩ => ⟨S512x8192, .bf16⟩
  | .hbm, ⟨7, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S1024x1024, .f32⟩
  | .local _ .vmem, ⟨7, _⟩ => ⟨S1024x1024, .f32⟩
  | .local _ .vmem, ⟨8, _⟩ => ⟨S16384x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S1x1024, .f32⟩
  | .local _ .vmem, ⟨13, _⟩ => ⟨S1024x2048, .f32⟩
  | .local _ .vmem, ⟨14, _⟩ => ⟨S1024x2048, .f32⟩
  | .local _ .vmem, ⟨15, _⟩ => ⟨S512x8192, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v13 : BitVec 32 := Scalar.muli arg1 c1024_i32
  v13
def k1_off1 (i : grid1.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_6 : Index := 0#32
  ![v15.toNat, 0]
def k1_cond2 (i : grid1.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_12 : BitVec 32 := 0#32
  let v26 : BitVec 1 := Scalar.cmpi .ne v25 c0_i32_12
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 4], ![false, false]⟩

def k2_mult1 (i : grid2.Coords) : BitVec 32 :=
  let arg1 : BitVec 32 := BitVec.ofNat 32 (i 1).val
  let c2048_i32 : BitVec 32 := 2048#32
  let v13 : BitVec 32 := Scalar.muli arg1 c2048_i32
  v13
def k2_off1 (i : grid2.Coords) : Fin 2 → Nat :=
  let c0_6 : Index := 0#32
  let arg1 : BitVec 32 := BitVec.ofNat 32 (i 1).val
  let c2048_i32 : BitVec 32 := 2048#32
  let v13 : BitVec 32 := Scalar.muli arg1 c2048_i32
  let v14 : BitVec 32 := v13
  let v15 : Index := Scalar.indexCast v14
  ![0, v15.toNat]
def k2_cond2 (i : grid2.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_12 : BitVec 32 := 0#32
  let v26 : BitVec 1 := Scalar.cmpi .ne v25 c0_i32_12
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x8192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  h_S1024x512 : 0 < S1024x512.numel
  shapeCasts_S1024x512_S1024x512 : S1024x512.ShapeCasts S1024x512
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x512_S1024x512_0_0 : ∀ a, (![0, 0] : Fin 2 → Nat) a + S1024x512.size a ≤ S1024x512.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S512x2048 : 0 < S512x2048.numel
  shapeCasts_S512x2048_S512x2048 : S512x2048.ShapeCasts S512x2048
  broadcasts_S1024x1_S1024x512 : S1024x1.Broadcasts S1024x512
  dot_S2048x512_S512x512_S2048x512_1_1_0_0_n_n_wf : DotDims.WF S2048x512 S512x512 S2048x512 [1] [1] [0] [0] [] []
  dot_S1024x512_S1024x1024_S512x1024_0_0_1_1_n_n_wf : DotDims.WF S1024x512 S1024x1024 S512x1024 [0] [0] [1] [1] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .bf16 = 32 ∨ (Rect.block (s := S16384x512) S2048x512.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S16384x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x8192.size a
  hwx1_0 : ∀ i : grid1.Coords, EltTy.bits .f32 = 32 ∨ (Rect.block (s := S16384x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x512.size a ≤ S16384x512.size a
  hwx1_1 : ∀ i : grid1.Coords, EltTy.bits .bf16 = 32 ∨ (Rect.block (s := S16384x512) S16384x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x8192.size a
  hwx1_2 : ∀ i : grid1.Coords, EltTy.bits .bf16 = 32 ∨ (Rect.block (s := S512x8192) S512x1024.size (cc1_transform_2 i) (hinb1_2 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S512x2048.size a ≤ S512x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x8192.size a
  hwx2_0 : ∀ i : grid2.Coords, EltTy.bits .f32 = 32 ∨ (Rect.block (s := S16384x8192) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x8192.size a ≤ S512x8192.size a
  hwx2_1 : ∀ i : grid2.Coords, EltTy.bits .bf16 = 32 ∨ (Rect.block (s := S512x8192) S512x8192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S16384x512.size a
  hwx2_2 : ∀ i : grid2.Coords, EltTy.bits .f32 = 32 ∨ (Rect.block (s := S16384x512) S1024x512.size (cc2_transform_2 i) (hinb2_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16384x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S1x512 : Shape := ⟨2, ![1, 512]⟩
abbrev S8192x16384 : Shape := ⟨2, ![8192, 16384]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S16384x512, .f32⟩
  | .hbm, ⟨6, _⟩ => ⟨S1x512, .f32⟩
  | .hbm, ⟨7, _⟩ => ⟨S16384x512, .f32⟩
  | .hbm, ⟨8, _⟩ => ⟨S16384x512, .f32⟩
  | .hbm, ⟨9, _⟩ => ⟨S8192x16384, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .i1⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call2_cst : Ref sig .tc := ⟨.hbm, 40, rfl⟩
abbrev main_call2_v0 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S16384x8192_S8192x16384_1_0 : S16384x8192.Transposes [1, 0] S8192x16384
  reducesTo_S16384x8192_S8192_d0 : S16384x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  reducesTo_S16384x8192_S16384_d1 : S16384x8192.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x512_S512x512_S16384x512_1_0_0_1_n_n_wf : DotDims.WF S16384x512 S512x512 S16384x512 [1] [0] [0] [1] [] []
  dot_S8192x16384_S16384x512_S8192x512_1_0_0_1_n_n_wf : DotDims.WF S8192x16384 S16384x512 S8192x512 [1] [0] [0] [1] [] []
  dot_S16384x8192_S8192x512_S16384x512_1_0_0_1_n_n_wf : DotDims.WF S16384x8192 S8192x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S8192x16384_S16384x512_S8192x512_1_0_0_1_n_n : DotDims S8192x16384 S16384x512 S8192x512 where
  lhsContracting := [1]
  rhsContracting := [0]
  lhsNonContracting := [0]
  rhsNonContracting := [1]
  lhsBatch := []
  rhsBatch := []
  wf := dot_S8192x16384_S16384x512_S8192x512_1_0_0_1_n_n_wf
def dot_S16384x8192_S8192x512_S16384x512_1_0_0_1_n_n : DotDims S16384x8192 S8192x512 S16384x512 where
  lhsContracting := [1]
  rhsContracting := [0]
  lhsNonContracting := [0]
  rhsNonContracting := [1]
  lhsBatch := []
  rhsBatch := []
  wf := dot_S16384x8192_S8192x512_S16384x512_1_0_0_1_n_n_wf

class Facts : Prop extends Facts₀ where

variable [Facts]
-- ==== Proof.RegionProof.lean ====
/-
  What the run of @main asks of one kernel region.

  @main is one host operation followed by three kernel regions.  The run is assembled from, per region `p`, proof data
  written over the contents `V` the core's unscoped buffers hold when the region is entered, with the facts listed
  here: each windowed array is read off `V`, every array is held whole, the body owes nothing and bounds no recorded
  pair, the body obligation holds at every point, and the invariant at the two ends is made of, and gives back, the scoped
  buffers no window stages (the region starts from them at contents not chosen).
-/
import proofs.«154376_j40303973106024_2_alg».proof.Proof.Gen.KernelIdeal.Launch
import proofs.«154376_j40303973106024_2_alg».proof.Proof.Gen.KernelIdeal.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- The contents of a core's unscoped buffers, per core and reference: what a region's proof data is written over. -/
abbrev Vals (F : FTy → Type) [FloatOps F] : Type :=
  (c : Dev nD) → (b : Ref sig .tc) → Buf (Elt F) ((c : Thread nD τ).loc b)

/-- Region `p`'s part of the run: proof data over the entry contents `V`, and what the assembly uses of it. -/
structure RegionProof (F : FTy → Type) [FloatOps F] (p : Fin 3) where
  /-- The proof data on core `c`, the unscoped buffers at `V` when the region is entered. -/
  D : Vals F → (c : Dev nD) → Dat τ (Elt F) Unit ℕ (UR sig nD τ) ℕ (cfgs p) c
  /-- Each windowed array enters at what `V` says of the buffer behind it. -/
  hA : ∀ V c w, (D V c).A w = V c (Pipeline.arrRef (cfgs p).spec w)
  /-- Every input array is held whole. -/
  hq : ∀ V c w, (D V c).q w = fullShare
  /-- The body owes nothing at any point, -/
  howed : ∀ V c t, (D V c).owed t = 0
  /-- and bounds no recorded pair. -/
  hrec : ∀ V c t, (D V c).recorded t = Set.univ
  /-- The body obligation at every point. -/
  hbody : ∀ V c, BodyObligation (D V c) (defs₀ (F := F)) Variants.none () Set.univ
  /-- The invariant at the first point, from the scoped buffers no window stages, each at contents not chosen (nothing
      else enters it: no table is prefetched, the kernel has no semaphore of its own). -/
  hin : ∀ V c, iprop(emp ∗ Pipeline.prefHeld (pcfgs (F := F) p).pre c (fun _ => fullShare) (adm (F := F) p).1
      ∗ (Pipeline.scopedRest (cfgs p).spec c : sProp (MT nD τ sig Unit (Elt F) ℕ (UR sig nD τ) ℕ))) ⊢ (D V c).Φ 0
  /-- The invariant at the last point gives those buffers back. -/
  hout : ∀ V c, (D V c).Φ (Fin.last (cfgs p).N) ⊢ iprop(emp
      ∗ Pipeline.ownSems0 (Ix := Unit) (Name := ℕ) (U := UR sig nD τ) (Lvl := ℕ) (Val := Elt F) (τ := τ) (fun k : PEmpty => k.elim) c
      ∗ (Pipeline.scopedRest (cfgs p).spec c : sProp (MT nD τ sig Unit (Elt F) ℕ (UR sig nD τ) ℕ)))

end Cert.KernelIdeal.Run

end
-- ==== Proof.MainRun.lean ====
/-
  The run of @main from the three regions' proof data.

  @main is one host operation (a reshape of the bias into `main_v0`) followed by three kernel regions, each entered
  once; region 0 leaves its result in `main_v1`, region 1 reads it and leaves `main_v2`, region 2 reads that and
  leaves `main_v3`.  Between two items core `c` holds every unscoped buffer whole at a valuation — the launch
  contents, then the host operation's result, then at each region's output buffer what the region's write-backs
  left there — beside what the core owes (nothing), the unscoped semaphores, the launch credit and the generator
  register, none of which a region touches.  Each region is entered by sorting its windows' arrays out of the
  unscoped buffers and left by putting them back, the output array at its final contents.
-/
import proofs.«154376_j40303973106024_2_alg».proof.Proof.RegionProof
import proofs.«154376_j40303973106024_2_alg».proof.Proof.Gen.KernelIdeal.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (P0 : RegionProof F 0) (P1 : RegionProof F 1) (P2 : RegionProof F 2)

/-! ## The buffers' contents between items -/

/-- A valuation per core, read at the TensorCore's references. -/
abbrev valsOf (W : Dev nD → Valuation τ sig (Elt F)) : Vals F := fun c b => W c b

/-- What region 0's write-backs leave in `main_v1`. -/
def out0 (c : Dev nD) : Buf (Elt F) ((c : Thread nD τ).loc main_v1) := (P0.D (valsOf (V1 m)) c).arrAt 3 cfg0.N
/-- Core `c`'s unscoped buffers after region 0. -/
abbrev W2 (c : Dev nD) : Valuation τ sig (Elt F) := Function.update (V1 m c) main_v1 (out0 m P0 c)
/-- What region 1's write-backs leave in `main_v2`. -/
def out1 (c : Dev nD) : Buf (Elt F) ((c : Thread nD τ).loc main_v2) := (P1.D (valsOf (W2 m P0)) c).arrAt 2 cfg1.N
/-- Core `c`'s unscoped buffers after region 1. -/
abbrev W3 (c : Dev nD) : Valuation τ sig (Elt F) := Function.update (W2 m P0 c) main_v2 (out1 m P0 P1 c)
/-- What region 2's write-backs leave in `main_v3`: the program's result. -/
def out2 (c : Dev nD) : Buf (Elt F) ((c : Thread nD τ).loc main_v3) := (P2.D (valsOf (W3 m P0 P1)) c).arrAt 2 cfg2.N
/-- Core `c`'s unscoped buffers after region 2. -/
abbrev W4 (c : Dev nD) : Valuation τ sig (Elt F) := Function.update (W3 m P0 P1 c) main_v3 (out2 m P0 P1 P2 c)

/-- The proof data of every pipeline: each region's over the contents it is entered from. -/
def pdats : (p : Fin 3) → (c : Dev nD) → Dat τ (Elt F) Unit ℕ (UR sig nD τ) ℕ (cfgs p) c
  | ⟨0, _⟩ => fun c => P0.D (valsOf (V1 m)) c
  | ⟨1, _⟩ => fun c => P1.D (valsOf (W2 m P0)) c
  | ⟨2, _⟩ => fun c => P2.D (valsOf (W3 m P0 P1)) c

/-! ## What rides beside the buffers -/

/-- What of the launch's deal no item touches: the unscoped semaphores at zero, the launch credit, the generator register. -/
abbrev Erest (c : Dev nD) : sProp 𝕄 :=
  iprop(unscopedSems0 c ∗ Pipeline.launchCred (0 : Dev nD → CellTallies nD τ sig Unit) c ∗ prngReg c (ρ c))

/-- The thread state beside the buffers, the same between any two items: the core owes nothing, and that rest. -/
abbrev E (c : Dev nD) : sProp 𝕄 :=
  iprop((∃ W, owes (c : Thread nD τ) (0 : CellTallies nD τ sig Unit) W) ∗ Erest (F := F) ρ c)

abbrev L : GSem nD τ sig → Finset Unit := fun _ => ∅
abbrev lv : GSem nD τ sig → Unit → ℕ := fun _ _ => 0

/-! ## What a region's proof data says of what the core owes -/

/-- A core that owes nothing owes what proof data that owes nothing and bounds no recorded pair says, at any point, -/
theorem owesAt_of_zero {cfg : Pipeline.Cfg sig Λ₀} {c : Dev nD} (dat : Dat τ (Elt F) Unit ℕ (UR sig nD τ) ℕ cfg c)
    (t : Fin (cfg.N + 1)) (hO : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [hO, hR]
  iintro ⟨%W, HO⟩
  iexists W; isplitr; · ipureintro; exact fun _ _ => Or.inl trivial
  iexact HO

/-- and conversely. -/
theorem zero_of_owesAt {cfg : Pipeline.Cfg sig Λ₀} {c : Dev nD} (dat : Dat τ (Elt F) Unit ℕ (UR sig nD τ) ℕ cfg c)
    (t : Fin (cfg.N + 1)) (hO : dat.owed t = 0) :
    dat.owesAt () t ⊢ (iprop(∃ W, owes (c : Thread nD τ) (0 : CellTallies nD τ sig Unit) W) : sProp 𝕄) := by
  unfold Pipeline.Dat.owesAt Pipeline.owesWithin
  rw [hO]
  iintro ⟨%W, -, HO⟩
  iexists W; iexact HO

/-! ## Region 0 -/

/-- Every array of region 0 is held whole. -/
theorem hshare0 (c : Dev nD) (w : Fin cfg0.W) : (pdats m P0 P1 P2 0 c).share w = fullShare :=
  (pdats m P0 P1 P2 0 c).share_full (P0.hq _ c) w

/-- After region 0 each of its arrays holds what the next valuation says: an input as it entered, the output what the
    write-backs left. -/
theorem final0 (c : Dev nD) : ∀ w : Fin cfg0.W, (pdats m P0 P1 P2 0 c).arrAt w cfg0.N = valsOf (W2 m P0) c (Pipeline.arrRef (cfgs 0).spec w)
  | 0 => ((pdats m P0 P1 P2 0 c).arrAt_in 0 rfl _).trans ((P0.hA _ c 0).trans (Function.update_of_ne (StableHlo.devRef_ne_of_ne (by decide)) _ _).symm)
  | 1 => ((pdats m P0 P1 P2 0 c).arrAt_in 1 rfl _).trans ((P0.hA _ c 1).trans (Function.update_of_ne (StableHlo.devRef_ne_of_ne (by decide)) _ _).symm)
  | 2 => ((pdats m P0 P1 P2 0 c).arrAt_in 2 rfl _).trans ((P0.hA _ c 2).trans (Function.update_of_ne (StableHlo.devRef_ne_of_ne (by decide)) _ _).symm)
  | 3 => show out0 m P0 c = Function.update (V1 m c) (Proc.devRef .tc main_v1) (out0 m P0 c) (Proc.devRef .tc main_v1) from
      (Function.update_self (Proc.devRef .tc main_v1 : DevRef τ sig) (out0 m P0 c) (V1 m c)).symm

/-- The buffers region 0 bypasses hold the same before and after it. -/
theorem rest0 (c : Dev nD) :
    (Pipeline.unscopedRest (Ix := Unit) (Name := ℕ) (U := UR sig nD τ) (Lvl := ℕ) spec0 c (valsOf (W2 m P0) c) : sProp 𝕄)
      = Pipeline.unscopedRest spec0 c (valsOf (V1 m) c) := by
  unfold Pipeline.unscopedRest
  refine bigSep_congr fun b hb => ?_
  have hne : b ≠ main_v1 := fun h => (Finset.mem_sdiff.mp hb).2 (Finset.mem_image.mpr ⟨3, Finset.mem_univ _, h.symm⟩)
  rw [show valsOf (W2 m P0) c b = valsOf (V1 m) c b from Function.update_of_ne (StableHlo.devRef_ne_of_ne hne) _ _]

/-- EXIT of region 0, the buffers' part: its arrays at their final contents and the bypassed buffers are the unscoped
    buffers at the next valuation. -/
theorem exit0 (c : Dev nD) :
    iprop((pdats m P0 P1 P2 0 c).arrays ((pdats m P0 P1 P2 0 c).arrAt · cfg0.N) ∗ Pipeline.unscopedRest spec0 c (valsOf (V1 m) c))
      ⊢ (StableHlo.held (c : Thread nD τ) (Pipeline.ucRefs τ sig) (W2 m P0 c) : sProp 𝕄) := by
  rw [← Pipeline.unscopedBufs_held (Ix := Unit) (Name := ℕ) (U := UR sig nD τ) (Lvl := ℕ) c (W2 m P0 c),
    Pipeline.unscopedBufs_split cfgs 0 launch0.win.arr_unscoped launch0.win.arr_inj c (valsOf (W2 m P0) c),
    Pipeline.arrays_eq cfgs (pdats m P0 P1 P2) 0 c launch0.arr_whole (hshare0 m P0 P1 P2 c)]
  exact BI.sep_mono (Entails.of_eq (bigSep_congr fun w _ => by rw [final0 m P0 P1 P2 c w])) (Entails.of_eq (rest0 m P0 c).symm)

set_option backward.isDefEq.respectTransparency.types false in
/-- REGION 0: the launch's layout, no semaphore of its own, the body obligation; entered from the unscoped buffers at
    the valuation before it — its windows' arrays into the pipeline, the other buffers and the rest of the thread state
    bypassing —, left with its arrays put back, the output array at its final contents. -/
def reg0 : RegionSeg (pcfgs (F := F)) adm (pdats m P0 P1 P2) () defs₀ Variants.none L lv 0 where
  win := launch0.win.to₀
  block_pos := launch0.block_pos
  stage_whole := launch0.stage_whole
  K := PEmpty
  osem := fun k : PEmpty => k.elim
  ho := Pipeline.OwnSemFacts.none _
  hbody c := (P0.hbody _ c).loose
  hwaits := Pipeline.hwaits_of_owed_zero _ _ _ _ L lv 0 fun c t => P0.howed _ c t
  pre c := iprop(StableHlo.held (c : Thread nD τ) (Pipeline.ucRefs τ sig) (V1 m c) ∗ E ρ c)
  post c := iprop(StableHlo.held (c : Thread nD τ) (Pipeline.ucRefs τ sig) (W2 m P0 c) ∗ E ρ c)
  X _ := iprop(emp)
  Y _ := iprop(emp)
  Z c := iprop(Pipeline.unscopedRest spec0 c (valsOf (V1 m) c) ∗ Erest ρ c)
  hentry c := by
    rw [show StableHlo.held (c : Thread nD τ) (Pipeline.ucRefs τ sig) (V1 m c) = unscopedBufs c (valsOf (V1 m) c)
      from (Pipeline.unscopedBufs_held c _).symm]
    have hsplit := Pipeline.arrays_of_unscopedBufs (pcfgs (F := F)) adm (pdats m P0 P1 P2) (p := 0) launch0.win launch0.arr_whole c
      (hshare0 m P0 P1 P2 c) (valsOf (V1 m) c) (P0.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 0 c) 0 (P0.howed _ c 0) (P0.hrec _ c 0))
      iexact HO
    isplitr; · iempintro
    isplitl [Hr]; · iexact Hr
    iexact HE
  hin c := P0.hin _ c
  hout c := P0.hout _ c
  hexit c := by
    iintro ⟨Ha, HO, -, Hr, HE⟩
    imodintro
    isplitl [Ha Hr]
    · iapply (exit0 m P0 P1 P2 c)
      isplitl [Ha]; · iexact Ha
      iexact Hr
    isplitl [HO]
    · iapply (zero_of_owesAt (pdats m P0 P1 P2 0 c) _ (P0.howed _ c _))
      iexact HO
    iexact HE

/-! ## Region 1 -/

/-- Every array of region 1 is held whole. -/
theorem hshare1 (c : Dev nD) (w : Fin cfg1.W) : (pdats m P0 P1 P2 1 c).share w = fullShare :=
  (pdats m P0 P1 P2 1 c).share_full (P1.hq _ c) w

/-- After region 1 each of its arrays holds what the next valuation says: an input as it entered, the output what the
    write-backs left. -/
theorem final1 (c : Dev nD) : ∀ w : Fin cfg1.W, (pdats m P0 P1 P2 1 c).arrAt w cfg1.N = valsOf (W3 m P0 P1) c (Pipeline.arrRef (cfgs 1).spec w)
  | 0 => ((pdats m P0 P1 P2 1 c).arrAt_in 0 rfl _).trans ((P1.hA _ c 0).trans (Function.update_of_ne (StableHlo.devRef_ne_of_ne (by decide)) _ _).symm)
  | 1 => ((pdats m P0 P1 P2 1 c).arrAt_in 1 rfl _).trans ((P1.hA _ c 1).trans (Function.update_of_ne (StableHlo.devRef_ne_of_ne (by decide)) _ _).symm)
  | 2 => show out1 m P0 P1 c = Function.update (W2 m P0 c) (Proc.devRef .tc main_v2) (out1 m P0 P1 c) (Proc.devRef .tc main_v2) from
      (Function.update_self (Proc.devRef .tc main_v2 : DevRef τ sig) (out1 m P0 P1 c) (W2 m P0 c)).symm

/-- The buffers region 1 bypasses hold the same before and after it. -/
theorem rest1 (c : Dev nD) :
    (Pipeline.unscopedRest (Ix := Unit) (Name := ℕ) (U := UR sig nD τ) (Lvl := ℕ) spec1 c (valsOf (W3 m P0 P1) c) : sProp 𝕄)
      = Pipeline.unscopedRest spec1 c (valsOf (W2 m P0) c) := by
  unfold Pipeline.unscopedRest
  refine bigSep_congr fun b hb => ?_
  have hne : b ≠ main_v2 := fun h => (Finset.mem_sdiff.mp hb).2 (Finset.mem_image.mpr ⟨2, Finset.mem_univ _, h.symm⟩)
  rw [show valsOf (W3 m P0 P1) c b = valsOf (W2 m P0) c b from Function.update_of_ne (StableHlo.devRef_ne_of_ne hne) _ _]

/-- EXIT of region 1, the buffers' part: its arrays at their final contents and the bypassed buffers are the unscoped
    buffers at the next valuation. -/
theorem exit1 (c : Dev nD) :
    iprop((pdats m P0 P1 P2 1 c).arrays ((pdats m P0 P1 P2 1 c).arrAt · cfg1.N) ∗ Pipeline.unscopedRest spec1 c (valsOf (W2 m P0) c))
      ⊢ (StableHlo.held (c : Thread nD τ) (Pipeline.ucRefs τ sig) (W3 m P0 P1 c) : sProp 𝕄) := by
  rw [← Pipeline.unscopedBufs_held (Ix := Unit) (Name := ℕ) (U := UR sig nD τ) (Lvl := ℕ) c (W3 m P0 P1 c),
    Pipeline.unscopedBufs_split cfgs 1 launch1.win.arr_unscoped launch1.win.arr_inj c (valsOf (W3 m P0 P1) c),
    Pipeline.arrays_eq cfgs (pdats m P0 P1 P2) 1 c launch1.arr_whole (hshare1 m P0 P1 P2 c)]
  exact BI.sep_mono (Entails.of_eq (bigSep_congr fun w _ => by rw [final1 m P0 P1 P2 c w])) (Entails.of_eq (rest1 m P0 P1 c).symm)

set_option backward.isDefEq.respectTransparency.types false in
/-- REGION 1: the launch's layout, no semaphore of its own, the body obligation; entered from the unscoped buffers at
    the valuation before it — its windows' arrays into the pipeline, the other buffers and the rest of the thread state
    bypassing —, left with its arrays put back, the output array at its final contents. -/
def reg1 : RegionSeg (pcfgs (F := F)) adm (pdats m P0 P1 P2) () defs₀ Variants.none L lv 1 where
  win := launch1.win.to₀
  block_pos := launch1.block_pos
  stage_whole := launch1.stage_whole
  K := PEmpty
  osem := fun k : PEmpty => k.elim
  ho := Pipeline.OwnSemFacts.none _
  hbody c := (P1.hbody _ c).loose
  hwaits := Pipeline.hwaits_of_owed_zero _ _ _ _ L lv 1 fun c t => P1.howed _ c t
  pre c := iprop(StableHlo.held (c : Thread nD τ) (Pipeline.ucRefs τ sig) (W2 m P0 c) ∗ E ρ c)
  post c := iprop(StableHlo.held (c : Thread nD τ) (Pipeline.ucRefs τ sig) (W3 m P0 P1 c) ∗ E ρ c)
  X _ := iprop(emp)
  Y _ := iprop(emp)
  Z c := iprop(Pipeline.unscopedRest spec1 c (valsOf (W2 m P0) c) ∗ Erest ρ c)
  hentry c := by
    rw [show StableHlo.held (c : Thread nD τ) (Pipeline.ucRefs τ sig) (W2 m P0 c) = unscopedBufs c (valsOf (W2 m P0) c)
      from (Pipeline.unscopedBufs_held c _).symm]
    have hsplit := Pipeline.arrays_of_unscopedBufs (pcfgs (F := F)) adm (pdats m P0 P1 P2) (p := 1) launch1.win launch1.arr_whole c
      (hshare1 m P0 P1 P2 c) (valsOf (W2 m P0) c) (P1.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 1 c) 0 (P1.howed _ c 0) (P1.hrec _ c 0))
      iexact HO
    isplitr; · iempintro
    isplitl [Hr]; · iexact Hr
    iexact HE
  hin c := P1.hin _ c
  hout c := P1.hout _ c
  hexit c := by
    iintro ⟨Ha, HO, -, Hr, HE⟩
    imodintro
    isplitl [Ha Hr]
    · iapply (exit1 m P0 P1 P2 c)
      isplitl [Ha]; · iexact Ha
      iexact Hr
    isplitl [HO]
    · iapply (zero_of_owesAt (pdats m P0 P1 P2 1 c) _ (P1.howed _ c _))
      iexact HO
    iexact HE

/-! ## Region 2 -/

/-- Every array of region 2 is held whole. -/
theorem hshare2 (c : Dev nD) (w : Fin cfg2.W) : (pdats m P0 P1 P2 2 c).share w = fullShare :=
  (pdats m P0 P1 P2 2 c).share_full (P2.hq _ c) w

/-- After region 2 each of its arrays holds what the next valuation says: an input as it entered, the output what the
    write-backs left. -/
theorem final2 (c : Dev nD) : ∀ w : Fin cfg2.W, (pdats m P0 P1 P2 2 c).arrAt w cfg2.N = valsOf (W4 m P0 P1 P2) c (Pipeline.arrRef (cfgs 2).spec w)
  | 0 => ((pdats m P0 P1 P2 2 c).arrAt_in 0 rfl _).trans ((P2.hA _ c 0).trans (Function.update_of_ne (StableHlo.devRef_ne_of_ne (by decide)) _ _).symm)
  | 1 => ((pdats m P0 P1 P2 2 c).arrAt_in 1 rfl _).trans ((P2.hA _ c 1).trans (Function.update_of_ne (StableHlo.devRef_ne_of_ne (by decide)) _ _).symm)
  | 2 => show out2 m P0 P1 P2 c = Function.update (W3 m P0 P1 c) (Proc.devRef .tc main_v3) (out2 m P0 P1 P2 c) (Proc.devRef .tc main_v3) from
      (Function.update_self (Proc.devRef .tc main_v3 : DevRef τ sig) (out2 m P0 P1 P2 c) (W3 m P0 P1 c)).symm

/-- The buffers region 2 bypasses hold the same before and after it. -/
theorem rest2 (c : Dev nD) :
    (Pipeline.unscopedRest (Ix := Unit) (Name := ℕ) (U := UR sig nD τ) (Lvl := ℕ) spec2 c (valsOf (W4 m P0 P1 P2) c) : sProp 𝕄)
      = Pipeline.unscopedRest spec2 c (valsOf (W3 m P0 P1) c) := by
  unfold Pipeline.unscopedRest
  refine bigSep_congr fun b hb => ?_
  have hne : b ≠ main_v3 := fun h => (Finset.mem_sdiff.mp hb).2 (Finset.mem_image.mpr ⟨2, Finset.mem_univ _, h.symm⟩)
  rw [show valsOf (W4 m P0 P1 P2) c b = valsOf (W3 m P0 P1) c b from Function.update_of_ne (StableHlo.devRef_ne_of_ne hne) _ _]

/-- EXIT of region 2, the buffers' part: its arrays at their final contents and the bypassed buffers are the unscoped
    buffers at the next valuation. -/
theorem exit2 (c : Dev nD) :
    iprop((pdats m P0 P1 P2 2 c).arrays ((pdats m P0 P1 P2 2 c).arrAt · cfg2.N) ∗ Pipeline.unscopedRest spec2 c (valsOf (W3 m P0 P1) c))
      ⊢ (StableHlo.held (c : Thread nD τ) (Pipeline.ucRefs τ sig) (W4 m P0 P1 P2 c) : sProp 𝕄) := by
  rw [← Pipeline.unscopedBufs_held (Ix := Unit) (Name := ℕ) (U := UR sig nD τ) (Lvl := ℕ) c (W4 m P0 P1 P2 c),
    Pipeline.unscopedBufs_split cfgs 2 launch2.win.arr_unscoped launch2.win.arr_inj c (valsOf (W4 m P0 P1 P2) c),
    Pipeline.arrays_eq cfgs (pdats m P0 P1 P2) 2 c launch2.arr_whole (hshare2 m P0 P1 P2 c)]
  exact BI.sep_mono (Entails.of_eq (bigSep_congr fun w _ => by rw [final2 m P0 P1 P2 c w])) (Entails.of_eq (rest2 m P0 P1 P2 c).symm)

set_option backward.isDefEq.respectTransparency.types false in
/-- REGION 2: the launch's layout, no semaphore of its own, the body obligation; entered from the unscoped buffers at
    the valuation before it — its windows' arrays into the pipeline, the other buffers and the rest of the thread state
    bypassing —, left with its arrays put back, the output array at its final contents. -/
def reg2 : RegionSeg (pcfgs (F := F)) adm (pdats m P0 P1 P2) () defs₀ Variants.none L lv 2 where
  win := launch2.win.to₀
  block_pos := launch2.block_pos
  stage_whole := launch2.stage_whole
  K := PEmpty
  osem := fun k : PEmpty => k.elim
  ho := Pipeline.OwnSemFacts.none _
  hbody c := (P2.hbody _ c).loose
  hwaits := Pipeline.hwaits_of_owed_zero _ _ _ _ L lv 2 fun c t => P2.howed _ c t
  pre c := iprop(StableHlo.held (c : Thread nD τ) (Pipeline.ucRefs τ sig) (W3 m P0 P1 c) ∗ E ρ c)
  post c := iprop(StableHlo.held (c : Thread nD τ) (Pipeline.ucRefs τ sig) (W4 m P0 P1 P2 c) ∗ E ρ c)
  X _ := iprop(emp)
  Y _ := iprop(emp)
  Z c := iprop(Pipeline.unscopedRest spec2 c (valsOf (W3 m P0 P1) c) ∗ Erest ρ c)
  hentry c := by
    rw [show StableHlo.held (c : Thread nD τ) (Pipeline.ucRefs τ sig) (W3 m P0 P1 c) = unscopedBufs c (valsOf (W3 m P0 P1) c)
      from (Pipeline.unscopedBufs_held c _).symm]
    have hsplit := Pipeline.arrays_of_unscopedBufs (pcfgs (F := F)) adm (pdats m P0 P1 P2) (p := 2) launch2.win launch2.arr_whole c
      (hshare2 m P0 P1 P2 c) (valsOf (W3 m P0 P1) c) (P2.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 2 c) 0 (P2.howed _ c 0) (P2.hrec _ c 0))
      iexact HO
    isplitr; · iempintro
    isplitl [Hr]; · iexact Hr
    iexact HE
  hin c := P2.hin _ c
  hout c := P2.hout _ c
  hexit c := by
    iintro ⟨Ha, HO, -, Hr, HE⟩
    imodintro
    isplitl [Ha Hr]
    · iapply (exit2 m P0 P1 P2 c)
      isplitl [Ha]; · iexact Ha
      iexact Hr
    isplitl [HO]
    · iapply (zero_of_owesAt (pdats m P0 P1 P2 2 c) _ (P2.howed _ c _))
      iexact HO
    iexact HE

/-! ## The run -/

/-- No region changes a buffer other than its output: such a buffer holds at the end what the host operation left. -/
theorem W4_of (c : Dev nD) (r : Ref sig .tc) (h1 : r ≠ main_v1) (h2 : r ≠ main_v2) (h3 : r ≠ main_v3) :
    W4 m P0 P1 P2 c r = V1 m c r :=
  (Function.update_of_ne (StableHlo.devRef_ne_of_ne h3) _ _).trans
    ((Function.update_of_ne (StableHlo.devRef_ne_of_ne h2) _ _).trans (Function.update_of_ne (StableHlo.devRef_ne_of_ne h1) _ _))

/-- The result buffer holds at the end what region 2's write-backs left. -/
theorem W4_main_v3 (c : Dev nD) : W4 m P0 P1 P2 c main_v3 = out2 m P0 P1 P2 c :=
  Function.update_self (Proc.devRef .tc main_v3 : DevRef τ sig) (out2 m P0 P1 P2 c) (W3 m P0 P1 c)

/-- Each argument reaches the end as launched: the host operation does not write it, no region may change it. -/
theorem W4_main_arg0 (c : Dev nD) : W4 m P0 P1 P2 c main_arg0 = m ((c : Thread nD τ).loc main_arg0) :=
  (W4_of m P0 P1 P2 c main_arg0 (by decide) (by decide) (by decide)).trans ((V1_of m c main_arg0 (by decide)).trans rfl)
theorem W4_main_arg1 (c : Dev nD) : W4 m P0 P1 P2 c main_arg1 = m ((c : Thread nD τ).loc main_arg1) :=
  (W4_of m P0 P1 P2 c main_arg1 (by decide) (by decide) (by decide)).trans ((V1_of m c main_arg1 (by decide)).trans rfl)
theorem W4_main_arg2 (c : Dev nD) : W4 m P0 P1 P2 c main_arg2 = m ((c : Thread nD τ).loc main_arg2) :=
  (W4_of m P0 P1 P2 c main_arg2 (by decide) (by decide) (by decide)).trans ((V1_of m c main_arg2 (by decide)).trans rfl)
theorem W4_main_arg3 (c : Dev nD) : W4 m P0 P1 P2 c main_arg3 = m ((c : Thread nD τ).loc main_arg3) :=
  (W4_of m P0 P1 P2 c main_arg3 (by decide) (by decide) (by decide)).trans ((V1_of m c main_arg3 (by decide)).trans rfl)

/-- The launch element: the pipeline library's at the three pipelines' staging cells. -/
def u₀ : UR sig nD τ := initOf (Pipeline.cells cfgs cellOf_inj) (Pipeline.launchToks cfgs cellOf_inj)

/-- Owning the launch element is owning the pipeline library's, through the embedding of the whole user component. -/
theorem hu₀ : (ownU (u₀ : UR sig nD τ) : sProp 𝕄) ⊢ |={Set.univ}=> iprop(BI.own ((emb₁ : Emb (UR sig nD τ) 𝕄)
      (initOf (Pipeline.cells cfgs cellOf_inj) (Pipeline.launchToks cfgs cellOf_inj))) ∗ bigSep Finset.univ fun _ : Dev nD => (BI.emp : sProp 𝕄)) := by
  unfold u₀
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

/-- The last thread state is the buffers at the last valuation beside a core that owes nothing. -/
theorem last_state (c : Dev nD) :
    iprop(StableHlo.held (c : Thread nD τ) (Pipeline.ucRefs τ sig) (W4 m P0 P1 P2 c) ∗ E ρ c)
      ⊢ (iprop(StableHlo.held (c : Thread nD τ) (Pipeline.ucRefs τ sig) (W4 m P0 P1 P2 c)
          ∗ ∃ W, owes (c : Thread nD τ) (0 : CellTallies nD τ sig Unit) W) : sProp 𝕄) := by
  iintro ⟨Hh, HO, -⟩
  isplitl [Hh]; · iexact Hh
  iexact HO

/-- @main's items as segments, the same on every core: the host operation, then the three regions. -/
abbrev segs (_ : Dev nD) : List (Seg (pcfgs (F := F)) adm (pdats m P0 P1 P2) () defs₀ Variants.none L lv) :=
  [.host (seg0 (Ix := Unit) (U := UR sig nD τ) (Lvl := ℕ) m Variants.none L lv (fun _ => E ρ)),
    .region (reg0 m ρ P0 P1 P2), .region (reg1 m ρ P0 P1 P2), .region (reg2 m ρ P0 P1 P2)]

set_option backward.isDefEq.respectTransparency.types false in
/-- THE RUN. From any memory `m` with zero counters, every weakly fair execution of @main terminates, and every final
    memory holds in the result buffer `main_v3` what region 2's write-backs left (`out2`) and in each argument buffer what
    it held at launch. -/
theorem run_main : θ_run defs (onTc (τ := τ) (main (F := F))) ⟨m, fun _ => 0, ρ⟩ (fun r => ∀ c : Dev nD,
      r.2.mem ((c.tc : Thread nD τ).loc main_v3) = out2 m P0 P1 P2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m P0 P1 P2) () cellOf_inj emb₁ defs₀ Variants.none L lv m ρ main
    (segs m ρ P0 P1 P2)
    (fun c Q => by
      rewrite [main_chain c, Seg.run_eq_chain,
        show (segs m ρ P0 P1 P2 c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (V0 m c) ∗ E ρ c))
    (Tₙ := fun c => StableHlo.held (c : Thread nD τ) (Pipeline.ucRefs τ sig) (W4 m P0 P1 P2 c))
    (hch := fun c => ⟨.rfl, .rfl, .rfl, .rfl, last_state m ρ P0 P1 P2 c⟩)
    (hinit := ?_)
    (QY := fun c s => s.mem ((c.tc : Thread nD τ).loc main_v3) = out2 m P0 P1 P2 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: each core's unscoped buffers are held at the launch contents; the rest of the deal rides along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, Hs, HO, Hc, Hp, -⟩, -⟩
    imodintro
    isplitl [Hh]; · iexact Hh
    isplitl [HO]; · iexists ∅; iexact HO
    isplitl [Hs]; · iexact Hs
    isplitl [Hc]; · iexact Hc
    iexact Hp
  · -- the end: the result and each argument read off the last valuation
    unfold StableHlo.held
    iintro ⟨Hh, HSI⟩
    ihave Hr := (pointsTo_read_all (Pipeline.ucRefs τ sig) (fun b => ((c : Thread nD τ).1, b)) (W4 m P0 P1 P2 c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (W4_main_v3 m P0 P1 P2 c),
        (h (Proc.devRef .tc main_arg0) (Finset.mem_filter.mpr ⟨StableHlo.devRef_mem_tcRefs main_arg0, by decide⟩)).trans (W4_main_arg0 m P0 P1 P2 c),
        (h (Proc.devRef .tc main_arg1) (Finset.mem_filter.mpr ⟨StableHlo.devRef_mem_tcRefs main_arg1, by decide⟩)).trans (W4_main_arg1 m P0 P1 P2 c),
        (h (Proc.devRef .tc main_arg2) (Finset.mem_filter.mpr ⟨StableHlo.devRef_mem_tcRefs main_arg2, by decide⟩)).trans (W4_main_arg2 m P0 P1 P2 c),
        (h (Proc.devRef .tc main_arg3) (Finset.mem_filter.mpr ⟨StableHlo.devRef_mem_tcRefs main_arg3, by decide⟩)).trans (W4_main_arg3 m P0 P1 P2 c)⟩
    · iexact HSI

end Cert.KernelIdeal.Run

end
-- ==== Proof.Region0Run.lean ====
/-
  The linear kernel (the first pallas_call): at each of its 8 grid points the body loads a block of 2048 rows of X
  (f32), the whole weight matrix W (512 x 512, f32) and the bias row (1 x 512, f32), each through the rectangle that
  is the whole staging buffer, rounds X and W to bf16, multiplies X by the transpose of W accumulating in f32, adds
  the bias row to every row, rounds the sum to bf16 and stores it through the whole of the output's staging buffer.
  This module runs the body once, on symbolic whole memrefs at a symbolic grid point: the three inputs' buffers are
  handed back as they were and the output's buffer holds the payload of the three contents read.
-/
import proofs.«154376_j40303973106024_2_alg».proof.Proof.Gen.KernelIdeal.Launch
import proofs.«154376_j40303973106024_2_alg».proof.Proof.Gen.KernelIdeal.Skeleton
import proofs.«154376_j40303973106024_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- The offsets of every access are zero. -/
theorem off0_zero : (![0, 0] : Fin 2 → Nat) = fun _ => 0 := by
  funext a; fin_cases a <;> rfl

/-! ## What the body leaves in the output's buffer -/

/-- The output's staging buffer after the body, from the inputs' contents: its one store as a piece over the
    payload of the three loads. -/
def out0 (x0 : Vec F S2048x512 .f32) (x1 : Vec F S512x512 .f32) (x2 : Vec F S1x512 .f32) : Vec F S2048x512 .bf16 :=
  View.canon [⟨rX0, k0_pay1 (View.ld x0 rX0) (View.ld x1 rW0) (View.ld x2 rB0)⟩]

/-- The one store is through the whole buffer, so it covers it. -/
theorem cover0 (p0 : Vec F S2048x512 .bf16) (y : S2048x512.Idx) :
    ∃ pc ∈ ([⟨rX0, p0⟩] : List (View.Piece (Elt F) S2048x512 .bf16)), y ∈ pc.1.set :=
  ⟨_, List.mem_singleton_self _, View.mem_set_unit_zero off0_zero inb_S2048x512_S2048x512_0_0 y⟩

/-- A whole-buffer load reads the contents and the whole-buffer store leaves its payload: the buffer holds the
    payload of the three contents. -/
theorem out0_eq (x0 : Vec F S2048x512 .f32) (x1 : Vec F S512x512 .f32) (x2 : Vec F S1x512 .f32) :
    out0 x0 x1 x2 = k0_pay1 x0 x1 x2 := by
  unfold out0
  rw [View.canon_unit_zero off0_zero inb_S2048x512_S2048x512_0_0,
    View.ld_unit_zero (S := S2048x512) off0_zero inb_S2048x512_S2048x512_0_0,
    View.ld_unit_zero (S := S512x512) off0_zero inb_S512x512_S512x512_0_0,
    View.ld_unit_zero (S := S1x512) off0_zero inb_S1x512_S1x512_0_0]

/-! ## The body's triple -/

set_option maxHeartbeats 1000000 in
/-- The body on whole staging memrefs, the inputs' at read contents `x0 x1 x2` and the output's at anything, runs to
    the continuation holding the inputs' as they were and the output's at `out0` of the three. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

end Cert.KernelIdeal.Gen

end
-- ==== Proof.Region0Data.lean ====
/-
  The linear kernel (the first pallas_call) as a pipeline of 8 points over four windows: the block of 2048 rows of X at
  the point (window 0), the whole weight matrix (window 1) and the bias row (window 2), both fetched at the first
  point only and found in place afterwards, and the block of 2048 rows of the output (window 3), written back at
  every point. This module gives the pipeline's proof data on a core from the contents the region finds in the
  core's arrays (a parameter), says what each window's staging buffer holds before and after the body at a point,
  proves the body obligation from the body's run, and states how the invariant (the scoped buffers no window
  stages, untouched) is entered and left.
-/
import proofs.«154376_j40303973106024_2_alg».proof.Proof.Gen.KernelIdeal.Launch
import proofs.«154376_j40303973106024_2_alg».proof.Proof.Gen.KernelIdeal.Skeleton
import proofs.«154376_j40303973106024_2_alg».proof.Proof.Gen.KernelIdeal.Points
import proofs.«154376_j40303973106024_2_alg».proof.Proof.Region0Run
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents the region finds in each core's arrays
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (it is fetched at
    the first point only: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t` each
    input's buffer at its block and the output's at the payload of the three input blocks; the invariant the scoped
    buffers no window stages; nothing owed; full shares. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq0 (c : Dev nD) (w : Fin cfg0.W) : (dats0 V c).A w = V c (Pipeline.arrRef spec0 w) := by
  dsimp only [dats0]

/-- What the body leaves, window by window. -/
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) :
    (dats0 V c).after 3 t = k0_pay1 (iblk0 V c 0 t) (iblk0 V c 1 t) (iblk0 V c 2 t) := by dsimp only [dats0]

/-- Each input's current staging buffer holds its block at every point, fetched there or not. -/
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d

/-- The invariant is the same at every point. -/
theorem Φ0_eq (c : Dev nD) (t : Fin (cfg0.N + 1)) :
    (dats0 V c).Φ t = Pipeline.scopedRest (Ix := Unit) (Name := ℕ) (U := UR sig nD τ) (Lvl := ℕ) (Val := Elt F) spec0 c := by
  dsimp only [dats0]

/-! ## The body obligation, at a generic point -/

/-- What the body is called with at point `t`, the windows one by one, -/
def bodyPre0 (c : Dev nD) (t : Fin cfg0.N) : sProp 𝕄 :=
  iprop((dats0 V c).Φ t.castSucc ∗ (dats0 V c).owesAt () t.castSucc
    ∗ (∃ d, owns (c : Thread nD τ) (st0_0 t) fullShare ((dats0 V c).before 0 t d))
    ∗ (∃ d, owns (c : Thread nD τ) (st0_1 t) fullShare ((dats0 V c).before 1 t d))
    ∗ (∃ d, owns (c : Thread nD τ) (st0_2 t) fullShare ((dats0 V c).before 2 t d))
    ∗ (∃ d, owns (c : Thread nD τ) (st0_3 t) fullShare ((dats0 V c).before 3 t d)))

/-- and what it returns. -/
def bodyPost0 (c : Dev nD) (t : Fin cfg0.N) : sProp 𝕄 :=
  iprop((dats0 V c).Φ t.succ ∗ (dats0 V c).owesAt () t.succ
    ∗ owns (c : Thread nD τ) (st0_0 t) fullShare ((dats0 V c).after 0 t)
    ∗ owns (c : Thread nD τ) (st0_1 t) fullShare ((dats0 V c).after 1 t)
    ∗ owns (c : Thread nD τ) (st0_2 t) fullShare ((dats0 V c).after 2 t)
    ∗ owns (c : Thread nD τ) (st0_3 t) fullShare ((dats0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dats0 V c).Φ t.succ = (dats0 V c).Φ t.castSucc from rfl,
    show (dats0 V c).owesAt () t.succ = (dats0 V c).owesAt () t.castSucc from rfl,
    after0_0, after0_1, after0_2, after0_3, ← out0_eq]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dats0 (F := F) V c) (defs₀ (F := F)) Variants.none () Set.univ := fun t => by
  rw [bigSep_W0, bigSep_W0]
  exact sound_body0 V c t

/-! ## Entering and leaving the invariant -/

/-- The invariant at the first point is the scoped buffers no window stages, whatever rides beside them. -/
theorem hin0 (c : Dev nD) (P : sProp 𝕄) :
    iprop(emp ∗ P ∗ Pipeline.scopedRest (Ix := Unit) (Name := ℕ) (U := UR sig nD τ) (Lvl := ℕ) (Val := Elt F) spec0 c) ⊢ (dats0 V c).Φ 0 := by
  rw [Φ0_eq]
  iintro ⟨-, -, Hr⟩
  iexact Hr

/-- The invariant at the last point gives those buffers back; the kernel has no semaphore of its own. -/
theorem hout0 (c : Dev nD) :
    (dats0 V c).Φ (Fin.last cfg0.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec0 c) := by
  rw [Φ0_eq, Pipeline.ownSems0_none]
  iintro Hr
  isplitr; · iempintro
  isplitr; · iempintro
  iexact Hr

end Cert.KernelIdeal.Gen

end
-- ==== Proof.Region0Proof.lean ====
/-
  The linear kernel's region (the first pallas_call) as the run of @main takes it: its proof data over the contents
  the region finds in the core's arrays, with the facts the assembly asks of a region — the arrays read off those
  contents, whole shares, nothing owed, the body obligation at every point, and the invariant entered from and
  giving back the scoped buffers no window stages.
-/
import proofs.«154376_j40303973106024_2_alg».proof.Proof.Region0Data
import proofs.«154376_j40303973106024_2_alg».proof.Proof.RegionProof

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Region 0's part of the run. -/
def region0 : Cert.KernelIdeal.Run.RegionProof F 0 where
  D := dats0
  hA := A_eq0
  hq := fun _ _ _ => rfl
  howed := fun _ _ _ => rfl
  hrec := fun _ _ _ => rfl
  hbody := body_obligation0
  hin := fun V c => hin0 V c _
  hout := hout0

end Cert.KernelIdeal.Gen

end
-- ==== Proof.V2eSteps.lean ====
/-
  The vertex-to-edge kernel (the second pallas_call): a grid of 8 edge tiles by 16 vertex tiles, the vertex axis the
  fast one. Along the 16 steps of one edge tile the kernel keeps two scratch buffers: the running product
  sum_v Xt[v, :]^T H[v, e-tile] (512 x 1024) and the running column sum sum_v H[v, e-tile] (1 x 1024). At the
  first step it clears both before adding the step's terms, at the last step it scales the product by the reciprocal
  of the column sum (zero where the sum is zero) and stores the tile of the output. This module states the two
  conditions on the grid coordinates in closed form, says where the output window is idle, and names the memrefs
  the body is called with.
-/
import proofs.«154376_j40303973106024_2_alg».proof.Proof.Gen.KernelIdeal.Launch
import proofs.«154376_j40303973106024_2_alg».proof.Proof.Gen.KernelIdeal.Skeleton
import proofs.«154376_j40303973106024_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinates -/

/-- The body's first conditional (clear the two scratch buffers): the vertex-tile coordinate is 0. -/
abbrev v2eFirst (i : grid1.Coords) : Prop :=
  (Scalar.cmpi .ne (Scalar.extui (Scalar.cmpi .eq (BitVec.ofNat 32 (i 1).val) 0#32)) 0#32) = 1#1
/-- It holds at the first of every 16 points. -/
theorem v2eFirst_iff : ∀ t : Fin cfg1.N, v2eFirst (grid1.coords t) ↔ t.val % 16 = 0 :=
  (by decide +kernel : ∀ t : Fin grid1.N, v2eFirst (grid1.coords t) ↔ t.val % 16 = 0)

/-- The body's second conditional (scale and store the output tile): the vertex-tile coordinate is 15. -/
abbrev v2eLast (i : grid1.Coords) : Prop := k1_cond2 i = 1#1
/-- It holds at the last of every 16 points. -/
theorem v2eLast_iff : ∀ t : Fin cfg1.N, v2eLast (grid1.coords t) ↔ t.val % 16 = 15 :=
  (by decide +kernel : ∀ t : Fin grid1.N, v2eLast (grid1.coords t) ↔ t.val % 16 = 15)

/-! ## Where the windows are idle -/

/-- The two input windows are never idle. -/
theorem v2eLive_0 : ∀ t : Fin cfg1.N, cfg1.idle 0 (grid1.coords t) = false := by decide +kernel
theorem v2eLive_1 : ∀ t : Fin cfg1.N, cfg1.idle 1 (grid1.coords t) = false := by decide +kernel
/-- Away from the last step the body stores nothing into the output window: it is idle there and not written back. -/
theorem v2eIdle_2 : ∀ t : Fin cfg1.N, ¬v2eLast (grid1.coords t) → cfg1.idle 2 (grid1.coords t) = true := by decide +kernel
theorem v2eNoFlush_2 : ∀ t : Fin cfg1.N, ¬v2eLast (grid1.coords t) → (cfg1.win 2).flush t = false := by decide +kernel
/-- At the last step the output window is live. -/
theorem v2eLive_2 : ∀ t : Fin cfg1.N, v2eLast (grid1.coords t) → cfg1.idle 2 (grid1.coords t) = false := by decide +kernel

/-! ## The memrefs the body is called with -/

/-- Each window's current staging memref at point `t`, as the pipeline passes it, and its wholeness. -/
abbrev v2eM0 (t : Fin cfg1.N) : Memref sig .tc .vmem S1024x1024 .f32 := win1_0.stage (cfg1.slots t 0)
abbrev v2eH0 (t : Fin cfg1.N) : (v2eM0 t).IsWhole := hstage1_0 ((cfg1.slots t 0).cast nbuf1_0)
abbrev v2eM1 (t : Fin cfg1.N) : Memref sig .tc .vmem S16384x512 .bf16 := win1_1.stage (cfg1.slots t 1)
abbrev v2eH1 (t : Fin cfg1.N) : (v2eM1 t).IsWhole := hstage1_1 ((cfg1.slots t 1).cast nbuf1_1)
abbrev v2eM2 (t : Fin cfg1.N) : Memref sig .tc .vmem S512x1024 .bf16 := win1_2.stage (cfg1.slots t 2)
abbrev v2eH2 (t : Fin cfg1.N) : (v2eM2 t).IsWhole := hstage1_2 ((cfg1.slots t 2).cast nbuf1_2)
/-- The two scratch buffers: the running product and the running column sum. -/
abbrev v2eAcc : Memref sig .tc .vmem S512x1024 .f32 := Memref.whole cc1_scratch0
abbrev v2eCol : Memref sig .tc .vmem S1x1024 .f32 := Memref.whole cc1_scratch1
/-- One staging buffer of the output window, and the scratch buffers, as views through which contents are stated. -/
abbrev v2eVOut : View sig .tc .vmem S512x1024 .bf16 := (Memref.whole cc1_stg2_0 : Memref sig .tc .vmem S512x1024 .bf16).view
abbrev v2eVAcc : View sig .tc .vmem S512x1024 .f32 := v2eAcc.view
abbrev v2eVCol : View sig .tc .vmem S1x1024 .f32 := v2eCol.view

end Cert.KernelIdeal.Gen

end
-- ==== Proof.V2eRunMid.lean ====
/-
  The vertex-to-edge kernel's body at a MIDDLE step (neither the first nor the last of the 16 steps of an edge tile),
  run once on whole memrefs at symbolic contents: the H tile and the resident Xt array are read and handed back as
  they were, the output's staging buffer is not touched, and each scratch buffer ends with the pieces the body
  stored into it (found by the symbolic execution).
-/
import proofs.«154376_j40303973106024_2_alg».proof.Proof.V2eSteps

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle step: from the H tile at `x0`, the resident Xt at `x1`, the output's buffer at `xi2`,
    the running product at `xs0` and the running column sum at `xs1`, it runs to its return with the inputs and the
    output's buffer as they were and each scratch buffer with its pieces written. -/
noncomputable def v2eRunMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i)
    (x0 : Vec F S1024x1024 .f32) (x1 : Vec F S16384x512 .bf16) (xs0 : Vec F S512x1024 .f32) (xs1 : Vec F S1x1024 .f32) :
    Σ' (LS0 : List (View.Piece (Elt F) S512x1024 .f32)), { LS1 : List (View.Piece (Elt F) S1x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, fun xi2 E K => ?run⟩
  case run =>
    simp only [cc1__v2e_kernel_eq_skeleton]; unfold cc1__v2e_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.V2eRunFirst.lean ====
/-
  The vertex-to-edge kernel's body at the FIRST step of an edge tile: it clears the two scratch buffers (whatever they
  held), then adds the step's terms as at every step. The output's staging buffer is not touched.
-/
import proofs.«154376_j40303973106024_2_alg».proof.Proof.V2eRunMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first step: from the H tile at `x0`, the resident Xt at `x1`, the output's buffer at `xi2` and the
    scratch buffers at anything, it runs to its return with the inputs and the output's buffer as they were and each
    scratch buffer with its pieces written. -/
noncomputable def v2eRunFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i)
    (x0 : Vec F S1024x1024 .f32) (x1 : Vec F S16384x512 .bf16) :
    Σ' (LS0 : List (View.Piece (Elt F) S512x1024 .f32)), { LS1 : List (View.Piece (Elt F) S1x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, fun xi2 E K => ?run⟩
  case run =>
    simp only [cc1__v2e_kernel_eq_skeleton]; unfold cc1__v2e_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.V2eRunLast.lean ====
/-
  The vertex-to-edge kernel's body at the LAST step of an edge tile: it adds the step's terms to the two scratch buffers
  as at every step, then multiplies the running product by the reciprocal of the running column sum (zero where the sum
  is zero) and stores the result, the output tile, into the output's staging buffer.
-/
import proofs.«154376_j40303973106024_2_alg».proof.Proof.V2eRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last step: from the H tile at `x0`, the resident Xt at `x1`, the output's buffer at anything, the
    running product at `xs0` and the running column sum at `xs1`, it runs to its return with the inputs as they were and
    the output's buffer and each scratch buffer with its pieces written. -/
noncomputable def v2eRunLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i)
    (x0 : Vec F S1024x1024 .f32) (x1 : Vec F S16384x512 .bf16) (xs0 : Vec F S512x1024 .f32) (xs1 : Vec F S1x1024 .f32) :
    Σ' (L2 : List (View.Piece (Elt F) S512x1024 .bf16)) (LS0 : List (View.Piece (Elt F) S512x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, ?_, fun E K => ?run⟩
  case run =>
    simp only [cc1__v2e_kernel_eq_skeleton]; unfold cc1__v2e_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.V2eData.lean ====
/-
  The vertex-to-edge kernel's proof data. What the two scratch buffers (running product, running column sum) and the
  output's staging buffer hold after each kind of step, as the pieces the body's run stored read back; what they hold
  after each grid point, by recursion on the point (the first step of an edge tile starts afresh, every other step
  continues from the point before); the invariant between points (before the first point every scoped buffer that is no
  staging buffer at anything; afterwards the two scratch buffers at the recursion's contents, the others at anything);
  and the body obligation at a generic point, by cases on the step's kind.
-/
import proofs.«154376_j40303973106024_2_alg».proof.Proof.V2eRunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The windows' blocks -/

/-- Window `w`'s block at point `t`, read off its array as the region finds it. -/
def v2eBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem v2eBefore_0 {c : Dev nD} (dat : Dat τ (Elt F) Unit ℕ (UR sig nD τ) ℕ cfg1 c)
    (hA : dat.A 0 = V c (Pipeline.arrRef spec1 0)) (hafter : ∀ t, dat.after 0 t = v2eBlk V c 0 t) (t : Fin cfg1.N) (d) :
    dat.before 0 t d = v2eBlk V c 0 t :=
  (dat.before_in_eq_fetched 0 rfl (fun _ => rfl) (fun _ _ _ => rfl) (fun t => by rw [hafter]; unfold Dat.blockOf v2eBlk; rw [hA]; try rfl) t d).trans
    (by unfold Dat.fetched Dat.blockOf v2eBlk; rw [hA]; try rfl)

/-- Input window 1's current staging buffer holds its block at every point, fetched there or not, for any proof data
    whose array is the region-entry contents and whose body leaves the block in place. -/
theorem v2eBefore_1 {c : Dev nD} (dat : Dat τ (Elt F) Unit ℕ (UR sig nD τ) ℕ cfg1 c)
    (hA : dat.A 1 = V c (Pipeline.arrRef spec1 1)) (hafter : ∀ t, dat.after 1 t = v2eBlk V c 1 t) (t : Fin cfg1.N) (d) :
    dat.before 1 t d = v2eBlk V c 1 t :=
  (dat.before_in_eq_fetched 1 rfl (fun _ => rfl) (fun _ _ _ => rfl) (fun t => by rw [hafter]; unfold Dat.blockOf v2eBlk; rw [hA]; try rfl) t d).trans
    (by unfold Dat.fetched Dat.blockOf v2eBlk; rw [hA]; try rfl)

/-! ## What each kind of step leaves -/

/-- The pieces a first step stores into each scratch buffer cover it. -/
theorem v2eCoverFirstAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) (y : S512x1024.Idx) :
    ∃ pc ∈ (v2eRunFirst c i arg2 harg2 arg3 harg3 arg4 harg4 arg5 harg5 arg6 harg6 hc0 hc1 x0 x1).1, y ∈ pc.1.set :=
  View.cover_of_tiledL (v2eRunFirst c i arg2 harg2 arg3 harg3 arg4 harg4 arg5 harg5 arg6 harg6 hc0 hc1 x0 x1).1 S512x1024.size (by sl_kernel_rfl) y
theorem v2eCoverFirstCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) (y : S1x1024.Idx) :
    ∃ pc ∈ (v2eRunFirst c i arg2 harg2 arg3 harg3 arg4 harg4 arg5 harg5 arg6 harg6 hc0 hc1 x0 x1).2.1, y ∈ pc.1.set :=
  View.cover_of_tiledL (v2eRunFirst c i arg2 harg2 arg3 harg3 arg4 harg4 arg5 harg5 arg6 harg6 hc0 hc1 x0 x1).2.1 S1x1024.size (by sl_kernel_rfl) y
/-- What a first step leaves in the running product and in the running column sum: its pieces read back. -/
def v2eAccFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) : Vec F S512x1024 .f32 :=
  v2eVAcc.read (Elt F) (v2eVAcc.writes (Elt F) v2eVAcc.junk (v2eRunFirst c i arg2 harg2 arg3 harg3 arg4 harg4 arg5 harg5 arg6 harg6 hc0 hc1 x0 x1).1)
def v2eColFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) : Vec F S1x1024 .f32 :=
  v2eVCol.read (Elt F) (v2eVCol.writes (Elt F) v2eVCol.junk (v2eRunFirst c i arg2 harg2 arg3 harg3 arg4 harg4 arg5 harg5 arg6 harg6 hc0 hc1 x0 x1).2.1)

/-- The pieces a middle step stores into each scratch buffer cover it. -/
theorem v2eCoverMidAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) (y : S512x1024.Idx) :
    ∃ pc ∈ (v2eRunMid c i arg2 harg2 arg3 harg3 arg4 harg4 arg5 harg5 arg6 harg6 hc0 hc1 x0 x1 xs0 xs1).1, y ∈ pc.1.set :=
  View.cover_of_tiledL (v2eRunMid c i arg2 harg2 arg3 harg3 arg4 harg4 arg5 harg5 arg6 harg6 hc0 hc1 x0 x1 xs0 xs1).1 S512x1024.size (by sl_kernel_rfl) y
theorem v2eCoverMidCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) (y : S1x1024.Idx) :
    ∃ pc ∈ (v2eRunMid c i arg2 harg2 arg3 harg3 arg4 harg4 arg5 harg5 arg6 harg6 hc0 hc1 x0 x1 xs0 xs1).2.1, y ∈ pc.1.set :=
  View.cover_of_tiledL (v2eRunMid c i arg2 harg2 arg3 harg3 arg4 harg4 arg5 harg5 arg6 harg6 hc0 hc1 x0 x1 xs0 xs1).2.1 S1x1024.size (by sl_kernel_rfl) y
/-- What a middle step leaves in the two scratch buffers. -/
def v2eAccMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) : Vec F S512x1024 .f32 :=
  v2eVAcc.read (Elt F) (v2eVAcc.writes (Elt F) v2eVAcc.junk (v2eRunMid c i arg2 harg2 arg3 harg3 arg4 harg4 arg5 harg5 arg6 harg6 hc0 hc1 x0 x1 xs0 xs1).1)
def v2eColMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) : Vec F S1x1024 .f32 :=
  v2eVCol.read (Elt F) (v2eVCol.writes (Elt F) v2eVCol.junk (v2eRunMid c i arg2 harg2 arg3 harg3 arg4 harg4 arg5 harg5 arg6 harg6 hc0 hc1 x0 x1 xs0 xs1).2.1)

/-- The pieces a last step stores into the output's staging buffer and into each scratch buffer cover them. -/
theorem v2eCoverLastOut (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S512x1024.Idx) :
    ∃ pc ∈ (v2eRunLast c i arg2 harg2 arg3 harg3 arg4 harg4 arg5 harg5 arg6 harg6 hc0 hc1 x0 x1 xs0 xs1).1, y ∈ pc.1.set :=
  View.cover_of_tiledL (v2eRunLast c i arg2 harg2 arg3 harg3 arg4 harg4 arg5 harg5 arg6 harg6 hc0 hc1 x0 x1 xs0 xs1).1 S512x1024.size (by sl_kernel_rfl) y
theorem v2eCoverLastAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S512x1024.Idx) :
    ∃ pc ∈ (v2eRunLast c i arg2 harg2 arg3 harg3 arg4 harg4 arg5 harg5 arg6 harg6 hc0 hc1 x0 x1 xs0 xs1).2.1, y ∈ pc.1.set :=
  View.cover_of_tiledL (v2eRunLast c i arg2 harg2 arg3 harg3 arg4 harg4 arg5 harg5 arg6 harg6 hc0 hc1 x0 x1 xs0 xs1).2.1 S512x1024.size (by sl_kernel_rfl) y
theorem v2eCoverLastCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S1x1024.Idx) :
    ∃ pc ∈ (v2eRunLast c i arg2 harg2 arg3 harg3 arg4 harg4 arg5 harg5 arg6 harg6 hc0 hc1 x0 x1 xs0 xs1).2.2.1, y ∈ pc.1.set :=
  View.cover_of_tiledL (v2eRunLast c i arg2 harg2 arg3 harg3 arg4 harg4 arg5 harg5 arg6 harg6 hc0 hc1 x0 x1 xs0 xs1).2.2.1 S1x1024.size (by sl_kernel_rfl) y
/-- What a last step leaves in the output's staging buffer and in the two scratch buffers. -/
def v2eOutLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S512x1024 .bf16 :=
  v2eVOut.read (Elt F) (v2eVOut.writes (Elt F) v2eVOut.junk (v2eRunLast c i arg2 harg2 arg3 harg3 arg4 harg4 arg5 harg5 arg6 harg6 hc0 hc1 x0 x1 xs0 xs1).1)
def v2eAccLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S512x1024 .f32 :=
  v2eVAcc.read (Elt F) (v2eVAcc.writes (Elt F) v2eVAcc.junk (v2eRunLast c i arg2 harg2 arg3 harg3 arg4 harg4 arg5 harg5 arg6 harg6 hc0 hc1 x0 x1 xs0 xs1).2.1)
def v2eColLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S1x1024 .f32 :=
  v2eVCol.read (Elt F) (v2eVCol.writes (Elt F) v2eVCol.junk (v2eRunLast c i arg2 harg2 arg3 harg3 arg4 harg4 arg5 harg5 arg6 harg6 hc0 hc1 x0 x1 xs0 xs1).2.2.1)

/-- The output window's contents where nothing consults them (a step that stores nothing into it: the window is idle
    there and not written back). -/
def v2eOutIdle : Vec F S512x1024 .bf16 := v2eVOut.read (Elt F) v2eVOut.junk

/-! ## What the buffers hold after each point -/

/-- THE ACCUMULATION: the output's staging buffer, the running product and the running column sum after the body at
    position `n`. A first step (position ≡ 0 mod 16) starts afresh from the point's blocks; every other step continues
    from what the point before left in the two scratch buffers; a last step (≡ 15 mod 16) also stores the output tile. -/
def v2eAt (c : Dev nD) : (n : ℕ) → n < cfg1.N → Vec F S512x1024 .bf16 × Vec F S512x1024 .f32 × Vec F S1x1024 .f32
  | 0, hn => (v2eOutIdle,
      v2eAccFirst c (grid1.coords ⟨0, hn⟩) (v2eM0 ⟨0, hn⟩) (v2eH0 ⟨0, hn⟩) (v2eM1 ⟨0, hn⟩) (v2eH1 ⟨0, hn⟩) (v2eM2 ⟨0, hn⟩) (v2eH2 ⟨0, hn⟩) v2eAcc (Memref.isWhole_whole _) v2eCol (Memref.isWhole_whole _) ((v2eFirst_iff ⟨0, hn⟩).mpr (Nat.zero_mod _)) (fun h => (fun h => by (try dsimp only at h); omega) ((v2eLast_iff ⟨0, hn⟩).mp h)) (v2eBlk V c 0 ⟨0, hn⟩) (v2eBlk V c 1 ⟨0, hn⟩),
      v2eColFirst c (grid1.coords ⟨0, hn⟩) (v2eM0 ⟨0, hn⟩) (v2eH0 ⟨0, hn⟩) (v2eM1 ⟨0, hn⟩) (v2eH1 ⟨0, hn⟩) (v2eM2 ⟨0, hn⟩) (v2eH2 ⟨0, hn⟩) v2eAcc (Memref.isWhole_whole _) v2eCol (Memref.isWhole_whole _) ((v2eFirst_iff ⟨0, hn⟩).mpr (Nat.zero_mod _)) (fun h => (fun h => by (try dsimp only at h); omega) ((v2eLast_iff ⟨0, hn⟩).mp h)) (v2eBlk V c 0 ⟨0, hn⟩) (v2eBlk V c 1 ⟨0, hn⟩))
  | n + 1, hn =>
    if h0 : (n + 1) % 16 = 0 then
      (v2eOutIdle,
        v2eAccFirst c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) ((v2eFirst_iff ⟨n + 1, hn⟩).mpr h0) (fun h => (fun h => by (try dsimp only at h); omega) ((v2eLast_iff ⟨n + 1, hn⟩).mp h)) (v2eBlk V c 0 ⟨n + 1, hn⟩) (v2eBlk V c 1 ⟨n + 1, hn⟩),
        v2eColFirst c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) ((v2eFirst_iff ⟨n + 1, hn⟩).mpr h0) (fun h => (fun h => by (try dsimp only at h); omega) ((v2eLast_iff ⟨n + 1, hn⟩).mp h)) (v2eBlk V c 0 ⟨n + 1, hn⟩) (v2eBlk V c 1 ⟨n + 1, hn⟩))
    else if h1 : (n + 1) % 16 = 15 then
      (v2eOutLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2,
        v2eAccLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2,
        v2eColLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2)
    else
      (v2eOutIdle,
        v2eAccMid c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) (fun h => h1 ((v2eLast_iff ⟨n + 1, hn⟩).mp h)) (v2eBlk V c 0 ⟨n + 1, hn⟩) (v2eBlk V c 1 ⟨n + 1, hn⟩) (v2eAt c n (Nat.lt_of_succ_lt hn)).2.1 (v2eAt c n (Nat.lt_of_succ_lt hn)).2.2,
        v2eColMid c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) (fun h => h1 ((v2eLast_iff ⟨n + 1, hn⟩).mp h)) (v2eBlk V c 0 ⟨n + 1, hn⟩) (v2eBlk V c 1 ⟨n + 1, hn⟩) (v2eAt c n (Nat.lt_of_succ_lt hn)).2.1 (v2eAt c n (Nat.lt_of_succ_lt hn)).2.2)

/-- The accumulation at a first step. -/
theorem v2eAt_first (c : Dev nD) (t : Fin cfg1.N) (h0 : t.val % 16 = 0) (h1 : ¬t.val % 16 = 15) :
    v2eAt V c t.val t.isLt = (v2eOutIdle,
      v2eAccFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t),
      v2eColFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t)) := by
  obtain ⟨n, hn⟩ := t
  cases n with
  | zero => exact rfl
  | succ n => exact (dif_pos h0).trans rfl

/-- The accumulation at a middle step: over what the point before left. -/
theorem v2eAt_mid (c : Dev nD) (t : Fin cfg1.N) (h0 : ¬t.val % 16 = 0) (h1 : ¬t.val % 16 = 15) :
    v2eAt V c t.val t.isLt = (v2eOutIdle,
      v2eAccMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eColMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The accumulation at a last step: over what the point before left, the output tile stored. -/
theorem v2eAt_last (c : Dev nD) (t : Fin cfg1.N) (h0 : ¬t.val % 16 = 0) (h1 : t.val % 16 = 15) :
    v2eAt V c t.val t.isLt = (v2eOutLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eAccLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eColLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Gen

end
-- ==== Proof.V2eBody.lean ====
/-
  The vertex-to-edge kernel's invariant, proof data and body obligation. Between grid points the two scratch buffers
  hold what the recursion of the accumulation says (before the very first point: anything), every other scoped buffer
  that is no staging buffer of this call holds anything; at a generic point the body's run for the step's kind applies,
  and what it stored, read back, is the recursion's next value.
-/
import proofs.«154376_j40303973106024_2_alg».proof.Proof.V2eData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The scoped buffers beside the two scratch buffers -/

/-- Every scoped buffer of the core that is neither a staging buffer of this call nor one of its two scratch buffers,
    each whole at some contents. -/
def v2eOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers that are no staging buffer of this call: the two scratch buffers at anything beside the others. -/
theorem v2eScoped_split (c : Dev nD) :
    (Pipeline.scopedRest (Ix := Unit) (Name := ℕ) (U := UR sig nD τ) (Lvl := ℕ) (Val := Elt F) spec1 c : sProp 𝕄)
      ⊢ iprop((∃ d, owns (c : Thread nD τ) v2eAcc fullShare d) ∗ (∃ d, owns (c : Thread nD τ) v2eCol fullShare d) ∗ v2eOthers c) := by
  rw [scopedRest1_eq]; unfold v2eOthers; simp only [v2eAcc, v2eCol, owns_whole]
  iintro ⟨H1, H2, H3, H4, H5, H6, HS0, HS1, H9, H10, H11, H12, H13, H14, H15⟩
  isplitl [HS0]; · iexact HS0
  isplitl [HS1]; · iexact HS1
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  iexact H15

theorem v2eScoped_join (c : Dev nD) :
    iprop((∃ d, owns (c : Thread nD τ) v2eAcc fullShare d) ∗ (∃ d, owns (c : Thread nD τ) v2eCol fullShare d) ∗ v2eOthers c)
      ⊢ (Pipeline.scopedRest (Ix := Unit) (Name := ℕ) (U := UR sig nD τ) (Lvl := ℕ) (Val := Elt F) spec1 c : sProp 𝕄) := by
  rw [scopedRest1_eq]; unfold v2eOthers; simp only [v2eAcc, v2eCol, owns_whole]
  iintro ⟨HS0, HS1, H1, H2, H3, H4, H5, H6, H9, H10, H11, H12, H13, H14, H15⟩
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [H9]; · iexact H9
  isplitl [H10]; · iexact H10
  isplitl [H11]; · iexact H11
  isplitl [H12]; · iexact H12
  isplitl [H13]; · iexact H13
  isplitl [H14]; · iexact H14
  iexact H15

/-! ## The invariant between points -/

/-- Before position `n`: at the very first point the scoped buffers as the launch hands them; afterwards the two scratch
    buffers at what the point before left, the others at anything. -/
def v2ePhi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) v2eAcc fullShare (v2eAt V c n hn).2.1 ∗ owns (c : Thread nD τ) v2eCol fullShare (v2eAt V c n hn).2.2 ∗ v2eOthers c)

theorem v2ePhi_succ (c : Dev nD) (n : ℕ) (hn : n < cfg1.N) :
    v2ePhi V c (n + 1) hn = iprop(owns (c : Thread nD τ) v2eAcc fullShare (v2eAt V c n hn).2.1 ∗ owns (c : Thread nD τ) v2eCol fullShare (v2eAt V c n hn).2.2 ∗ v2eOthers c) := rfl

theorem v2ePhi_pos (c : Dev nD) (n : ℕ) (h : n ≤ cfg1.N) (hz : n ≠ 0) :
    v2ePhi V c n h = iprop(owns (c : Thread nD τ) v2eAcc fullShare (v2eAt V c (n - 1) (by omega)).2.1 ∗ owns (c : Thread nD τ) v2eCol fullShare (v2eAt V c (n - 1) (by omega)).2.2 ∗ v2eOthers c) := by
  cases n with
  | zero => exact absurd rfl hz
  | succ n => rfl

/-- At any position the invariant gives the two scratch buffers at some contents beside the others. -/
theorem v2ePhi_forget (c : Dev nD) (n : ℕ) (h : n ≤ cfg1.N) :
    v2ePhi V c n h ⊢ iprop((∃ d, owns (c : Thread nD τ) v2eAcc fullShare d) ∗ (∃ d, owns (c : Thread nD τ) v2eCol fullShare d) ∗ v2eOthers c) := by
  cases n with
  | zero => exact v2eScoped_split c
  | succ n =>
    rw [v2ePhi_succ]
    iintro ⟨HS0, HS1, Hr⟩
    isplitl [HS0]; · iexists _; iexact HS0
    isplitl [HS1]; · iexists _; iexact HS1
    iexact Hr

/-! ## The proof data -/

/-- The proof data on core `c`: the arrays as the region finds them; after the body each input's buffer at its block
    and the output's at the accumulation's first component; the invariant above; nothing owed; full shares. -/
def v2eDat (c : Dev nD) : Dat τ (Elt F) Unit ℕ (UR sig nD τ) ℕ cfg1 c where
  A w := V c (Pipeline.arrRef spec1 w)
  after w t := match w with
    | ⟨0, _⟩ => v2eBlk V c 0 t
    | ⟨1, _⟩ => v2eBlk V c 1 t
    | ⟨2, _⟩ => (v2eAt V c t.val t.isLt).1
  Φ t := v2ePhi V c t.val (Nat.le_of_lt_succ t.isLt)
  q _ := fullShare
  owed _ := 0

theorem v2eDat_A (c : Dev nD) (w : Fin cfg1.W) : (v2eDat V c).A w = V c (Pipeline.arrRef spec1 w) := by
  dsimp only [v2eDat]

theorem v2ePhi_castSucc (c : Dev nD) (t : Fin cfg1.N) :
    (v2eDat V c).Φ t.castSucc = v2ePhi V c t.val (Nat.le_of_lt t.isLt) := by
  dsimp only [v2eDat]; simp only [Fin.coe_castSucc]

theorem v2eAfter_0 (c : Dev nD) (t : Fin cfg1.N) : (v2eDat V c).after 0 t = v2eBlk V c 0 t := by dsimp only [v2eDat]
theorem v2eAfter_1 (c : Dev nD) (t : Fin cfg1.N) : (v2eDat V c).after 1 t = v2eBlk V c 1 t := by dsimp only [v2eDat]
theorem v2eAfter_2 (c : Dev nD) (t : Fin cfg1.N) : (v2eDat V c).after 2 t = (v2eAt V c t.val t.isLt).1 := by dsimp only [v2eDat]

theorem v2eBeforeDat_0 (c : Dev nD) (t : Fin cfg1.N) (d) : (v2eDat V c).before 0 t d = v2eBlk V c 0 t :=
  v2eBefore_0 V (v2eDat V c) (v2eDat_A V c 0) (v2eAfter_0 V c) t d
theorem v2eBeforeDat_1 (c : Dev nD) (t : Fin cfg1.N) (d) : (v2eDat V c).before 1 t d = v2eBlk V c 1 t :=
  v2eBefore_1 V (v2eDat V c) (v2eDat_A V c 1) (v2eAfter_1 V c) t d

/-! ## The body obligation, at a generic point -/

/-- What the body is called with at point `t`, -/
def v2ePre (c : Dev nD) (t : Fin cfg1.N) : sProp 𝕄 :=
  iprop((v2eDat V c).Φ t.castSucc ∗ (v2eDat V c).owesAt () t.castSucc
    ∗ (∃ d, owns (c : Thread nD τ) (v2eM0 t) fullShare ((v2eDat V c).before 0 t d))
    ∗ (∃ d, owns (c : Thread nD τ) (v2eM1 t) fullShare ((v2eDat V c).before 1 t d))
    ∗ (∃ d, owns (c : Thread nD τ) (v2eM2 t) fullShare ((v2eDat V c).before 2 t d)))

/-- and what it returns. -/
def v2ePost (c : Dev nD) (t : Fin cfg1.N) : sProp 𝕄 :=
  iprop((v2eDat V c).Φ t.succ ∗ (v2eDat V c).owesAt () t.succ
    ∗ (v2eDat V c).leavesExact 0 t
    ∗ (v2eDat V c).leavesExact 1 t
    ∗ (v2eDat V c).leavesExact 2 t)

set_option maxHeartbeats 4800000 in
/-- The body at any point: the inputs' buffers hold their blocks; the step's kind is decided by the position modulo 16;
    the invariant hands the body the two scratch buffers at what the point before left (at anything where the step
    clears them) and takes them back at this point's contents. -/
theorem v2eSound (c : Dev nD) (t : Fin cfg1.N) :
    v2ePre V c t ⊢ wp frame (wpE (defs₀ (F := F)) Variants.none c none) Set.univ (bodyAt1 t) (fun _ => v2ePost V c t) := by
  unfold v2ePre v2ePost bodyAt1
  simp only [v2eBeforeDat_0, v2eBeforeDat_1]
  rw [show (v2eDat V c).owesAt () t.succ = (v2eDat V c).owesAt () t.castSucc from rfl]
  rw [show (v2eDat V c).Φ t.succ = v2ePhi V c (t.val + 1) t.isLt from rfl, v2ePhi_succ]
  rw [show (v2eDat V c).leavesExact 0 t = owns (c : Thread nD τ) (v2eM0 t) fullShare ((v2eDat V c).after 0 t) from by
    unfold Dat.leavesExact; rw [v2eLive_0 t], v2eAfter_0]
  rw [show (v2eDat V c).leavesExact 1 t = owns (c : Thread nD τ) (v2eM1 t) fullShare ((v2eDat V c).after 1 t) from by
    unfold Dat.leavesExact; rw [v2eLive_1 t], v2eAfter_1]
  have hN : t.val < 128 := lt_of_lt_of_eq t.isLt (show cfg1.N = 128 from N_1)
  by_cases h0 : t.val % 16 = 0
  · have h1 : ¬t.val % 16 = 15 := by omega
    rw [Dat.leavesExact_idle (v2eDat V c) 2 t (v2eIdle_2 t (fun h => h1 ((v2eLast_iff t).mp h))) (v2eNoFlush_2 t (fun h => h1 ((v2eLast_iff t).mp h)))]
    rw [v2eAt_first V c t h0 h1]
    unfold v2eAccFirst v2eColFirst; (try dsimp only)
    rw [v2ePhi_castSucc V c t]
    iintro ⟨HΦ, Ho, ⟨%d0, H0⟩, ⟨%d1, H1⟩, ⟨%d2, H2⟩⟩
    ihave HΦ' := (v2ePhi_forget V c t.val (Nat.le_of_lt t.isLt)) $$ HΦ
    icases HΦ' with ⟨HS0, HS1, Hr⟩
    iapply ((v2eRunFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (v2eCoverFirstAcc c _ _ _ _ _ _ _ _ _ _ _ _ _ _ _)
      isplitl [HS1]
      · unfold owns; iexists _; isplitr
        swap; · iexact HS1
        ipureintro; exact View.read_writes_of_cover _ _ _ _ _ (v2eCoverFirstCol c _ _ _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (v2eDat V c).leavesExact 2 t = owns (c : Thread nD τ) (v2eM2 t) fullShare ((v2eDat V c).after 2 t) from by
        unfold Dat.leavesExact; rw [v2eLive_2 t ((v2eLast_iff t).mpr h1)], v2eAfter_2]
      rw [v2eAt_last V c t h0 h1]
      unfold v2eOutLast v2eAccLast v2eColLast; (try dsimp only)
      rw [v2ePhi_castSucc V c t, v2ePhi_pos V c _ _ hz]
      iintro ⟨⟨HS0, HS1, Hr⟩, Ho, ⟨%d0, H0⟩, ⟨%d1, H1⟩, ⟨%d2, H2⟩⟩
      iapply ((v2eRunLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (v2eCoverLastAcc c _ _ _ _ _ _ _ _ _ _ _ _ _ _ _ _ _)
        isplitl [HS1]
        · unfold owns; iexists _; isplitr
          swap; · iexact HS1
          ipureintro; exact View.read_writes_of_cover _ _ _ _ _ (v2eCoverLastCol c _ _ _ _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (v2eCoverLastOut c _ _ _ _ _ _ _ _ _ _ _ _ _ _ _ _ _)
    · rw [Dat.leavesExact_idle (v2eDat V c) 2 t (v2eIdle_2 t (fun h => h1 ((v2eLast_iff t).mp h))) (v2eNoFlush_2 t (fun h => h1 ((v2eLast_iff t).mp h)))]
      rw [v2eAt_mid V c t h0 h1]
      unfold v2eAccMid v2eColMid; (try dsimp only)
      rw [v2ePhi_castSucc V c t, v2ePhi_pos V c _ _ hz]
      iintro ⟨⟨HS0, HS1, Hr⟩, Ho, ⟨%d0, H0⟩, ⟨%d1, H1⟩, ⟨%d2, H2⟩⟩
      iapply ((v2eRunMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (v2eCoverMidAcc c _ _ _ _ _ _ _ _ _ _ _ _ _ _ _ _ _)
        isplitl [HS1]
        · unfold owns; iexists _; isplitr
          swap; · iexact HS1
          ipureintro; exact View.read_writes_of_cover _ _ _ _ _ (v2eCoverMidCol c _ _ _ _ _ _ _ _ _ _ _ _ _ _ _ _ _)
        iexact Hr
      isplitl [Ho]; · iexact Ho
      isplitl [H0]; · iexact H0
      isplitl [H1]; · iexact H1
      iexists _; iexact H2

/-- The library's body obligation, at every point. -/
theorem v2eBody (c : Dev nD) : BodyObligation (v2eDat (F := F) V c) (defs₀ (F := F)) Variants.none () Set.univ := fun t => by
  rw [bigSep_W1, bigSep_W1]
  exact v2eSound V c t

/-- What the launch hands the region is the invariant before the first point. -/
theorem v2ePhi_in (c : Dev nD) :
    (Pipeline.scopedRest (Ix := Unit) (Name := ℕ) (U := UR sig nD τ) (Lvl := ℕ) (Val := Elt F) spec1 c : sProp 𝕄) ⊢ (v2eDat V c).Φ 0 :=
  Idealize.SL.BI.Entails.refl _

/-- After the last point the invariant gives the scoped buffers back, the scratch buffers' contents forgotten. -/
theorem v2ePhi_out (c : Dev nD) :
    (v2eDat V c).Φ (Fin.last cfg1.N) ⊢ (Pipeline.scopedRest (Ix := Unit) (Name := ℕ) (U := UR sig nD τ) (Lvl := ℕ) (Val := Elt F) spec1 c : sProp 𝕄) :=
  (show v2ePhi V c (Fin.last cfg1.N).val (Nat.le_of_lt_succ (Fin.last cfg1.N).isLt) ⊢ _ from v2ePhi_forget V c _ _).trans (v2eScoped_join c)

end Cert.KernelIdeal.Gen

end
-- ==== Proof.V2eRegion.lean ====
/-
  The vertex-to-edge kernel's region as the run of @main takes it: its proof data over the region-entry contents, the
  body obligation, and the invariant at the two ends made of, and giving back, the scoped buffers no window stages.
-/
import proofs.«154376_j40303973106024_2_alg».proof.Proof.V2eBody
import proofs.«154376_j40303973106024_2_alg».proof.Proof.RegionProof

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-- The invariant at the first point is the scoped buffers no window stages, whatever rides beside them. -/
theorem v2eIn (c : Dev nD) (P : sProp 𝕄) :
    iprop(emp ∗ P ∗ Pipeline.scopedRest (Ix := Unit) (Name := ℕ) (U := UR sig nD τ) (Lvl := ℕ) (Val := Elt F) spec1 c) ⊢ (v2eDat V c).Φ 0 := by
  iintro ⟨-, -, Hr⟩
  iapply (v2ePhi_in V c)
  iexact Hr

/-- The invariant at the last point gives those buffers back; the kernel has no semaphore of its own. -/
theorem v2eOut (c : Dev nD) :
    (v2eDat V c).Φ (Fin.last cfg1.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec1 c) := by
  rw [Pipeline.ownSems0_none]
  iintro H
  isplitr; · iempintro
  isplitr; · iempintro
  iapply (v2ePhi_out V c)
  iexact H

/-- The region's part of the run. -/
def v2eRegion : Cert.KernelIdeal.Run.RegionProof F 1 where
  D := fun V c => v2eDat V c
  hA := fun V c w => v2eDat_A V c w
  hq := fun _ _ _ => rfl
  howed := fun _ _ _ => rfl
  hrec := fun _ _ _ => rfl
  hbody := fun V c => v2eBody V c
  hin := fun V c => v2eIn V c _
  hout := fun V c => v2eOut V c

end Cert.KernelIdeal.Gen

end
-- ==== Proof.E2vSteps.lean ====
/-
  The edge-to-vertex kernel (the third pallas_call): a grid of 16 vertex tiles by 4 edge tiles, the edge axis the fast
  one. Along the 4 steps of one vertex tile the kernel keeps two scratch buffers: the running product
  sum_e H[v-tile, e] XeT[:, e]^T (1024 x 512) and the running row sum sum_e H[v-tile, e] (1024 x 1). At the first step
  it clears both before adding the step's terms, at the last step it scales the product by the reciprocal of the row sum
  (zero where the sum is zero), takes the maximum with zero and stores the tile of the output. This module states the
  two conditions on the grid coordinates in closed form, says where the output window is idle, and names the memrefs
  the body is called with.
-/
import proofs.«154376_j40303973106024_2_alg».proof.Proof.Gen.KernelIdeal.Launch
import proofs.«154376_j40303973106024_2_alg».proof.Proof.Gen.KernelIdeal.Skeleton
import proofs.«154376_j40303973106024_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinates -/

/-- The body's first conditional (clear the two scratch buffers): the edge-tile coordinate is 0. -/
abbrev e2vFirst (i : grid2.Coords) : Prop :=
  (Scalar.cmpi .ne (Scalar.extui (Scalar.cmpi .eq (BitVec.ofNat 32 (i 1).val) 0#32)) 0#32) = 1#1
/-- It holds at the first of every 4 points. -/
theorem e2vFirst_iff : ∀ t : Fin cfg2.N, e2vFirst (grid2.coords t) ↔ t.val % 4 = 0 :=
  (by decide +kernel : ∀ t : Fin grid2.N, e2vFirst (grid2.coords t) ↔ t.val % 4 = 0)

/-- The body's second conditional (scale and store the output tile): the edge-tile coordinate is 3. -/
abbrev e2vLast (i : grid2.Coords) : Prop := k2_cond2 i = 1#1
/-- It holds at the last of every 4 points. -/
theorem e2vLast_iff : ∀ t : Fin cfg2.N, e2vLast (grid2.coords t) ↔ t.val % 4 = 3 :=
  (by decide +kernel : ∀ t : Fin grid2.N, e2vLast (grid2.coords t) ↔ t.val % 4 = 3)

/-! ## Where the windows are idle -/

/-- The two input windows are never idle. -/
theorem e2vLive_0 : ∀ t : Fin cfg2.N, cfg2.idle 0 (grid2.coords t) = false := by decide +kernel
theorem e2vLive_1 : ∀ t : Fin cfg2.N, cfg2.idle 1 (grid2.coords t) = false := by decide +kernel
/-- Away from the last step the body stores nothing into the output window: it is idle there and not written back. -/
theorem e2vIdle_2 : ∀ t : Fin cfg2.N, ¬e2vLast (grid2.coords t) → cfg2.idle 2 (grid2.coords t) = true := by decide +kernel
theorem e2vNoFlush_2 : ∀ t : Fin cfg2.N, ¬e2vLast (grid2.coords t) → (cfg2.win 2).flush t = false := by decide +kernel
/-- At the last step the output window is live. -/
theorem e2vLive_2 : ∀ t : Fin cfg2.N, e2vLast (grid2.coords t) → cfg2.idle 2 (grid2.coords t) = false := by decide +kernel

/-! ## The memrefs the body is called with -/

/-- Each window's current staging memref at point `t`, as the pipeline passes it, and its wholeness. -/
abbrev e2vM0 (t : Fin cfg2.N) : Memref sig .tc .vmem S1024x2048 .f32 := win2_0.stage (cfg2.slots t 0)
abbrev e2vH0 (t : Fin cfg2.N) : (e2vM0 t).IsWhole := hstage2_0 ((cfg2.slots t 0).cast nbuf2_0)
abbrev e2vM1 (t : Fin cfg2.N) : Memref sig .tc .vmem S512x8192 .bf16 := win2_1.stage (cfg2.slots t 1)
abbrev e2vH1 (t : Fin cfg2.N) : (e2vM1 t).IsWhole := hstage2_1 ((cfg2.slots t 1).cast nbuf2_1)
abbrev e2vM2 (t : Fin cfg2.N) : Memref sig .tc .vmem S1024x512 .f32 := win2_2.stage (cfg2.slots t 2)
abbrev e2vH2 (t : Fin cfg2.N) : (e2vM2 t).IsWhole := hstage2_2 ((cfg2.slots t 2).cast nbuf2_2)
/-- The two scratch buffers: the running product and the running row sum. -/
abbrev e2vAcc : Memref sig .tc .vmem S1024x512 .f32 := Memref.whole cc2_scratch0
abbrev e2vCol : Memref sig .tc .vmem S1024x1 .f32 := Memref.whole cc2_scratch1
/-- One staging buffer of the output window, and the scratch buffers, as views through which contents are stated. -/
abbrev e2vVOut : View sig .tc .vmem S1024x512 .f32 := (Memref.whole cc2_stg2_0 : Memref sig .tc .vmem S1024x512 .f32).view
abbrev e2vVAcc : View sig .tc .vmem S1024x512 .f32 := e2vAcc.view
abbrev e2vVCol : View sig .tc .vmem S1024x1 .f32 := e2vCol.view

end Cert.KernelIdeal.Gen

end
-- ==== Proof.E2vRunMid.lean ====
/-
  The edge-to-vertex kernel's body at a MIDDLE step (neither the first nor the last of the 4 steps of a vertex tile),
  run once on whole memrefs at symbolic contents: the H tile and the resident XeT array are read and handed back as
  they were, the output's staging buffer is not touched, and each scratch buffer ends with the pieces the body
  stored into it (found by the symbolic execution).
-/
import proofs.«154376_j40303973106024_2_alg».proof.Proof.E2vSteps

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle step: from the H tile at `x0`, the resident XeT at `x1`, the output's buffer at `xi2`,
    the running product at `xs0` and the running row sum at `xs1`, it runs to its return with the inputs and the
    output's buffer as they were and each scratch buffer with its pieces written. -/
noncomputable def e2vRunMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i)
    (x0 : Vec F S1024x2048 .f32) (x1 : Vec F S512x8192 .bf16) (xs0 : Vec F S1024x512 .f32) (xs1 : Vec F S1024x1 .f32) :
    Σ' (LS0 : List (View.Piece (Elt F) S1024x512 .f32)), { LS1 : List (View.Piece (Elt F) S1024x1 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, fun xi2 E K => ?run⟩
  case run =>
    simp only [cc2__e2v_kernel_eq_skeleton]; unfold cc2__e2v_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.E2vRunFirst.lean ====
/-
  The edge-to-vertex kernel's body at the FIRST step of a vertex tile: it clears the two scratch buffers (whatever they
  held), then adds the step's terms as at every step. The output's staging buffer is not touched.
-/
import proofs.«154376_j40303973106024_2_alg».proof.Proof.E2vRunMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first step: from the H tile at `x0`, the resident XeT at `x1`, the output's buffer at `xi2` and the
    scratch buffers at anything, it runs to its return with the inputs and the output's buffer as they were and each
    scratch buffer with its pieces written. -/
noncomputable def e2vRunFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i)
    (x0 : Vec F S1024x2048 .f32) (x1 : Vec F S512x8192 .bf16) :
    Σ' (LS0 : List (View.Piece (Elt F) S1024x512 .f32)), { LS1 : List (View.Piece (Elt F) S1024x1 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, fun xi2 E K => ?run⟩
  case run =>
    simp only [cc2__e2v_kernel_eq_skeleton]; unfold cc2__e2v_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.E2vRunLast.lean ====
/-
  The edge-to-vertex kernel's body at the LAST step of a vertex tile: it adds the step's terms to the two scratch buffers
  as at every step, then multiplies the running product by the reciprocal of the running row sum (zero where the sum
  is zero), takes the maximum with zero and stores the result, the output tile, into the output's staging buffer.
-/
import proofs.«154376_j40303973106024_2_alg».proof.Proof.E2vRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last step: from the H tile at `x0`, the resident XeT at `x1`, the output's buffer at anything, the
    running product at `xs0` and the running row sum at `xs1`, it runs to its return with the inputs as they were and
    the output's buffer and each scratch buffer with its pieces written. -/
noncomputable def e2vRunLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i)
    (x0 : Vec F S1024x2048 .f32) (x1 : Vec F S512x8192 .bf16) (xs0 : Vec F S1024x512 .f32) (xs1 : Vec F S1024x1 .f32) :
    Σ' (L2 : List (View.Piece (Elt F) S1024x512 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, ?_, fun E K => ?run⟩
  case run =>
    simp only [cc2__e2v_kernel_eq_skeleton]; unfold cc2__e2v_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.E2vData.lean ====
/-
  The edge-to-vertex kernel's proof data. What the two scratch buffers (running product, running row sum) and the
  output's staging buffer hold after each kind of step, as the pieces the body's run stored read back; what they hold
  after each grid point, by recursion on the point (the first step of a vertex tile starts afresh, every other step
  continues from the point before); and the windows' blocks read off the arrays as the region finds them.
-/
import proofs.«154376_j40303973106024_2_alg».proof.Proof.E2vRunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The windows' blocks -/

/-- Window `w`'s block at point `t`, read off its array as the region finds it. -/
def e2vBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place. -/
theorem e2vBefore_0 {c : Dev nD} (dat : Dat τ (Elt F) Unit ℕ (UR sig nD τ) ℕ cfg2 c)
    (hA : dat.A 0 = V c (Pipeline.arrRef spec2 0)) (hafter : ∀ t, dat.after 0 t = e2vBlk V c 0 t) (t : Fin cfg2.N) (d) :
    dat.before 0 t d = e2vBlk V c 0 t :=
  (dat.before_in_eq_fetched 0 rfl (fun _ => rfl) (fun _ _ _ => rfl) (fun t => by rw [hafter]; unfold Dat.blockOf e2vBlk; rw [hA]; try rfl) t d).trans
    (by unfold Dat.fetched Dat.blockOf e2vBlk; rw [hA]; try rfl)

/-- Input window 1's current staging buffer holds its block at every point, fetched there or not, for any proof data
    whose array is the region-entry contents and whose body leaves the block in place. -/
theorem e2vBefore_1 {c : Dev nD} (dat : Dat τ (Elt F) Unit ℕ (UR sig nD τ) ℕ cfg2 c)
    (hA : dat.A 1 = V c (Pipeline.arrRef spec2 1)) (hafter : ∀ t, dat.after 1 t = e2vBlk V c 1 t) (t : Fin cfg2.N) (d) :
    dat.before 1 t d = e2vBlk V c 1 t :=
  (dat.before_in_eq_fetched 1 rfl (fun _ => rfl) (fun _ _ _ => rfl) (fun t => by rw [hafter]; unfold Dat.blockOf e2vBlk; rw [hA]; try rfl) t d).trans
    (by unfold Dat.fetched Dat.blockOf e2vBlk; rw [hA]; try rfl)

/-! ## What each kind of step leaves -/

/-- The pieces a first step stores into each scratch buffer cover it. -/
theorem e2vCoverFirstAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) (y : S1024x512.Idx) :
    ∃ pc ∈ (e2vRunFirst c i arg2 harg2 arg3 harg3 arg4 harg4 arg5 harg5 arg6 harg6 hc0 hc1 x0 x1).1, y ∈ pc.1.set :=
  View.cover_of_tiledL (e2vRunFirst c i arg2 harg2 arg3 harg3 arg4 harg4 arg5 harg5 arg6 harg6 hc0 hc1 x0 x1).1 S1024x512.size (by sl_kernel_rfl) y
theorem e2vCoverFirstCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) (y : S1024x1.Idx) :
    ∃ pc ∈ (e2vRunFirst c i arg2 harg2 arg3 harg3 arg4 harg4 arg5 harg5 arg6 harg6 hc0 hc1 x0 x1).2.1, y ∈ pc.1.set :=
  View.cover_of_tiledL (e2vRunFirst c i arg2 harg2 arg3 harg3 arg4 harg4 arg5 harg5 arg6 harg6 hc0 hc1 x0 x1).2.1 S1024x1.size (by sl_kernel_rfl) y
/-- What a first step leaves in the running product and in the running row sum: its pieces read back. -/
def e2vAccFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) : Vec F S1024x512 .f32 :=
  e2vVAcc.read (Elt F) (e2vVAcc.writes (Elt F) e2vVAcc.junk (e2vRunFirst c i arg2 harg2 arg3 harg3 arg4 harg4 arg5 harg5 arg6 harg6 hc0 hc1 x0 x1).1)
def e2vColFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) : Vec F S1024x1 .f32 :=
  e2vVCol.read (Elt F) (e2vVCol.writes (Elt F) e2vVCol.junk (e2vRunFirst c i arg2 harg2 arg3 harg3 arg4 harg4 arg5 harg5 arg6 harg6 hc0 hc1 x0 x1).2.1)

/-- The pieces a middle step stores into each scratch buffer cover it. -/
theorem e2vCoverMidAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) (y : S1024x512.Idx) :
    ∃ pc ∈ (e2vRunMid c i arg2 harg2 arg3 harg3 arg4 harg4 arg5 harg5 arg6 harg6 hc0 hc1 x0 x1 xs0 xs1).1, y ∈ pc.1.set :=
  View.cover_of_tiledL (e2vRunMid c i arg2 harg2 arg3 harg3 arg4 harg4 arg5 harg5 arg6 harg6 hc0 hc1 x0 x1 xs0 xs1).1 S1024x512.size (by sl_kernel_rfl) y
theorem e2vCoverMidCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) (y : S1024x1.Idx) :
    ∃ pc ∈ (e2vRunMid c i arg2 harg2 arg3 harg3 arg4 harg4 arg5 harg5 arg6 harg6 hc0 hc1 x0 x1 xs0 xs1).2.1, y ∈ pc.1.set :=
  View.cover_of_tiledL (e2vRunMid c i arg2 harg2 arg3 harg3 arg4 harg4 arg5 harg5 arg6 harg6 hc0 hc1 x0 x1 xs0 xs1).2.1 S1024x1.size (by sl_kernel_rfl) y
/-- What a middle step leaves in the two scratch buffers. -/
def e2vAccMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) : Vec F S1024x512 .f32 :=
  e2vVAcc.read (Elt F) (e2vVAcc.writes (Elt F) e2vVAcc.junk (e2vRunMid c i arg2 harg2 arg3 harg3 arg4 harg4 arg5 harg5 arg6 harg6 hc0 hc1 x0 x1 xs0 xs1).1)
def e2vColMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) : Vec F S1024x1 .f32 :=
  e2vVCol.read (Elt F) (e2vVCol.writes (Elt F) e2vVCol.junk (e2vRunMid c i arg2 harg2 arg3 harg3 arg4 harg4 arg5 harg5 arg6 harg6 hc0 hc1 x0 x1 xs0 xs1).2.1)

/-- The pieces a last step stores into the output's staging buffer and into each scratch buffer cover them. -/
theorem e2vCoverLastOut (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x512.Idx) :
    ∃ pc ∈ (e2vRunLast c i arg2 harg2 arg3 harg3 arg4 harg4 arg5 harg5 arg6 harg6 hc0 hc1 x0 x1 xs0 xs1).1, y ∈ pc.1.set :=
  View.cover_of_tiledL (e2vRunLast c i arg2 harg2 arg3 harg3 arg4 harg4 arg5 harg5 arg6 harg6 hc0 hc1 x0 x1 xs0 xs1).1 S1024x512.size (by sl_kernel_rfl) y
theorem e2vCoverLastAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x512.Idx) :
    ∃ pc ∈ (e2vRunLast c i arg2 harg2 arg3 harg3 arg4 harg4 arg5 harg5 arg6 harg6 hc0 hc1 x0 x1 xs0 xs1).2.1, y ∈ pc.1.set :=
  View.cover_of_tiledL (e2vRunLast c i arg2 harg2 arg3 harg3 arg4 harg4 arg5 harg5 arg6 harg6 hc0 hc1 x0 x1 xs0 xs1).2.1 S1024x512.size (by sl_kernel_rfl) y
theorem e2vCoverLastCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x1.Idx) :
    ∃ pc ∈ (e2vRunLast c i arg2 harg2 arg3 harg3 arg4 harg4 arg5 harg5 arg6 harg6 hc0 hc1 x0 x1 xs0 xs1).2.2.1, y ∈ pc.1.set :=
  View.cover_of_tiledL (e2vRunLast c i arg2 harg2 arg3 harg3 arg4 harg4 arg5 harg5 arg6 harg6 hc0 hc1 x0 x1 xs0 xs1).2.2.1 S1024x1.size (by sl_kernel_rfl) y
/-- What a last step leaves in the output's staging buffer and in the two scratch buffers. -/
def e2vOutLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x512 .f32 :=
  e2vVOut.read (Elt F) (e2vVOut.writes (Elt F) e2vVOut.junk (e2vRunLast c i arg2 harg2 arg3 harg3 arg4 harg4 arg5 harg5 arg6 harg6 hc0 hc1 x0 x1 xs0 xs1).1)
def e2vAccLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x512 .f32 :=
  e2vVAcc.read (Elt F) (e2vVAcc.writes (Elt F) e2vVAcc.junk (e2vRunLast c i arg2 harg2 arg3 harg3 arg4 harg4 arg5 harg5 arg6 harg6 hc0 hc1 x0 x1 xs0 xs1).2.1)
def e2vColLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x1 .f32 :=
  e2vVCol.read (Elt F) (e2vVCol.writes (Elt F) e2vVCol.junk (e2vRunLast c i arg2 harg2 arg3 harg3 arg4 harg4 arg5 harg5 arg6 harg6 hc0 hc1 x0 x1 xs0 xs1).2.2.1)

/-- The output window's contents where nothing consults them (a step that stores nothing into it: the window is idle
    there and not written back). -/
def e2vOutIdle : Vec F S1024x512 .f32 := e2vVOut.read (Elt F) e2vVOut.junk

/-! ## What the buffers hold after each point -/

/-- THE ACCUMULATION: the output's staging buffer, the running product and the running row sum after the body at
    position `n`. A first step (position ≡ 0 mod 4) starts afresh from the point's blocks; every other step continues
    from what the point before left in the two scratch buffers; a last step (≡ 3 mod 4) also stores the output tile. -/
def e2vAt (c : Dev nD) : (n : ℕ) → n < cfg2.N → Vec F S1024x512 .f32 × Vec F S1024x512 .f32 × Vec F S1024x1 .f32
  | 0, hn => (e2vOutIdle,
      e2vAccFirst c (grid2.coords ⟨0, hn⟩) (e2vM0 ⟨0, hn⟩) (e2vH0 ⟨0, hn⟩) (e2vM1 ⟨0, hn⟩) (e2vH1 ⟨0, hn⟩) (e2vM2 ⟨0, hn⟩) (e2vH2 ⟨0, hn⟩) e2vAcc (Memref.isWhole_whole _) e2vCol (Memref.isWhole_whole _) ((e2vFirst_iff ⟨0, hn⟩).mpr (Nat.zero_mod _)) (fun h => (fun h => by (try dsimp only at h); omega) ((e2vLast_iff ⟨0, hn⟩).mp h)) (e2vBlk V c 0 ⟨0, hn⟩) (e2vBlk V c 1 ⟨0, hn⟩),
      e2vColFirst c (grid2.coords ⟨0, hn⟩) (e2vM0 ⟨0, hn⟩) (e2vH0 ⟨0, hn⟩) (e2vM1 ⟨0, hn⟩) (e2vH1 ⟨0, hn⟩) (e2vM2 ⟨0, hn⟩) (e2vH2 ⟨0, hn⟩) e2vAcc (Memref.isWhole_whole _) e2vCol (Memref.isWhole_whole _) ((e2vFirst_iff ⟨0, hn⟩).mpr (Nat.zero_mod _)) (fun h => (fun h => by (try dsimp only at h); omega) ((e2vLast_iff ⟨0, hn⟩).mp h)) (e2vBlk V c 0 ⟨0, hn⟩) (e2vBlk V c 1 ⟨0, hn⟩))
  | n + 1, hn =>
    if h0 : (n + 1) % 4 = 0 then
      (e2vOutIdle,
        e2vAccFirst c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) ((e2vFirst_iff ⟨n + 1, hn⟩).mpr h0) (fun h => (fun h => by (try dsimp only at h); omega) ((e2vLast_iff ⟨n + 1, hn⟩).mp h)) (e2vBlk V c 0 ⟨n + 1, hn⟩) (e2vBlk V c 1 ⟨n + 1, hn⟩),
        e2vColFirst c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) ((e2vFirst_iff ⟨n + 1, hn⟩).mpr h0) (fun h => (fun h => by (try dsimp only at h); omega) ((e2vLast_iff ⟨n + 1, hn⟩).mp h)) (e2vBlk V c 0 ⟨n + 1, hn⟩) (e2vBlk V c 1 ⟨n + 1, hn⟩))
    else if h1 : (n + 1) % 4 = 3 then
      (e2vOutLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2,
        e2vAccLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2,
        e2vColLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2)
    else
      (e2vOutIdle,
        e2vAccMid c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) (fun h => h1 ((e2vLast_iff ⟨n + 1, hn⟩).mp h)) (e2vBlk V c 0 ⟨n + 1, hn⟩) (e2vBlk V c 1 ⟨n + 1, hn⟩) (e2vAt c n (Nat.lt_of_succ_lt hn)).2.1 (e2vAt c n (Nat.lt_of_succ_lt hn)).2.2,
        e2vColMid c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) (fun h => h1 ((e2vLast_iff ⟨n + 1, hn⟩).mp h)) (e2vBlk V c 0 ⟨n + 1, hn⟩) (e2vBlk V c 1 ⟨n + 1, hn⟩) (e2vAt c n (Nat.lt_of_succ_lt hn)).2.1 (e2vAt c n (Nat.lt_of_succ_lt hn)).2.2)

/-- The accumulation at a first step. -/
theorem e2vAt_first (c : Dev nD) (t : Fin cfg2.N) (h0 : t.val % 4 = 0) (h1 : ¬t.val % 4 = 3) :
    e2vAt V c t.val t.isLt = (e2vOutIdle,
      e2vAccFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t),
      e2vColFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t)) := by
  obtain ⟨n, hn⟩ := t
  cases n with
  | zero => exact rfl
  | succ n => exact (dif_pos h0).trans rfl

/-- The accumulation at a middle step: over what the point before left. -/
theorem e2vAt_mid (c : Dev nD) (t : Fin cfg2.N) (h0 : ¬t.val % 4 = 0) (h1 : ¬t.val % 4 = 3) :
    e2vAt V c t.val t.isLt = (e2vOutIdle,
      e2vAccMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vColMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The accumulation at a last step: over what the point before left, the output tile stored. -/
theorem e2vAt_last (c : Dev nD) (t : Fin cfg2.N) (h0 : ¬t.val % 4 = 0) (h1 : t.val % 4 = 3) :
    e2vAt V c t.val t.isLt = (e2vOutLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vAccLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vColLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Gen

end
-- ==== Proof.E2vBody.lean ====
/-
  The edge-to-vertex kernel's invariant, proof data and body obligation. Between grid points the two scratch buffers
  hold what the recursion of the accumulation says (before the very first point: anything), every other scoped buffer
  that is no staging buffer of this call holds anything; at a generic point the body's run for the step's kind applies,
  and what it stored, read back, is the recursion's next value.
-/
import proofs.«154376_j40303973106024_2_alg».proof.Proof.E2vData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The scoped buffers beside the two scratch buffers -/

/-- Every scoped buffer of the core that is neither a staging buffer of this call nor one of its two scratch buffers,
    each whole at some contents. -/
def e2vOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers that are no staging buffer of this call: the two scratch buffers at anything beside the others. -/
theorem e2vScoped_split (c : Dev nD) :
    (Pipeline.scopedRest (Ix := Unit) (Name := ℕ) (U := UR sig nD τ) (Lvl := ℕ) (Val := Elt F) spec2 c : sProp 𝕄)
      ⊢ iprop((∃ d, owns (c : Thread nD τ) e2vAcc fullShare d) ∗ (∃ d, owns (c : Thread nD τ) e2vCol fullShare d) ∗ e2vOthers c) := by
  rw [scopedRest2_eq]; unfold e2vOthers; simp only [e2vAcc, e2vCol, owns_whole]
  iintro ⟨H1, H2, H3, H4, H5, H6, H7, H8, H9, H10, H11, H12, H13, HS0, HS1⟩
  isplitl [HS0]; · iexact HS0
  isplitl [HS1]; · iexact HS1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem e2vScoped_join (c : Dev nD) :
    iprop((∃ d, owns (c : Thread nD τ) e2vAcc fullShare d) ∗ (∃ d, owns (c : Thread nD τ) e2vCol fullShare d) ∗ e2vOthers c)
      ⊢ (Pipeline.scopedRest (Ix := Unit) (Name := ℕ) (U := UR sig nD τ) (Lvl := ℕ) (Val := Elt F) spec2 c : sProp 𝕄) := by
  rw [scopedRest2_eq]; unfold e2vOthers; simp only [e2vAcc, e2vCol, owns_whole]
  iintro ⟨HS0, HS1, H1, H2, H3, H4, H5, H6, H7, H8, H9, H10, H11, H12, H13⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  iexact HS1

/-! ## The invariant between points -/

/-- Before position `n`: at the very first point the scoped buffers as the launch hands them; afterwards the two scratch
    buffers at what the point before left, the others at anything. -/
def e2vPhi (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) e2vAcc fullShare (e2vAt V c n hn).2.1 ∗ owns (c : Thread nD τ) e2vCol fullShare (e2vAt V c n hn).2.2 ∗ e2vOthers c)

theorem e2vPhi_succ (c : Dev nD) (n : ℕ) (hn : n < cfg2.N) :
    e2vPhi V c (n + 1) hn = iprop(owns (c : Thread nD τ) e2vAcc fullShare (e2vAt V c n hn).2.1 ∗ owns (c : Thread nD τ) e2vCol fullShare (e2vAt V c n hn).2.2 ∗ e2vOthers c) := rfl

theorem e2vPhi_pos (c : Dev nD) (n : ℕ) (h : n ≤ cfg2.N) (hz : n ≠ 0) :
    e2vPhi V c n h = iprop(owns (c : Thread nD τ) e2vAcc fullShare (e2vAt V c (n - 1) (by omega)).2.1 ∗ owns (c : Thread nD τ) e2vCol fullShare (e2vAt V c (n - 1) (by omega)).2.2 ∗ e2vOthers c) := by
  cases n with
  | zero => exact absurd rfl hz
  | succ n => rfl

/-- At any position the invariant gives the two scratch buffers at some contents beside the others. -/
theorem e2vPhi_forget (c : Dev nD) (n : ℕ) (h : n ≤ cfg2.N) :
    e2vPhi V c n h ⊢ iprop((∃ d, owns (c : Thread nD τ) e2vAcc fullShare d) ∗ (∃ d, owns (c : Thread nD τ) e2vCol fullShare d) ∗ e2vOthers c) := by
  cases n with
  | zero => exact e2vScoped_split c
  | succ n =>
    rw [e2vPhi_succ]
    iintro ⟨HS0, HS1, Hr⟩
    isplitl [HS0]; · iexists _; iexact HS0
    isplitl [HS1]; · iexists _; iexact HS1
    iexact Hr

/-! ## The proof data -/

/-- The proof data on core `c`: the arrays as the region finds them; after the body each input's buffer at its block
    and the output's at the accumulation's first component; the invariant above; nothing owed; full shares. -/
def e2vDat (c : Dev nD) : Dat τ (Elt F) Unit ℕ (UR sig nD τ) ℕ cfg2 c where
  A w := V c (Pipeline.arrRef spec2 w)
  after w t := match w with
    | ⟨0, _⟩ => e2vBlk V c 0 t
    | ⟨1, _⟩ => e2vBlk V c 1 t
    | ⟨2, _⟩ => (e2vAt V c t.val t.isLt).1
  Φ t := e2vPhi V c t.val (Nat.le_of_lt_succ t.isLt)
  q _ := fullShare
  owed _ := 0

theorem e2vDat_A (c : Dev nD) (w : Fin cfg2.W) : (e2vDat V c).A w = V c (Pipeline.arrRef spec2 w) := by
  dsimp only [e2vDat]

theorem e2vPhi_castSucc (c : Dev nD) (t : Fin cfg2.N) :
    (e2vDat V c).Φ t.castSucc = e2vPhi V c t.val (Nat.le_of_lt t.isLt) := by
  dsimp only [e2vDat]; simp only [Fin.coe_castSucc]

theorem e2vAfter_0 (c : Dev nD) (t : Fin cfg2.N) : (e2vDat V c).after 0 t = e2vBlk V c 0 t := by dsimp only [e2vDat]
theorem e2vAfter_1 (c : Dev nD) (t : Fin cfg2.N) : (e2vDat V c).after 1 t = e2vBlk V c 1 t := by dsimp only [e2vDat]
theorem e2vAfter_2 (c : Dev nD) (t : Fin cfg2.N) : (e2vDat V c).after 2 t = (e2vAt V c t.val t.isLt).1 := by dsimp only [e2vDat]

theorem e2vBeforeDat_0 (c : Dev nD) (t : Fin cfg2.N) (d) : (e2vDat V c).before 0 t d = e2vBlk V c 0 t :=
  e2vBefore_0 V (e2vDat V c) (e2vDat_A V c 0) (e2vAfter_0 V c) t d
theorem e2vBeforeDat_1 (c : Dev nD) (t : Fin cfg2.N) (d) : (e2vDat V c).before 1 t d = e2vBlk V c 1 t :=
  e2vBefore_1 V (e2vDat V c) (e2vDat_A V c 1) (e2vAfter_1 V c) t d

/-! ## The body obligation, at a generic point -/

/-- What the body is called with at point `t`, -/
def e2vPre (c : Dev nD) (t : Fin cfg2.N) : sProp 𝕄 :=
  iprop((e2vDat V c).Φ t.castSucc ∗ (e2vDat V c).owesAt () t.castSucc
    ∗ (∃ d, owns (c : Thread nD τ) (e2vM0 t) fullShare ((e2vDat V c).before 0 t d))
    ∗ (∃ d, owns (c : Thread nD τ) (e2vM1 t) fullShare ((e2vDat V c).before 1 t d))
    ∗ (∃ d, owns (c : Thread nD τ) (e2vM2 t) fullShare ((e2vDat V c).before 2 t d)))

/-- and what it returns. -/
def e2vPost (c : Dev nD) (t : Fin cfg2.N) : sProp 𝕄 :=
  iprop((e2vDat V c).Φ t.succ ∗ (e2vDat V c).owesAt () t.succ
    ∗ (e2vDat V c).leavesExact 0 t
    ∗ (e2vDat V c).leavesExact 1 t
    ∗ (e2vDat V c).leavesExact 2 t)

set_option maxHeartbeats 4800000 in
/-- The body at any point: the inputs' buffers hold their blocks; the step's kind is decided by the position modulo 4;
    the invariant hands the body the two scratch buffers at what the point before left (at anything where the step
    clears them) and takes them back at this point's contents. -/
theorem e2vSound (c : Dev nD) (t : Fin cfg2.N) :
    e2vPre V c t ⊢ wp frame (wpE (defs₀ (F := F)) Variants.none c none) Set.univ (bodyAt2 t) (fun _ => e2vPost V c t) := by
  unfold e2vPre e2vPost bodyAt2
  simp only [e2vBeforeDat_0, e2vBeforeDat_1]
  rw [show (e2vDat V c).owesAt () t.succ = (e2vDat V c).owesAt () t.castSucc from rfl]
  rw [show (e2vDat V c).Φ t.succ = e2vPhi V c (t.val + 1) t.isLt from rfl, e2vPhi_succ]
  rw [show (e2vDat V c).leavesExact 0 t = owns (c : Thread nD τ) (e2vM0 t) fullShare ((e2vDat V c).after 0 t) from by
    unfold Dat.leavesExact; rw [e2vLive_0 t], e2vAfter_0]
  rw [show (e2vDat V c).leavesExact 1 t = owns (c : Thread nD τ) (e2vM1 t) fullShare ((e2vDat V c).after 1 t) from by
    unfold Dat.leavesExact; rw [e2vLive_1 t], e2vAfter_1]
  have hN : t.val < 64 := lt_of_lt_of_eq t.isLt (show cfg2.N = 64 from N_2)
  by_cases h0 : t.val % 4 = 0
  · have h1 : ¬t.val % 4 = 3 := by omega
    rw [Dat.leavesExact_idle (e2vDat V c) 2 t (e2vIdle_2 t (fun h => h1 ((e2vLast_iff t).mp h))) (e2vNoFlush_2 t (fun h => h1 ((e2vLast_iff t).mp h)))]
    rw [e2vAt_first V c t h0 h1]
    unfold e2vAccFirst e2vColFirst; (try dsimp only)
    rw [e2vPhi_castSucc V c t]
    iintro ⟨HΦ, Ho, ⟨%d0, H0⟩, ⟨%d1, H1⟩, ⟨%d2, H2⟩⟩
    ihave HΦ' := (e2vPhi_forget V c t.val (Nat.le_of_lt t.isLt)) $$ HΦ
    icases HΦ' with ⟨HS0, HS1, Hr⟩
    iapply ((e2vRunFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (e2vCoverFirstAcc c _ _ _ _ _ _ _ _ _ _ _ _ _ _ _)
      isplitl [HS1]
      · unfold owns; iexists _; isplitr
        swap; · iexact HS1
        ipureintro; exact View.read_writes_of_cover _ _ _ _ _ (e2vCoverFirstCol c _ _ _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 4 = 3
    · rw [show (e2vDat V c).leavesExact 2 t = owns (c : Thread nD τ) (e2vM2 t) fullShare ((e2vDat V c).after 2 t) from by
        unfold Dat.leavesExact; rw [e2vLive_2 t ((e2vLast_iff t).mpr h1)], e2vAfter_2]
      rw [e2vAt_last V c t h0 h1]
      unfold e2vOutLast e2vAccLast e2vColLast; (try dsimp only)
      rw [e2vPhi_castSucc V c t, e2vPhi_pos V c _ _ hz]
      iintro ⟨⟨HS0, HS1, Hr⟩, Ho, ⟨%d0, H0⟩, ⟨%d1, H1⟩, ⟨%d2, H2⟩⟩
      iapply ((e2vRunLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (e2vCoverLastAcc c _ _ _ _ _ _ _ _ _ _ _ _ _ _ _ _ _)
        isplitl [HS1]
        · unfold owns; iexists _; isplitr
          swap; · iexact HS1
          ipureintro; exact View.read_writes_of_cover _ _ _ _ _ (e2vCoverLastCol c _ _ _ _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (e2vCoverLastOut c _ _ _ _ _ _ _ _ _ _ _ _ _ _ _ _ _)
    · rw [Dat.leavesExact_idle (e2vDat V c) 2 t (e2vIdle_2 t (fun h => h1 ((e2vLast_iff t).mp h))) (e2vNoFlush_2 t (fun h => h1 ((e2vLast_iff t).mp h)))]
      rw [e2vAt_mid V c t h0 h1]
      unfold e2vAccMid e2vColMid; (try dsimp only)
      rw [e2vPhi_castSucc V c t, e2vPhi_pos V c _ _ hz]
      iintro ⟨⟨HS0, HS1, Hr⟩, Ho, ⟨%d0, H0⟩, ⟨%d1, H1⟩, ⟨%d2, H2⟩⟩
      iapply ((e2vRunMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (e2vCoverMidAcc c _ _ _ _ _ _ _ _ _ _ _ _ _ _ _ _ _)
        isplitl [HS1]
        · unfold owns; iexists _; isplitr
          swap; · iexact HS1
          ipureintro; exact View.read_writes_of_cover _ _ _ _ _ (e2vCoverMidCol c _ _ _ _ _ _ _ _ _ _ _ _ _ _ _ _ _)
        iexact Hr
      isplitl [Ho]; · iexact Ho
      isplitl [H0]; · iexact H0
      isplitl [H1]; · iexact H1
      iexists _; iexact H2

/-- The library's body obligation, at every point. -/
theorem e2vBody (c : Dev nD) : BodyObligation (e2vDat (F := F) V c) (defs₀ (F := F)) Variants.none () Set.univ := fun t => by
  rw [bigSep_W2, bigSep_W2]
  exact e2vSound V c t

/-- What the launch hands the region is the invariant before the first point. -/
theorem e2vPhi_in (c : Dev nD) :
    (Pipeline.scopedRest (Ix := Unit) (Name := ℕ) (U := UR sig nD τ) (Lvl := ℕ) (Val := Elt F) spec2 c : sProp 𝕄) ⊢ (e2vDat V c).Φ 0 :=
  Idealize.SL.BI.Entails.refl _

/-- After the last point the invariant gives the scoped buffers back, the scratch buffers' contents forgotten. -/
theorem e2vPhi_out (c : Dev nD) :
    (e2vDat V c).Φ (Fin.last cfg2.N) ⊢ (Pipeline.scopedRest (Ix := Unit) (Name := ℕ) (U := UR sig nD τ) (Lvl := ℕ) (Val := Elt F) spec2 c : sProp 𝕄) :=
  (show e2vPhi V c (Fin.last cfg2.N).val (Nat.le_of_lt_succ (Fin.last cfg2.N).isLt) ⊢ _ from e2vPhi_forget V c _ _).trans (e2vScoped_join c)

end Cert.KernelIdeal.Gen

end
-- ==== Proof.E2vRegion.lean ====
/-
  The edge-to-vertex kernel's region as the run of @main takes it: its proof data over the region-entry contents, the
  body obligation, and the invariant at the two ends made of, and giving back, the scoped buffers no window stages.
-/
import proofs.«154376_j40303973106024_2_alg».proof.Proof.E2vBody
import proofs.«154376_j40303973106024_2_alg».proof.Proof.RegionProof

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-- The invariant at the first point is the scoped buffers no window stages, whatever rides beside them. -/
theorem e2vIn (c : Dev nD) (P : sProp 𝕄) :
    iprop(emp ∗ P ∗ Pipeline.scopedRest (Ix := Unit) (Name := ℕ) (U := UR sig nD τ) (Lvl := ℕ) (Val := Elt F) spec2 c) ⊢ (e2vDat V c).Φ 0 := by
  iintro ⟨-, -, Hr⟩
  iapply (e2vPhi_in V c)
  iexact Hr

/-- The invariant at the last point gives those buffers back; the kernel has no semaphore of its own. -/
theorem e2vOut (c : Dev nD) :
    (e2vDat V c).Φ (Fin.last cfg2.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec2 c) := by
  rw [Pipeline.ownSems0_none]
  iintro H
  isplitr; · iempintro
  isplitr; · iempintro
  iapply (e2vPhi_out V c)
  iexact H

/-- The region's part of the run. -/
def e2vRegion : Cert.KernelIdeal.Run.RegionProof F 2 where
  D := fun V c => e2vDat V c
  hA := fun V c w => e2vDat_A V c w
  hq := fun _ _ _ => rfl
  howed := fun _ _ _ => rfl
  hrec := fun _ _ _ => rfl
  hbody := fun V c => e2vBody V c
  hin := fun V c => e2vIn V c _
  hout := fun V c => e2vOut V c

end Cert.KernelIdeal.Gen

end
-- ==== Proof.MainRunAt.lean ====
/-
  The run of @main at the three kernels' proof data: the linear kernel's, the vertex-to-edge kernel's and the
  edge-to-vertex kernel's records put into the assembly.  The result buffer ends holding `result m c`, the last
  region's output array after its last point; every argument ends as launched.
-/
import proofs.«154376_j40303973106024_2_alg».proof.Proof.MainRun
import proofs.«154376_j40303973106024_2_alg».proof.Proof.Region0Proof
import proofs.«154376_j40303973106024_2_alg».proof.Proof.V2eRegion
import proofs.«154376_j40303973106024_2_alg».proof.Proof.E2vRegion

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first region leaves in `main_v1`, -/
abbrev res0 (c : Dev nD) : Buf (Elt F) ((c : Thread nD τ).loc main_v1) := out0 m region0 c
/-- the second in `main_v2`, -/
abbrev res1 (c : Dev nD) : Buf (Elt F) ((c : Thread nD τ).loc main_v2) := out1 m region0 v2eRegion c
/-- and the third in `main_v3`: the program's result. -/
abbrev result (c : Dev nD) : Buf (Elt F) ((c : Thread nD τ).loc main_v3) := out2 m region0 v2eRegion e2vRegion c

/-- From any memory with zero counters every weakly fair execution of @main terminates; the result buffer ends at
    `result m c` and every argument as launched. -/
theorem run : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ region0 v2eRegion e2vRegion

/-- The frame: @main runs and leaves every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Run

end
-- ==== Proof.RegionProofBits.lean ====
/-
  What the run of @main asks of one kernel region.

  @main is one host operation followed by three kernel regions.  The run is assembled from, per region `p`, proof data
  written over the contents `V` the core's unscoped buffers hold when the region is entered, with the facts listed
  here: each windowed array is read off `V`, every array is held whole, the body owes nothing and bounds no recorded
  pair, the body obligation holds at every point, and the invariant at the two ends is made of, and gives back, the scoped
  buffers no window stages (the region starts from them at contents not chosen).
-/
import proofs.«154376_j40303973106024_2_alg».proof.Proof.Gen.Kernel.Launch
import proofs.«154376_j40303973106024_2_alg».proof.Proof.Gen.Kernel.Regions

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- The contents of a core's unscoped buffers, per core and reference: what a region's proof data is written over. -/
abbrev Vals (F : FTy → Type) [FloatOps F] : Type :=
  (c : Dev nD) → (b : Ref sig .tc) → Buf (Elt F) ((c : Thread nD τ).loc b)

/-- Region `p`'s part of the run: proof data over the entry contents `V`, and what the assembly uses of it. -/
structure RegionProof (F : FTy → Type) [FloatOps F] (p : Fin 3) where
  /-- The proof data on core `c`, the unscoped buffers at `V` when the region is entered. -/
  D : Vals F → (c : Dev nD) → Dat τ (Elt F) Unit ℕ (UR sig nD τ) ℕ (cfgs p) c
  /-- Each windowed array enters at what `V` says of the buffer behind it. -/
  hA : ∀ V c w, (D V c).A w = V c (Pipeline.arrRef (cfgs p).spec w)
  /-- Every input array is held whole. -/
  hq : ∀ V c w, (D V c).q w = fullShare
  /-- The body owes nothing at any point, -/
  howed : ∀ V c t, (D V c).owed t = 0
  /-- and bounds no recorded pair. -/
  hrec : ∀ V c t, (D V c).recorded t = Set.univ
  /-- The body obligation at every point. -/
  hbody : ∀ V c, BodyObligation (D V c) (defs₀ (F := F)) Variants.none () Set.univ
  /-- The invariant at the first point, from the scoped buffers no window stages, each at contents not chosen (nothing
      else enters it: no table is prefetched, the kernel has no semaphore of its own). -/
  hin : ∀ V c, iprop(emp ∗ Pipeline.prefHeld (pcfgs (F := F) p).pre c (fun _ => fullShare) (adm (F := F) p).1
      ∗ (Pipeline.scopedRest (cfgs p).spec c : sProp (MT nD τ sig Unit (Elt F) ℕ (UR sig nD τ) ℕ))) ⊢ (D V c).Φ 0
  /-- The invariant at the last point gives those buffers back. -/
  hout : ∀ V c, (D V c).Φ (Fin.last (cfgs p).N) ⊢ iprop(emp
      ∗ Pipeline.ownSems0 (Ix := Unit) (Name := ℕ) (U := UR sig nD τ) (Lvl := ℕ) (Val := Elt F) (τ := τ) (fun k : PEmpty => k.elim) c
      ∗ (Pipeline.scopedRest (cfgs p).spec c : sProp (MT nD τ sig Unit (Elt F) ℕ (UR sig nD τ) ℕ)))

end Cert.Kernel.Run

end
-- ==== Proof.MainRunBits.lean ====
/-
  The run of @main from the three regions' proof data.

  @main is one host operation (a reshape of the bias into `main_v0`) followed by three kernel regions, each entered
  once; region 0 leaves its result in `main_v1`, region 1 reads it and leaves `main_v2`, region 2 reads that and
  leaves `main_v3`.  Between two items core `c` holds every unscoped buffer whole at a valuation — the launch
  contents, then the host operation's result, then at each region's output buffer what the region's write-backs
  left there — beside what the core owes (nothing), the unscoped semaphores, the launch credit and the generator
  register, none of which a region touches.  Each region is entered by sorting its windows' arrays out of the
  unscoped buffers and left by putting them back, the output array at its final contents.
-/
import proofs.«154376_j40303973106024_2_alg».proof.Proof.RegionProofBits
import proofs.«154376_j40303973106024_2_alg».proof.Proof.Gen.Kernel.Regions

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (P0 : RegionProof F 0) (P1 : RegionProof F 1) (P2 : RegionProof F 2)

/-! ## The buffers' contents between items -/

/-- A valuation per core, read at the TensorCore's references. -/
abbrev valsOf (W : Dev nD → Valuation τ sig (Elt F)) : Vals F := fun c b => W c b

/-- What region 0's write-backs leave in `main_v1`. -/
def out0 (c : Dev nD) : Buf (Elt F) ((c : Thread nD τ).loc main_v1) := (P0.D (valsOf (V1 m)) c).arrAt 3 cfg0.N
/-- Core `c`'s unscoped buffers after region 0. -/
abbrev W2 (c : Dev nD) : Valuation τ sig (Elt F) := Function.update (V1 m c) main_v1 (out0 m P0 c)
/-- What region 1's write-backs leave in `main_v2`. -/
def out1 (c : Dev nD) : Buf (Elt F) ((c : Thread nD τ).loc main_v2) := (P1.D (valsOf (W2 m P0)) c).arrAt 2 cfg1.N
/-- Core `c`'s unscoped buffers after region 1. -/
abbrev W3 (c : Dev nD) : Valuation τ sig (Elt F) := Function.update (W2 m P0 c) main_v2 (out1 m P0 P1 c)
/-- What region 2's write-backs leave in `main_v3`: the program's result. -/
def out2 (c : Dev nD) : Buf (Elt F) ((c : Thread nD τ).loc main_v3) := (P2.D (valsOf (W3 m P0 P1)) c).arrAt 2 cfg2.N
/-- Core `c`'s unscoped buffers after region 2. -/
abbrev W4 (c : Dev nD) : Valuation τ sig (Elt F) := Function.update (W3 m P0 P1 c) main_v3 (out2 m P0 P1 P2 c)

/-- The proof data of every pipeline: each region's over the contents it is entered from. -/
def pdats : (p : Fin 3) → (c : Dev nD) → Dat τ (Elt F) Unit ℕ (UR sig nD τ) ℕ (cfgs p) c
  | ⟨0, _⟩ => fun c => P0.D (valsOf (V1 m)) c
  | ⟨1, _⟩ => fun c => P1.D (valsOf (W2 m P0)) c
  | ⟨2, _⟩ => fun c => P2.D (valsOf (W3 m P0 P1)) c

/-! ## What rides beside the buffers -/

/-- What of the launch's deal no item touches: the unscoped semaphores at zero, the launch credit, the generator register. -/
abbrev Erest (c : Dev nD) : sProp 𝕄 :=
  iprop(unscopedSems0 c ∗ Pipeline.launchCred (0 : Dev nD → CellTallies nD τ sig Unit) c ∗ prngReg c (ρ c))

/-- The thread state beside the buffers, the same between any two items: the core owes nothing, and that rest. -/
abbrev E (c : Dev nD) : sProp 𝕄 :=
  iprop((∃ W, owes (c : Thread nD τ) (0 : CellTallies nD τ sig Unit) W) ∗ Erest (F := F) ρ c)

abbrev L : GSem nD τ sig → Finset Unit := fun _ => ∅
abbrev lv : GSem nD τ sig → Unit → ℕ := fun _ _ => 0

/-! ## What a region's proof data says of what the core owes -/

/-- A core that owes nothing owes what proof data that owes nothing and bounds no recorded pair says, at any point, -/
theorem owesAt_of_zero {cfg : Pipeline.Cfg sig Λ₀} {c : Dev nD} (dat : Dat τ (Elt F) Unit ℕ (UR sig nD τ) ℕ cfg c)
    (t : Fin (cfg.N + 1)) (hO : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [hO, hR]
  iintro ⟨%W, HO⟩
  iexists W; isplitr; · ipureintro; exact fun _ _ => Or.inl trivial
  iexact HO

/-- and conversely. -/
theorem zero_of_owesAt {cfg : Pipeline.Cfg sig Λ₀} {c : Dev nD} (dat : Dat τ (Elt F) Unit ℕ (UR sig nD τ) ℕ cfg c)
    (t : Fin (cfg.N + 1)) (hO : dat.owed t = 0) :
    dat.owesAt () t ⊢ (iprop(∃ W, owes (c : Thread nD τ) (0 : CellTallies nD τ sig Unit) W) : sProp 𝕄) := by
  unfold Pipeline.Dat.owesAt Pipeline.owesWithin
  rw [hO]
  iintro ⟨%W, -, HO⟩
  iexists W; iexact HO

/-! ## Region 0 -/

/-- Every array of region 0 is held whole. -/
theorem hshare0 (c : Dev nD) (w : Fin cfg0.W) : (pdats m P0 P1 P2 0 c).share w = fullShare :=
  (pdats m P0 P1 P2 0 c).share_full (P0.hq _ c) w

/-- After region 0 each of its arrays holds what the next valuation says: an input as it entered, the output what the
    write-backs left. -/
theorem final0 (c : Dev nD) : ∀ w : Fin cfg0.W, (pdats m P0 P1 P2 0 c).arrAt w cfg0.N = valsOf (W2 m P0) c (Pipeline.arrRef (cfgs 0).spec w)
  | 0 => ((pdats m P0 P1 P2 0 c).arrAt_in 0 rfl _).trans ((P0.hA _ c 0).trans (Function.update_of_ne (StableHlo.devRef_ne_of_ne (by decide)) _ _).symm)
  | 1 => ((pdats m P0 P1 P2 0 c).arrAt_in 1 rfl _).trans ((P0.hA _ c 1).trans (Function.update_of_ne (StableHlo.devRef_ne_of_ne (by decide)) _ _).symm)
  | 2 => ((pdats m P0 P1 P2 0 c).arrAt_in 2 rfl _).trans ((P0.hA _ c 2).trans (Function.update_of_ne (StableHlo.devRef_ne_of_ne (by decide)) _ _).symm)
  | 3 => show out0 m P0 c = Function.update (V1 m c) (Proc.devRef .tc main_v1) (out0 m P0 c) (Proc.devRef .tc main_v1) from
      (Function.update_self (Proc.devRef .tc main_v1 : DevRef τ sig) (out0 m P0 c) (V1 m c)).symm

/-- The buffers region 0 bypasses hold the same before and after it. -/
theorem rest0 (c : Dev nD) :
    (Pipeline.unscopedRest (Ix := Unit) (Name := ℕ) (U := UR sig nD τ) (Lvl := ℕ) spec0 c (valsOf (W2 m P0) c) : sProp 𝕄)
      = Pipeline.unscopedRest spec0 c (valsOf (V1 m) c) := by
  unfold Pipeline.unscopedRest
  refine bigSep_congr fun b hb => ?_
  have hne : b ≠ main_v1 := fun h => (Finset.mem_sdiff.mp hb).2 (Finset.mem_image.mpr ⟨3, Finset.mem_univ _, h.symm⟩)
  rw [show valsOf (W2 m P0) c b = valsOf (V1 m) c b from Function.update_of_ne (StableHlo.devRef_ne_of_ne hne) _ _]

/-- EXIT of region 0, the buffers' part: its arrays at their final contents and the bypassed buffers are the unscoped
    buffers at the next valuation. -/
theorem exit0 (c : Dev nD) :
    iprop((pdats m P0 P1 P2 0 c).arrays ((pdats m P0 P1 P2 0 c).arrAt · cfg0.N) ∗ Pipeline.unscopedRest spec0 c (valsOf (V1 m) c))
      ⊢ (StableHlo.held (c : Thread nD τ) (Pipeline.ucRefs τ sig) (W2 m P0 c) : sProp 𝕄) := by
  rw [← Pipeline.unscopedBufs_held (Ix := Unit) (Name := ℕ) (U := UR sig nD τ) (Lvl := ℕ) c (W2 m P0 c),
    Pipeline.unscopedBufs_split cfgs 0 launch0.win.arr_unscoped launch0.win.arr_inj c (valsOf (W2 m P0) c),
    Pipeline.arrays_eq cfgs (pdats m P0 P1 P2) 0 c launch0.arr_whole (hshare0 m P0 P1 P2 c)]
  exact BI.sep_mono (Entails.of_eq (bigSep_congr fun w _ => by rw [final0 m P0 P1 P2 c w])) (Entails.of_eq (rest0 m P0 c).symm)

set_option backward.isDefEq.respectTransparency.types false in
/-- REGION 0: the launch's layout, no semaphore of its own, the body obligation; entered from the unscoped buffers at
    the valuation before it — its windows' arrays into the pipeline, the other buffers and the rest of the thread state
    bypassing —, left with its arrays put back, the output array at its final contents. -/
def reg0 : RegionSeg (pcfgs (F := F)) adm (pdats m P0 P1 P2) () defs₀ Variants.none L lv 0 where
  win := launch0.win.to₀
  block_pos := launch0.block_pos
  stage_whole := launch0.stage_whole
  K := PEmpty
  osem := fun k : PEmpty => k.elim
  ho := Pipeline.OwnSemFacts.none _
  hbody c := (P0.hbody _ c).loose
  hwaits := Pipeline.hwaits_of_owed_zero _ _ _ _ L lv 0 fun c t => P0.howed _ c t
  pre c := iprop(StableHlo.held (c : Thread nD τ) (Pipeline.ucRefs τ sig) (V1 m c) ∗ E ρ c)
  post c := iprop(StableHlo.held (c : Thread nD τ) (Pipeline.ucRefs τ sig) (W2 m P0 c) ∗ E ρ c)
  X _ := iprop(emp)
  Y _ := iprop(emp)
  Z c := iprop(Pipeline.unscopedRest spec0 c (valsOf (V1 m) c) ∗ Erest ρ c)
  hentry c := by
    rw [show StableHlo.held (c : Thread nD τ) (Pipeline.ucRefs τ sig) (V1 m c) = unscopedBufs c (valsOf (V1 m) c)
      from (Pipeline.unscopedBufs_held c _).symm]
    have hsplit := Pipeline.arrays_of_unscopedBufs (pcfgs (F := F)) adm (pdats m P0 P1 P2) (p := 0) launch0.win launch0.arr_whole c
      (hshare0 m P0 P1 P2 c) (valsOf (V1 m) c) (P0.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 0 c) 0 (P0.howed _ c 0) (P0.hrec _ c 0))
      iexact HO
    isplitr; · iempintro
    isplitl [Hr]; · iexact Hr
    iexact HE
  hin c := P0.hin _ c
  hout c := P0.hout _ c
  hexit c := by
    iintro ⟨Ha, HO, -, Hr, HE⟩
    imodintro
    isplitl [Ha Hr]
    · iapply (exit0 m P0 P1 P2 c)
      isplitl [Ha]; · iexact Ha
      iexact Hr
    isplitl [HO]
    · iapply (zero_of_owesAt (pdats m P0 P1 P2 0 c) _ (P0.howed _ c _))
      iexact HO
    iexact HE

/-! ## Region 1 -/

/-- Every array of region 1 is held whole. -/
theorem hshare1 (c : Dev nD) (w : Fin cfg1.W) : (pdats m P0 P1 P2 1 c).share w = fullShare :=
  (pdats m P0 P1 P2 1 c).share_full (P1.hq _ c) w

/-- After region 1 each of its arrays holds what the next valuation says: an input as it entered, the output what the
    write-backs left. -/
theorem final1 (c : Dev nD) : ∀ w : Fin cfg1.W, (pdats m P0 P1 P2 1 c).arrAt w cfg1.N = valsOf (W3 m P0 P1) c (Pipeline.arrRef (cfgs 1).spec w)
  | 0 => ((pdats m P0 P1 P2 1 c).arrAt_in 0 rfl _).trans ((P1.hA _ c 0).trans (Function.update_of_ne (StableHlo.devRef_ne_of_ne (by decide)) _ _).symm)
  | 1 => ((pdats m P0 P1 P2 1 c).arrAt_in 1 rfl _).trans ((P1.hA _ c 1).trans (Function.update_of_ne (StableHlo.devRef_ne_of_ne (by decide)) _ _).symm)
  | 2 => show out1 m P0 P1 c = Function.update (W2 m P0 c) (Proc.devRef .tc main_v2) (out1 m P0 P1 c) (Proc.devRef .tc main_v2) from
      (Function.update_self (Proc.devRef .tc main_v2 : DevRef τ sig) (out1 m P0 P1 c) (W2 m P0 c)).symm

/-- The buffers region 1 bypasses hold the same before and after it. -/
theorem rest1 (c : Dev nD) :
    (Pipeline.unscopedRest (Ix := Unit) (Name := ℕ) (U := UR sig nD τ) (Lvl := ℕ) spec1 c (valsOf (W3 m P0 P1) c) : sProp 𝕄)
      = Pipeline.unscopedRest spec1 c (valsOf (W2 m P0) c) := by
  unfold Pipeline.unscopedRest
  refine bigSep_congr fun b hb => ?_
  have hne : b ≠ main_v2 := fun h => (Finset.mem_sdiff.mp hb).2 (Finset.mem_image.mpr ⟨2, Finset.mem_univ _, h.symm⟩)
  rw [show valsOf (W3 m P0 P1) c b = valsOf (W2 m P0) c b from Function.update_of_ne (StableHlo.devRef_ne_of_ne hne) _ _]

/-- EXIT of region 1, the buffers' part: its arrays at their final contents and the bypassed buffers are the unscoped
    buffers at the next valuation. -/
theorem exit1 (c : Dev nD) :
    iprop((pdats m P0 P1 P2 1 c).arrays ((pdats m P0 P1 P2 1 c).arrAt · cfg1.N) ∗ Pipeline.unscopedRest spec1 c (valsOf (W2 m P0) c))
      ⊢ (StableHlo.held (c : Thread nD τ) (Pipeline.ucRefs τ sig) (W3 m P0 P1 c) : sProp 𝕄) := by
  rw [← Pipeline.unscopedBufs_held (Ix := Unit) (Name := ℕ) (U := UR sig nD τ) (Lvl := ℕ) c (W3 m P0 P1 c),
    Pipeline.unscopedBufs_split cfgs 1 launch1.win.arr_unscoped launch1.win.arr_inj c (valsOf (W3 m P0 P1) c),
    Pipeline.arrays_eq cfgs (pdats m P0 P1 P2) 1 c launch1.arr_whole (hshare1 m P0 P1 P2 c)]
  exact BI.sep_mono (Entails.of_eq (bigSep_congr fun w _ => by rw [final1 m P0 P1 P2 c w])) (Entails.of_eq (rest1 m P0 P1 c).symm)

set_option backward.isDefEq.respectTransparency.types false in
/-- REGION 1: the launch's layout, no semaphore of its own, the body obligation; entered from the unscoped buffers at
    the valuation before it — its windows' arrays into the pipeline, the other buffers and the rest of the thread state
    bypassing —, left with its arrays put back, the output array at its final contents. -/
def reg1 : RegionSeg (pcfgs (F := F)) adm (pdats m P0 P1 P2) () defs₀ Variants.none L lv 1 where
  win := launch1.win.to₀
  block_pos := launch1.block_pos
  stage_whole := launch1.stage_whole
  K := PEmpty
  osem := fun k : PEmpty => k.elim
  ho := Pipeline.OwnSemFacts.none _
  hbody c := (P1.hbody _ c).loose
  hwaits := Pipeline.hwaits_of_owed_zero _ _ _ _ L lv 1 fun c t => P1.howed _ c t
  pre c := iprop(StableHlo.held (c : Thread nD τ) (Pipeline.ucRefs τ sig) (W2 m P0 c) ∗ E ρ c)
  post c := iprop(StableHlo.held (c : Thread nD τ) (Pipeline.ucRefs τ sig) (W3 m P0 P1 c) ∗ E ρ c)
  X _ := iprop(emp)
  Y _ := iprop(emp)
  Z c := iprop(Pipeline.unscopedRest spec1 c (valsOf (W2 m P0) c) ∗ Erest ρ c)
  hentry c := by
    rw [show StableHlo.held (c : Thread nD τ) (Pipeline.ucRefs τ sig) (W2 m P0 c) = unscopedBufs c (valsOf (W2 m P0) c)
      from (Pipeline.unscopedBufs_held c _).symm]
    have hsplit := Pipeline.arrays_of_unscopedBufs (pcfgs (F := F)) adm (pdats m P0 P1 P2) (p := 1) launch1.win launch1.arr_whole c
      (hshare1 m P0 P1 P2 c) (valsOf (W2 m P0) c) (P1.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 1 c) 0 (P1.howed _ c 0) (P1.hrec _ c 0))
      iexact HO
    isplitr; · iempintro
    isplitl [Hr]; · iexact Hr
    iexact HE
  hin c := P1.hin _ c
  hout c := P1.hout _ c
  hexit c := by
    iintro ⟨Ha, HO, -, Hr, HE⟩
    imodintro
    isplitl [Ha Hr]
    · iapply (exit1 m P0 P1 P2 c)
      isplitl [Ha]; · iexact Ha
      iexact Hr
    isplitl [HO]
    · iapply (zero_of_owesAt (pdats m P0 P1 P2 1 c) _ (P1.howed _ c _))
      iexact HO
    iexact HE

/-! ## Region 2 -/

/-- Every array of region 2 is held whole. -/
theorem hshare2 (c : Dev nD) (w : Fin cfg2.W) : (pdats m P0 P1 P2 2 c).share w = fullShare :=
  (pdats m P0 P1 P2 2 c).share_full (P2.hq _ c) w

/-- After region 2 each of its arrays holds what the next valuation says: an input as it entered, the output what the
    write-backs left. -/
theorem final2 (c : Dev nD) : ∀ w : Fin cfg2.W, (pdats m P0 P1 P2 2 c).arrAt w cfg2.N = valsOf (W4 m P0 P1 P2) c (Pipeline.arrRef (cfgs 2).spec w)
  | 0 => ((pdats m P0 P1 P2 2 c).arrAt_in 0 rfl _).trans ((P2.hA _ c 0).trans (Function.update_of_ne (StableHlo.devRef_ne_of_ne (by decide)) _ _).symm)
  | 1 => ((pdats m P0 P1 P2 2 c).arrAt_in 1 rfl _).trans ((P2.hA _ c 1).trans (Function.update_of_ne (StableHlo.devRef_ne_of_ne (by decide)) _ _).symm)
  | 2 => show out2 m P0 P1 P2 c = Function.update (W3 m P0 P1 c) (Proc.devRef .tc main_v3) (out2 m P0 P1 P2 c) (Proc.devRef .tc main_v3) from
      (Function.update_self (Proc.devRef .tc main_v3 : DevRef τ sig) (out2 m P0 P1 P2 c) (W3 m P0 P1 c)).symm

/-- The buffers region 2 bypasses hold the same before and after it. -/
theorem rest2 (c : Dev nD) :
    (Pipeline.unscopedRest (Ix := Unit) (Name := ℕ) (U := UR sig nD τ) (Lvl := ℕ) spec2 c (valsOf (W4 m P0 P1 P2) c) : sProp 𝕄)
      = Pipeline.unscopedRest spec2 c (valsOf (W3 m P0 P1) c) := by
  unfold Pipeline.unscopedRest
  refine bigSep_congr fun b hb => ?_
  have hne : b ≠ main_v3 := fun h => (Finset.mem_sdiff.mp hb).2 (Finset.mem_image.mpr ⟨2, Finset.mem_univ _, h.symm⟩)
  rw [show valsOf (W4 m P0 P1 P2) c b = valsOf (W3 m P0 P1) c b from Function.update_of_ne (StableHlo.devRef_ne_of_ne hne) _ _]

/-- EXIT of region 2, the buffers' part: its arrays at their final contents and the bypassed buffers are the unscoped
    buffers at the next valuation. -/
theorem exit2 (c : Dev nD) :
    iprop((pdats m P0 P1 P2 2 c).arrays ((pdats m P0 P1 P2 2 c).arrAt · cfg2.N) ∗ Pipeline.unscopedRest spec2 c (valsOf (W3 m P0 P1) c))
      ⊢ (StableHlo.held (c : Thread nD τ) (Pipeline.ucRefs τ sig) (W4 m P0 P1 P2 c) : sProp 𝕄) := by
  rw [← Pipeline.unscopedBufs_held (Ix := Unit) (Name := ℕ) (U := UR sig nD τ) (Lvl := ℕ) c (W4 m P0 P1 P2 c),
    Pipeline.unscopedBufs_split cfgs 2 launch2.win.arr_unscoped launch2.win.arr_inj c (valsOf (W4 m P0 P1 P2) c),
    Pipeline.arrays_eq cfgs (pdats m P0 P1 P2) 2 c launch2.arr_whole (hshare2 m P0 P1 P2 c)]
  exact BI.sep_mono (Entails.of_eq (bigSep_congr fun w _ => by rw [final2 m P0 P1 P2 c w])) (Entails.of_eq (rest2 m P0 P1 P2 c).symm)

set_option backward.isDefEq.respectTransparency.types false in
/-- REGION 2: the launch's layout, no semaphore of its own, the body obligation; entered from the unscoped buffers at
    the valuation before it — its windows' arrays into the pipeline, the other buffers and the rest of the thread state
    bypassing —, left with its arrays put back, the output array at its final contents. -/
def reg2 : RegionSeg (pcfgs (F := F)) adm (pdats m P0 P1 P2) () defs₀ Variants.none L lv 2 where
  win := launch2.win.to₀
  block_pos := launch2.block_pos
  stage_whole := launch2.stage_whole
  K := PEmpty
  osem := fun k : PEmpty => k.elim
  ho := Pipeline.OwnSemFacts.none _
  hbody c := (P2.hbody _ c).loose
  hwaits := Pipeline.hwaits_of_owed_zero _ _ _ _ L lv 2 fun c t => P2.howed _ c t
  pre c := iprop(StableHlo.held (c : Thread nD τ) (Pipeline.ucRefs τ sig) (W3 m P0 P1 c) ∗ E ρ c)
  post c := iprop(StableHlo.held (c : Thread nD τ) (Pipeline.ucRefs τ sig) (W4 m P0 P1 P2 c) ∗ E ρ c)
  X _ := iprop(emp)
  Y _ := iprop(emp)
  Z c := iprop(Pipeline.unscopedRest spec2 c (valsOf (W3 m P0 P1) c) ∗ Erest ρ c)
  hentry c := by
    rw [show StableHlo.held (c : Thread nD τ) (Pipeline.ucRefs τ sig) (W3 m P0 P1 c) = unscopedBufs c (valsOf (W3 m P0 P1) c)
      from (Pipeline.unscopedBufs_held c _).symm]
    have hsplit := Pipeline.arrays_of_unscopedBufs (pcfgs (F := F)) adm (pdats m P0 P1 P2) (p := 2) launch2.win launch2.arr_whole c
      (hshare2 m P0 P1 P2 c) (valsOf (W3 m P0 P1) c) (P2.hA _ c)
    iintro ⟨⟨Hub, HO, HE⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m P0 P1 P2 2 c) 0 (P2.howed _ c 0) (P2.hrec _ c 0))
      iexact HO
    isplitr; · iempintro
    isplitl [Hr]; · iexact Hr
    iexact HE
  hin c := P2.hin _ c
  hout c := P2.hout _ c
  hexit c := by
    iintro ⟨Ha, HO, -, Hr, HE⟩
    imodintro
    isplitl [Ha Hr]
    · iapply (exit2 m P0 P1 P2 c)
      isplitl [Ha]; · iexact Ha
      iexact Hr
    isplitl [HO]
    · iapply (zero_of_owesAt (pdats m P0 P1 P2 2 c) _ (P2.howed _ c _))
      iexact HO
    iexact HE

/-! ## The run -/

/-- No region changes a buffer other than its output: such a buffer holds at the end what the host operation left. -/
theorem W4_of (c : Dev nD) (r : Ref sig .tc) (h1 : r ≠ main_v1) (h2 : r ≠ main_v2) (h3 : r ≠ main_v3) :
    W4 m P0 P1 P2 c r = V1 m c r :=
  (Function.update_of_ne (StableHlo.devRef_ne_of_ne h3) _ _).trans
    ((Function.update_of_ne (StableHlo.devRef_ne_of_ne h2) _ _).trans (Function.update_of_ne (StableHlo.devRef_ne_of_ne h1) _ _))

/-- The result buffer holds at the end what region 2's write-backs left. -/
theorem W4_main_v3 (c : Dev nD) : W4 m P0 P1 P2 c main_v3 = out2 m P0 P1 P2 c :=
  Function.update_self (Proc.devRef .tc main_v3 : DevRef τ sig) (out2 m P0 P1 P2 c) (W3 m P0 P1 c)

/-- Each argument reaches the end as launched: the host operation does not write it, no region may change it. -/
theorem W4_main_arg0 (c : Dev nD) : W4 m P0 P1 P2 c main_arg0 = m ((c : Thread nD τ).loc main_arg0) :=
  (W4_of m P0 P1 P2 c main_arg0 (by decide) (by decide) (by decide)).trans ((V1_of m c main_arg0 (by decide)).trans rfl)
theorem W4_main_arg1 (c : Dev nD) : W4 m P0 P1 P2 c main_arg1 = m ((c : Thread nD τ).loc main_arg1) :=
  (W4_of m P0 P1 P2 c main_arg1 (by decide) (by decide) (by decide)).trans ((V1_of m c main_arg1 (by decide)).trans rfl)
theorem W4_main_arg2 (c : Dev nD) : W4 m P0 P1 P2 c main_arg2 = m ((c : Thread nD τ).loc main_arg2) :=
  (W4_of m P0 P1 P2 c main_arg2 (by decide) (by decide) (by decide)).trans ((V1_of m c main_arg2 (by decide)).trans rfl)
theorem W4_main_arg3 (c : Dev nD) : W4 m P0 P1 P2 c main_arg3 = m ((c : Thread nD τ).loc main_arg3) :=
  (W4_of m P0 P1 P2 c main_arg3 (by decide) (by decide) (by decide)).trans ((V1_of m c main_arg3 (by decide)).trans rfl)

/-- The launch element: the pipeline library's at the three pipelines' staging cells. -/
def u₀ : UR sig nD τ := initOf (Pipeline.cells cfgs cellOf_inj) (Pipeline.launchToks cfgs cellOf_inj)

/-- Owning the launch element is owning the pipeline library's, through the embedding of the whole user component. -/
theorem hu₀ : (ownU (u₀ : UR sig nD τ) : sProp 𝕄) ⊢ |={Set.univ}=> iprop(BI.own ((emb₁ : Emb (UR sig nD τ) 𝕄)
      (initOf (Pipeline.cells cfgs cellOf_inj) (Pipeline.launchToks cfgs cellOf_inj))) ∗ bigSep Finset.univ fun _ : Dev nD => (BI.emp : sProp 𝕄)) := by
  unfold u₀
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

/-- The last thread state is the buffers at the last valuation beside a core that owes nothing. -/
theorem last_state (c : Dev nD) :
    iprop(StableHlo.held (c : Thread nD τ) (Pipeline.ucRefs τ sig) (W4 m P0 P1 P2 c) ∗ E ρ c)
      ⊢ (iprop(StableHlo.held (c : Thread nD τ) (Pipeline.ucRefs τ sig) (W4 m P0 P1 P2 c)
          ∗ ∃ W, owes (c : Thread nD τ) (0 : CellTallies nD τ sig Unit) W) : sProp 𝕄) := by
  iintro ⟨Hh, HO, -⟩
  isplitl [Hh]; · iexact Hh
  iexact HO

/-- @main's items as segments, the same on every core: the host operation, then the three regions. -/
abbrev segs (_ : Dev nD) : List (Seg (pcfgs (F := F)) adm (pdats m P0 P1 P2) () defs₀ Variants.none L lv) :=
  [.host (seg0 (Ix := Unit) (U := UR sig nD τ) (Lvl := ℕ) m Variants.none L lv (fun _ => E ρ)),
    .region (reg0 m ρ P0 P1 P2), .region (reg1 m ρ P0 P1 P2), .region (reg2 m ρ P0 P1 P2)]

set_option backward.isDefEq.respectTransparency.types false in
/-- THE RUN. From any memory `m` with zero counters, every weakly fair execution of @main terminates, and every final
    memory holds in the result buffer `main_v3` what region 2's write-backs left (`out2`) and in each argument buffer what
    it held at launch. -/
theorem run_main : θ_run defs (onTc (τ := τ) (main (F := F))) ⟨m, fun _ => 0, ρ⟩ (fun r => ∀ c : Dev nD,
      r.2.mem ((c.tc : Thread nD τ).loc main_v3) = out2 m P0 P1 P2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m P0 P1 P2) () cellOf_inj emb₁ defs₀ Variants.none L lv m ρ main
    (segs m ρ P0 P1 P2)
    (fun c Q => by
      rewrite [main_chain c, Seg.run_eq_chain,
        show (segs m ρ P0 P1 P2 c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (V0 m c) ∗ E ρ c))
    (Tₙ := fun c => StableHlo.held (c : Thread nD τ) (Pipeline.ucRefs τ sig) (W4 m P0 P1 P2 c))
    (hch := fun c => ⟨.rfl, .rfl, .rfl, .rfl, last_state m ρ P0 P1 P2 c⟩)
    (hinit := ?_)
    (QY := fun c s => s.mem ((c.tc : Thread nD τ).loc main_v3) = out2 m P0 P1 P2 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: each core's unscoped buffers are held at the launch contents; the rest of the deal rides along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, Hs, HO, Hc, Hp, -⟩, -⟩
    imodintro
    isplitl [Hh]; · iexact Hh
    isplitl [HO]; · iexists ∅; iexact HO
    isplitl [Hs]; · iexact Hs
    isplitl [Hc]; · iexact Hc
    iexact Hp
  · -- the end: the result and each argument read off the last valuation
    unfold StableHlo.held
    iintro ⟨Hh, HSI⟩
    ihave Hr := (pointsTo_read_all (Pipeline.ucRefs τ sig) (fun b => ((c : Thread nD τ).1, b)) (W4 m P0 P1 P2 c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (W4_main_v3 m P0 P1 P2 c),
        (h (Proc.devRef .tc main_arg0) (Finset.mem_filter.mpr ⟨StableHlo.devRef_mem_tcRefs main_arg0, by decide⟩)).trans (W4_main_arg0 m P0 P1 P2 c),
        (h (Proc.devRef .tc main_arg1) (Finset.mem_filter.mpr ⟨StableHlo.devRef_mem_tcRefs main_arg1, by decide⟩)).trans (W4_main_arg1 m P0 P1 P2 c),
        (h (Proc.devRef .tc main_arg2) (Finset.mem_filter.mpr ⟨StableHlo.devRef_mem_tcRefs main_arg2, by decide⟩)).trans (W4_main_arg2 m P0 P1 P2 c),
        (h (Proc.devRef .tc main_arg3) (Finset.mem_filter.mpr ⟨StableHlo.devRef_mem_tcRefs main_arg3, by decide⟩)).trans (W4_main_arg3 m P0 P1 P2 c)⟩
    · iexact HSI

end Cert.Kernel.Run

end
-- ==== Proof.Region0RunBits.lean ====
/-
  The linear kernel (the first pallas_call): at each of its 8 grid points the body loads a block of 2048 rows of X
  (f32), the whole weight matrix W (512 x 512, f32) and the bias row (1 x 512, f32), each through the rectangle that
  is the whole staging buffer, rounds X and W to bf16, multiplies X by the transpose of W accumulating in f32, adds
  the bias row to every row, rounds the sum to bf16 and stores it through the whole of the output's staging buffer.
  This module runs the body once, on symbolic whole memrefs at a symbolic grid point: the three inputs' buffers are
  handed back as they were and the output's buffer holds the payload of the three contents read.
-/
import proofs.«154376_j40303973106024_2_alg».proof.Proof.Gen.Kernel.Launch
import proofs.«154376_j40303973106024_2_alg».proof.Proof.Gen.Kernel.Skeleton
import proofs.«154376_j40303973106024_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- The offsets of every access are zero. -/
theorem off0_zero : (![0, 0] : Fin 2 → Nat) = fun _ => 0 := by
  funext a; fin_cases a <;> rfl

/-! ## What the body leaves in the output's buffer -/

/-- The output's staging buffer after the body, from the inputs' contents: its one store as a piece over the
    payload of the three loads. -/
def out0 (x0 : Vec F S2048x512 .f32) (x1 : Vec F S512x512 .f32) (x2 : Vec F S1x512 .f32) : Vec F S2048x512 .bf16 :=
  View.canon [⟨rX0, k0_pay1 (View.ld x0 rX0) (View.ld x1 rW0) (View.ld x2 rB0)⟩]

/-- The one store is through the whole buffer, so it covers it. -/
theorem cover0 (p0 : Vec F S2048x512 .bf16) (y : S2048x512.Idx) :
    ∃ pc ∈ ([⟨rX0, p0⟩] : List (View.Piece (Elt F) S2048x512 .bf16)), y ∈ pc.1.set :=
  ⟨_, List.mem_singleton_self _, View.mem_set_unit_zero off0_zero inb_S2048x512_S2048x512_0_0 y⟩

/-- A whole-buffer load reads the contents and the whole-buffer store leaves its payload: the buffer holds the
    payload of the three contents. -/
theorem out0_eq (x0 : Vec F S2048x512 .f32) (x1 : Vec F S512x512 .f32) (x2 : Vec F S1x512 .f32) :
    out0 x0 x1 x2 = k0_pay1 x0 x1 x2 := by
  unfold out0
  rw [View.canon_unit_zero off0_zero inb_S2048x512_S2048x512_0_0,
    View.ld_unit_zero (S := S2048x512) off0_zero inb_S2048x512_S2048x512_0_0,
    View.ld_unit_zero (S := S512x512) off0_zero inb_S512x512_S512x512_0_0,
    View.ld_unit_zero (S := S1x512) off0_zero inb_S1x512_S1x512_0_0]

/-! ## The body's triple -/

set_option maxHeartbeats 1000000 in
/-- The body on whole staging memrefs, the inputs' at read contents `x0 x1 x2` and the output's at anything, runs to
    the continuation holding the inputs' as they were and the output's at `out0` of the three. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

end Cert.Kernel.Gen

end
-- ==== Proof.Region0DataBits.lean ====
/-
  The linear kernel (the first pallas_call) as a pipeline of 8 points over four windows: the block of 2048 rows of X at
  the point (window 0), the whole weight matrix (window 1) and the bias row (window 2), both fetched at the first
  point only and found in place afterwards, and the block of 2048 rows of the output (window 3), written back at
  every point. This module gives the pipeline's proof data on a core from the contents the region finds in the
  core's arrays (a parameter), says what each window's staging buffer holds before and after the body at a point,
  proves the body obligation from the body's run, and states how the invariant (the scoped buffers no window
  stages, untouched) is entered and left.
-/
import proofs.«154376_j40303973106024_2_alg».proof.Proof.Gen.Kernel.Launch
import proofs.«154376_j40303973106024_2_alg».proof.Proof.Gen.Kernel.Skeleton
import proofs.«154376_j40303973106024_2_alg».proof.Proof.Gen.Kernel.Points
import proofs.«154376_j40303973106024_2_alg».proof.Proof.Region0RunBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents the region finds in each core's arrays
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (it is fetched at
    the first point only: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them; after the body at point `t` each
    input's buffer at its block and the output's at the payload of the three input blocks; the invariant the scoped
    buffers no window stages; nothing owed; full shares. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq0 (c : Dev nD) (w : Fin cfg0.W) : (dats0 V c).A w = V c (Pipeline.arrRef spec0 w) := by
  dsimp only [dats0]

/-- What the body leaves, window by window. -/
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) :
    (dats0 V c).after 3 t = k0_pay1 (iblk0 V c 0 t) (iblk0 V c 1 t) (iblk0 V c 2 t) := by dsimp only [dats0]

/-- Each input's current staging buffer holds its block at every point, fetched there or not. -/
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d

/-- The invariant is the same at every point. -/
theorem Φ0_eq (c : Dev nD) (t : Fin (cfg0.N + 1)) :
    (dats0 V c).Φ t = Pipeline.scopedRest (Ix := Unit) (Name := ℕ) (U := UR sig nD τ) (Lvl := ℕ) (Val := Elt F) spec0 c := by
  dsimp only [dats0]

/-! ## The body obligation, at a generic point -/

/-- What the body is called with at point `t`, the windows one by one, -/
def bodyPre0 (c : Dev nD) (t : Fin cfg0.N) : sProp 𝕄 :=
  iprop((dats0 V c).Φ t.castSucc ∗ (dats0 V c).owesAt () t.castSucc
    ∗ (∃ d, owns (c : Thread nD τ) (st0_0 t) fullShare ((dats0 V c).before 0 t d))
    ∗ (∃ d, owns (c : Thread nD τ) (st0_1 t) fullShare ((dats0 V c).before 1 t d))
    ∗ (∃ d, owns (c : Thread nD τ) (st0_2 t) fullShare ((dats0 V c).before 2 t d))
    ∗ (∃ d, owns (c : Thread nD τ) (st0_3 t) fullShare ((dats0 V c).before 3 t d)))

/-- and what it returns. -/
def bodyPost0 (c : Dev nD) (t : Fin cfg0.N) : sProp 𝕄 :=
  iprop((dats0 V c).Φ t.succ ∗ (dats0 V c).owesAt () t.succ
    ∗ owns (c : Thread nD τ) (st0_0 t) fullShare ((dats0 V c).after 0 t)
    ∗ owns (c : Thread nD τ) (st0_1 t) fullShare ((dats0 V c).after 1 t)
    ∗ owns (c : Thread nD τ) (st0_2 t) fullShare ((dats0 V c).after 2 t)
    ∗ owns (c : Thread nD τ) (st0_3 t) fullShare ((dats0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dats0 V c).Φ t.succ = (dats0 V c).Φ t.castSucc from rfl,
    show (dats0 V c).owesAt () t.succ = (dats0 V c).owesAt () t.castSucc from rfl,
    after0_0, after0_1, after0_2, after0_3, ← out0_eq]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dats0 (F := F) V c) (defs₀ (F := F)) Variants.none () Set.univ := fun t => by
  rw [bigSep_W0, bigSep_W0]
  exact sound_body0 V c t

/-! ## Entering and leaving the invariant -/

/-- The invariant at the first point is the scoped buffers no window stages, whatever rides beside them. -/
theorem hin0 (c : Dev nD) (P : sProp 𝕄) :
    iprop(emp ∗ P ∗ Pipeline.scopedRest (Ix := Unit) (Name := ℕ) (U := UR sig nD τ) (Lvl := ℕ) (Val := Elt F) spec0 c) ⊢ (dats0 V c).Φ 0 := by
  rw [Φ0_eq]
  iintro ⟨-, -, Hr⟩
  iexact Hr

/-- The invariant at the last point gives those buffers back; the kernel has no semaphore of its own. -/
theorem hout0 (c : Dev nD) :
    (dats0 V c).Φ (Fin.last cfg0.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec0 c) := by
  rw [Φ0_eq, Pipeline.ownSems0_none]
  iintro Hr
  isplitr; · iempintro
  isplitr; · iempintro
  iexact Hr

end Cert.Kernel.Gen

end
-- ==== Proof.Region0ProofBits.lean ====
/-
  The linear kernel's region (the first pallas_call) as the run of @main takes it: its proof data over the contents
  the region finds in the core's arrays, with the facts the assembly asks of a region — the arrays read off those
  contents, whole shares, nothing owed, the body obligation at every point, and the invariant entered from and
  giving back the scoped buffers no window stages.
-/
import proofs.«154376_j40303973106024_2_alg».proof.Proof.Region0DataBits
import proofs.«154376_j40303973106024_2_alg».proof.Proof.RegionProofBits

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Region 0's part of the run. -/
def region0 : Cert.Kernel.Run.RegionProof F 0 where
  D := dats0
  hA := A_eq0
  hq := fun _ _ _ => rfl
  howed := fun _ _ _ => rfl
  hrec := fun _ _ _ => rfl
  hbody := body_obligation0
  hin := fun V c => hin0 V c _
  hout := hout0

end Cert.Kernel.Gen

end
-- ==== Proof.V2eStepsBits.lean ====
/-
  The vertex-to-edge kernel (the second pallas_call): a grid of 8 edge tiles by 16 vertex tiles, the vertex axis the
  fast one. Along the 16 steps of one edge tile the kernel keeps two scratch buffers: the running product
  sum_v Xt[v, :]^T H[v, e-tile] (512 x 1024) and the running column sum sum_v H[v, e-tile] (1 x 1024). At the
  first step it clears both before adding the step's terms, at the last step it scales the product by the reciprocal
  of the column sum (zero where the sum is zero) and stores the tile of the output. This module states the two
  conditions on the grid coordinates in closed form, says where the output window is idle, and names the memrefs
  the body is called with.
-/
import proofs.«154376_j40303973106024_2_alg».proof.Proof.Gen.Kernel.Launch
import proofs.«154376_j40303973106024_2_alg».proof.Proof.Gen.Kernel.Skeleton
import proofs.«154376_j40303973106024_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinates -/

/-- The body's first conditional (clear the two scratch buffers): the vertex-tile coordinate is 0. -/
abbrev v2eFirst (i : grid1.Coords) : Prop :=
  (Scalar.cmpi .ne (Scalar.extui (Scalar.cmpi .eq (BitVec.ofNat 32 (i 1).val) 0#32)) 0#32) = 1#1
/-- It holds at the first of every 16 points. -/
theorem v2eFirst_iff : ∀ t : Fin cfg1.N, v2eFirst (grid1.coords t) ↔ t.val % 16 = 0 :=
  (by decide +kernel : ∀ t : Fin grid1.N, v2eFirst (grid1.coords t) ↔ t.val % 16 = 0)

/-- The body's second conditional (scale and store the output tile): the vertex-tile coordinate is 15. -/
abbrev v2eLast (i : grid1.Coords) : Prop := k1_cond2 i = 1#1
/-- It holds at the last of every 16 points. -/
theorem v2eLast_iff : ∀ t : Fin cfg1.N, v2eLast (grid1.coords t) ↔ t.val % 16 = 15 :=
  (by decide +kernel : ∀ t : Fin grid1.N, v2eLast (grid1.coords t) ↔ t.val % 16 = 15)

/-! ## Where the windows are idle -/

/-- The two input windows are never idle. -/
theorem v2eLive_0 : ∀ t : Fin cfg1.N, cfg1.idle 0 (grid1.coords t) = false := by decide +kernel
theorem v2eLive_1 : ∀ t : Fin cfg1.N, cfg1.idle 1 (grid1.coords t) = false := by decide +kernel
/-- Away from the last step the body stores nothing into the output window: it is idle there and not written back. -/
theorem v2eIdle_2 : ∀ t : Fin cfg1.N, ¬v2eLast (grid1.coords t) → cfg1.idle 2 (grid1.coords t) = true := by decide +kernel
theorem v2eNoFlush_2 : ∀ t : Fin cfg1.N, ¬v2eLast (grid1.coords t) → (cfg1.win 2).flush t = false := by decide +kernel
/-- At the last step the output window is live. -/
theorem v2eLive_2 : ∀ t : Fin cfg1.N, v2eLast (grid1.coords t) → cfg1.idle 2 (grid1.coords t) = false := by decide +kernel

/-! ## The memrefs the body is called with -/

/-- Each window's current staging memref at point `t`, as the pipeline passes it, and its wholeness. -/
abbrev v2eM0 (t : Fin cfg1.N) : Memref sig .tc .vmem S1024x1024 .f32 := win1_0.stage (cfg1.slots t 0)
abbrev v2eH0 (t : Fin cfg1.N) : (v2eM0 t).IsWhole := hstage1_0 ((cfg1.slots t 0).cast nbuf1_0)
abbrev v2eM1 (t : Fin cfg1.N) : Memref sig .tc .vmem S16384x512 .bf16 := win1_1.stage (cfg1.slots t 1)
abbrev v2eH1 (t : Fin cfg1.N) : (v2eM1 t).IsWhole := hstage1_1 ((cfg1.slots t 1).cast nbuf1_1)
abbrev v2eM2 (t : Fin cfg1.N) : Memref sig .tc .vmem S512x1024 .bf16 := win1_2.stage (cfg1.slots t 2)
abbrev v2eH2 (t : Fin cfg1.N) : (v2eM2 t).IsWhole := hstage1_2 ((cfg1.slots t 2).cast nbuf1_2)
/-- The two scratch buffers: the running product and the running column sum. -/
abbrev v2eAcc : Memref sig .tc .vmem S512x1024 .f32 := Memref.whole cc1_scratch0
abbrev v2eCol : Memref sig .tc .vmem S1x1024 .f32 := Memref.whole cc1_scratch1
/-- One staging buffer of the output window, and the scratch buffers, as views through which contents are stated. -/
abbrev v2eVOut : View sig .tc .vmem S512x1024 .bf16 := (Memref.whole cc1_stg2_0 : Memref sig .tc .vmem S512x1024 .bf16).view
abbrev v2eVAcc : View sig .tc .vmem S512x1024 .f32 := v2eAcc.view
abbrev v2eVCol : View sig .tc .vmem S1x1024 .f32 := v2eCol.view

end Cert.Kernel.Gen

end
-- ==== Proof.V2eRunMidBits.lean ====
/-
  The vertex-to-edge kernel's body at a MIDDLE step (neither the first nor the last of the 16 steps of an edge tile),
  run once on whole memrefs at symbolic contents: the H tile and the resident Xt array are read and handed back as
  they were, the output's staging buffer is not touched, and each scratch buffer ends with the pieces the body
  stored into it (found by the symbolic execution).
-/
import proofs.«154376_j40303973106024_2_alg».proof.Proof.V2eStepsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle step: from the H tile at `x0`, the resident Xt at `x1`, the output's buffer at `xi2`,
    the running product at `xs0` and the running column sum at `xs1`, it runs to its return with the inputs and the
    output's buffer as they were and each scratch buffer with its pieces written. -/
noncomputable def v2eRunMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i)
    (x0 : Vec F S1024x1024 .f32) (x1 : Vec F S16384x512 .bf16) (xs0 : Vec F S512x1024 .f32) (xs1 : Vec F S1x1024 .f32) :
    Σ' (LS0 : List (View.Piece (Elt F) S512x1024 .f32)), { LS1 : List (View.Piece (Elt F) S1x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, fun xi2 E K => ?run⟩
  case run =>
    simp only [cc1__v2e_kernel_eq_skeleton]; unfold cc1__v2e_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.V2eRunFirstBits.lean ====
/-
  The vertex-to-edge kernel's body at the FIRST step of an edge tile: it clears the two scratch buffers (whatever they
  held), then adds the step's terms as at every step. The output's staging buffer is not touched.
-/
import proofs.«154376_j40303973106024_2_alg».proof.Proof.V2eRunMidBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first step: from the H tile at `x0`, the resident Xt at `x1`, the output's buffer at `xi2` and the
    scratch buffers at anything, it runs to its return with the inputs and the output's buffer as they were and each
    scratch buffer with its pieces written. -/
noncomputable def v2eRunFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i)
    (x0 : Vec F S1024x1024 .f32) (x1 : Vec F S16384x512 .bf16) :
    Σ' (LS0 : List (View.Piece (Elt F) S512x1024 .f32)), { LS1 : List (View.Piece (Elt F) S1x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, fun xi2 E K => ?run⟩
  case run =>
    simp only [cc1__v2e_kernel_eq_skeleton]; unfold cc1__v2e_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.V2eRunLastBits.lean ====
/-
  The vertex-to-edge kernel's body at the LAST step of an edge tile: it adds the step's terms to the two scratch buffers
  as at every step, then multiplies the running product by the reciprocal of the running column sum (zero where the sum
  is zero) and stores the result, the output tile, into the output's staging buffer.
-/
import proofs.«154376_j40303973106024_2_alg».proof.Proof.V2eRunFirstBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last step: from the H tile at `x0`, the resident Xt at `x1`, the output's buffer at anything, the
    running product at `xs0` and the running column sum at `xs1`, it runs to its return with the inputs as they were and
    the output's buffer and each scratch buffer with its pieces written. -/
noncomputable def v2eRunLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i)
    (x0 : Vec F S1024x1024 .f32) (x1 : Vec F S16384x512 .bf16) (xs0 : Vec F S512x1024 .f32) (xs1 : Vec F S1x1024 .f32) :
    Σ' (L2 : List (View.Piece (Elt F) S512x1024 .bf16)) (LS0 : List (View.Piece (Elt F) S512x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__v2e_kernel i arg2 harg2 arg3 harg3 arg4 harg4 arg5 harg5 arg6 harg6) K } := by
  refine ⟨?_, ?_, ?_, fun E K => ?run⟩
  case run =>
    simp only [cc1__v2e_kernel_eq_skeleton]; unfold cc1__v2e_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.V2eDataBits.lean ====
/-
  The vertex-to-edge kernel's proof data. What the two scratch buffers (running product, running column sum) and the
  output's staging buffer hold after each kind of step, as the pieces the body's run stored read back; what they hold
  after each grid point, by recursion on the point (the first step of an edge tile starts afresh, every other step
  continues from the point before); the invariant between points (before the first point every scoped buffer that is no
  staging buffer at anything; afterwards the two scratch buffers at the recursion's contents, the others at anything);
  and the body obligation at a generic point, by cases on the step's kind.
-/
import proofs.«154376_j40303973106024_2_alg».proof.Proof.V2eRunLastBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The windows' blocks -/

/-- Window `w`'s block at point `t`, read off its array as the region finds it. -/
def v2eBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem v2eBefore_0 {c : Dev nD} (dat : Dat τ (Elt F) Unit ℕ (UR sig nD τ) ℕ cfg1 c)
    (hA : dat.A 0 = V c (Pipeline.arrRef spec1 0)) (hafter : ∀ t, dat.after 0 t = v2eBlk V c 0 t) (t : Fin cfg1.N) (d) :
    dat.before 0 t d = v2eBlk V c 0 t :=
  (dat.before_in_eq_fetched 0 rfl (fun _ => rfl) (fun _ _ _ => rfl) (fun t => by rw [hafter]; unfold Dat.blockOf v2eBlk; rw [hA]; try rfl) t d).trans
    (by unfold Dat.fetched Dat.blockOf v2eBlk; rw [hA]; try rfl)

/-- Input window 1's current staging buffer holds its block at every point, fetched there or not, for any proof data
    whose array is the region-entry contents and whose body leaves the block in place. -/
theorem v2eBefore_1 {c : Dev nD} (dat : Dat τ (Elt F) Unit ℕ (UR sig nD τ) ℕ cfg1 c)
    (hA : dat.A 1 = V c (Pipeline.arrRef spec1 1)) (hafter : ∀ t, dat.after 1 t = v2eBlk V c 1 t) (t : Fin cfg1.N) (d) :
    dat.before 1 t d = v2eBlk V c 1 t :=
  (dat.before_in_eq_fetched 1 rfl (fun _ => rfl) (fun _ _ _ => rfl) (fun t => by rw [hafter]; unfold Dat.blockOf v2eBlk; rw [hA]; try rfl) t d).trans
    (by unfold Dat.fetched Dat.blockOf v2eBlk; rw [hA]; try rfl)

/-! ## What each kind of step leaves -/

/-- The pieces a first step stores into each scratch buffer cover it. -/
theorem v2eCoverFirstAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) (y : S512x1024.Idx) :
    ∃ pc ∈ (v2eRunFirst c i arg2 harg2 arg3 harg3 arg4 harg4 arg5 harg5 arg6 harg6 hc0 hc1 x0 x1).1, y ∈ pc.1.set :=
  View.cover_of_tiledL (v2eRunFirst c i arg2 harg2 arg3 harg3 arg4 harg4 arg5 harg5 arg6 harg6 hc0 hc1 x0 x1).1 S512x1024.size (by sl_kernel_rfl) y
theorem v2eCoverFirstCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) (y : S1x1024.Idx) :
    ∃ pc ∈ (v2eRunFirst c i arg2 harg2 arg3 harg3 arg4 harg4 arg5 harg5 arg6 harg6 hc0 hc1 x0 x1).2.1, y ∈ pc.1.set :=
  View.cover_of_tiledL (v2eRunFirst c i arg2 harg2 arg3 harg3 arg4 harg4 arg5 harg5 arg6 harg6 hc0 hc1 x0 x1).2.1 S1x1024.size (by sl_kernel_rfl) y
/-- What a first step leaves in the running product and in the running column sum: its pieces read back. -/
def v2eAccFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) : Vec F S512x1024 .f32 :=
  v2eVAcc.read (Elt F) (v2eVAcc.writes (Elt F) v2eVAcc.junk (v2eRunFirst c i arg2 harg2 arg3 harg3 arg4 harg4 arg5 harg5 arg6 harg6 hc0 hc1 x0 x1).1)
def v2eColFirst (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i) (x0 : Vec F S1024x1024 .f32) (x1 : Vec F S16384x512 .bf16) : Vec F S1x1024 .f32 :=
  v2eVCol.read (Elt F) (v2eVCol.writes (Elt F) v2eVCol.junk (v2eRunFirst c i arg2 harg2 arg3 harg3 arg4 harg4 arg5 harg5 arg6 harg6 hc0 hc1 x0 x1).2.1)

/-- The pieces a middle step stores into each scratch buffer cover it. -/
theorem v2eCoverMidAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) (y : S512x1024.Idx) :
    ∃ pc ∈ (v2eRunMid c i arg2 harg2 arg3 harg3 arg4 harg4 arg5 harg5 arg6 harg6 hc0 hc1 x0 x1 xs0 xs1).1, y ∈ pc.1.set :=
  View.cover_of_tiledL (v2eRunMid c i arg2 harg2 arg3 harg3 arg4 harg4 arg5 harg5 arg6 harg6 hc0 hc1 x0 x1 xs0 xs1).1 S512x1024.size (by sl_kernel_rfl) y
theorem v2eCoverMidCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) (y : S1x1024.Idx) :
    ∃ pc ∈ (v2eRunMid c i arg2 harg2 arg3 harg3 arg4 harg4 arg5 harg5 arg6 harg6 hc0 hc1 x0 x1 xs0 xs1).2.1, y ∈ pc.1.set :=
  View.cover_of_tiledL (v2eRunMid c i arg2 harg2 arg3 harg3 arg4 harg4 arg5 harg5 arg6 harg6 hc0 hc1 x0 x1 xs0 xs1).2.1 S1x1024.size (by sl_kernel_rfl) y
/-- What a middle step leaves in the two scratch buffers. -/
def v2eAccMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) : Vec F S512x1024 .f32 :=
  v2eVAcc.read (Elt F) (v2eVAcc.writes (Elt F) v2eVAcc.junk (v2eRunMid c i arg2 harg2 arg3 harg3 arg4 harg4 arg5 harg5 arg6 harg6 hc0 hc1 x0 x1 xs0 xs1).1)
def v2eColMid (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i) (x0 : Vec F S1024x1024 .f32) (x1 : Vec F S16384x512 .bf16) (xs0 : Vec F S512x1024 .f32) (xs1 : Vec F S1x1024 .f32) : Vec F S1x1024 .f32 :=
  v2eVCol.read (Elt F) (v2eVCol.writes (Elt F) v2eVCol.junk (v2eRunMid c i arg2 harg2 arg3 harg3 arg4 harg4 arg5 harg5 arg6 harg6 hc0 hc1 x0 x1 xs0 xs1).2.1)

/-- The pieces a last step stores into the output's staging buffer and into each scratch buffer cover them. -/
theorem v2eCoverLastOut (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S512x1024.Idx) :
    ∃ pc ∈ (v2eRunLast c i arg2 harg2 arg3 harg3 arg4 harg4 arg5 harg5 arg6 harg6 hc0 hc1 x0 x1 xs0 xs1).1, y ∈ pc.1.set :=
  View.cover_of_tiledL (v2eRunLast c i arg2 harg2 arg3 harg3 arg4 harg4 arg5 harg5 arg6 harg6 hc0 hc1 x0 x1 xs0 xs1).1 S512x1024.size (by sl_kernel_rfl) y
theorem v2eCoverLastAcc (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S512x1024.Idx) :
    ∃ pc ∈ (v2eRunLast c i arg2 harg2 arg3 harg3 arg4 harg4 arg5 harg5 arg6 harg6 hc0 hc1 x0 x1 xs0 xs1).2.1, y ∈ pc.1.set :=
  View.cover_of_tiledL (v2eRunLast c i arg2 harg2 arg3 harg3 arg4 harg4 arg5 harg5 arg6 harg6 hc0 hc1 x0 x1 xs0 xs1).2.1 S512x1024.size (by sl_kernel_rfl) y
theorem v2eCoverLastCol (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) (y : S1x1024.Idx) :
    ∃ pc ∈ (v2eRunLast c i arg2 harg2 arg3 harg3 arg4 harg4 arg5 harg5 arg6 harg6 hc0 hc1 x0 x1 xs0 xs1).2.2.1, y ∈ pc.1.set :=
  View.cover_of_tiledL (v2eRunLast c i arg2 harg2 arg3 harg3 arg4 harg4 arg5 harg5 arg6 harg6 hc0 hc1 x0 x1 xs0 xs1).2.2.1 S1x1024.size (by sl_kernel_rfl) y
/-- What a last step leaves in the output's staging buffer and in the two scratch buffers. -/
def v2eOutLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S512x1024 .bf16 :=
  v2eVOut.read (Elt F) (v2eVOut.writes (Elt F) v2eVOut.junk (v2eRunLast c i arg2 harg2 arg3 harg3 arg4 harg4 arg5 harg5 arg6 harg6 hc0 hc1 x0 x1 xs0 xs1).1)
def v2eAccLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S512x1024 .f32 :=
  v2eVAcc.read (Elt F) (v2eVAcc.writes (Elt F) v2eVAcc.junk (v2eRunLast c i arg2 harg2 arg3 harg3 arg4 harg4 arg5 harg5 arg6 harg6 hc0 hc1 x0 x1 xs0 xs1).2.1)
def v2eColLast (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i) (x0 : Vec F S1024x1024 .f32) (x1 : Vec F S16384x512 .bf16) (xs0 : Vec F S512x1024 .f32) (xs1 : Vec F S1x1024 .f32) : Vec F S1x1024 .f32 :=
  v2eVCol.read (Elt F) (v2eVCol.writes (Elt F) v2eVCol.junk (v2eRunLast c i arg2 harg2 arg3 harg3 arg4 harg4 arg5 harg5 arg6 harg6 hc0 hc1 x0 x1 xs0 xs1).2.2.1)

/-- The output window's contents where nothing consults them (a step that stores nothing into it: the window is idle
    there and not written back). -/
def v2eOutIdle : Vec F S512x1024 .bf16 := v2eVOut.read (Elt F) v2eVOut.junk

/-! ## What the buffers hold after each point -/

/-- THE ACCUMULATION: the output's staging buffer, the running product and the running column sum after the body at
    position `n`. A first step (position ≡ 0 mod 16) starts afresh from the point's blocks; every other step continues
    from what the point before left in the two scratch buffers; a last step (≡ 15 mod 16) also stores the output tile. -/
def v2eAt (c : Dev nD) : (n : ℕ) → n < cfg1.N → Vec F S512x1024 .bf16 × Vec F S512x1024 .f32 × Vec F S1x1024 .f32
  | 0, hn => (v2eOutIdle,
      v2eAccFirst c (grid1.coords ⟨0, hn⟩) (v2eM0 ⟨0, hn⟩) (v2eH0 ⟨0, hn⟩) (v2eM1 ⟨0, hn⟩) (v2eH1 ⟨0, hn⟩) (v2eM2 ⟨0, hn⟩) (v2eH2 ⟨0, hn⟩) v2eAcc (Memref.isWhole_whole _) v2eCol (Memref.isWhole_whole _) ((v2eFirst_iff ⟨0, hn⟩).mpr (Nat.zero_mod _)) (fun h => (fun h => by (try dsimp only at h); omega) ((v2eLast_iff ⟨0, hn⟩).mp h)) (v2eBlk V c 0 ⟨0, hn⟩) (v2eBlk V c 1 ⟨0, hn⟩),
      v2eColFirst c (grid1.coords ⟨0, hn⟩) (v2eM0 ⟨0, hn⟩) (v2eH0 ⟨0, hn⟩) (v2eM1 ⟨0, hn⟩) (v2eH1 ⟨0, hn⟩) (v2eM2 ⟨0, hn⟩) (v2eH2 ⟨0, hn⟩) v2eAcc (Memref.isWhole_whole _) v2eCol (Memref.isWhole_whole _) ((v2eFirst_iff ⟨0, hn⟩).mpr (Nat.zero_mod _)) (fun h => (fun h => by (try dsimp only at h); omega) ((v2eLast_iff ⟨0, hn⟩).mp h)) (v2eBlk V c 0 ⟨0, hn⟩) (v2eBlk V c 1 ⟨0, hn⟩))
  | n + 1, hn =>
    if h0 : (n + 1) % 16 = 0 then
      (v2eOutIdle,
        v2eAccFirst c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) ((v2eFirst_iff ⟨n + 1, hn⟩).mpr h0) (fun h => (fun h => by (try dsimp only at h); omega) ((v2eLast_iff ⟨n + 1, hn⟩).mp h)) (v2eBlk V c 0 ⟨n + 1, hn⟩) (v2eBlk V c 1 ⟨n + 1, hn⟩),
        v2eColFirst c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) ((v2eFirst_iff ⟨n + 1, hn⟩).mpr h0) (fun h => (fun h => by (try dsimp only at h); omega) ((v2eLast_iff ⟨n + 1, hn⟩).mp h)) (v2eBlk V c 0 ⟨n + 1, hn⟩) (v2eBlk V c 1 ⟨n + 1, hn⟩))
    else if h1 : (n + 1) % 16 = 15 then
      (v2eOutLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2,
        v2eAccLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2,
        v2eColLast c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) ((v2eLast_iff ⟨n + 1, hn⟩).mpr h1) (v2eBlk V c 0 ⟨n + 1, hn⟩) (v2eBlk V c 1 ⟨n + 1, hn⟩) (v2eAt c n (Nat.lt_of_succ_lt hn)).2.1 (v2eAt c n (Nat.lt_of_succ_lt hn)).2.2)
    else
      (v2eOutIdle,
        v2eAccMid c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) (fun h => h1 ((v2eLast_iff ⟨n + 1, hn⟩).mp h)) (v2eBlk V c 0 ⟨n + 1, hn⟩) (v2eBlk V c 1 ⟨n + 1, hn⟩) (v2eAt c n (Nat.lt_of_succ_lt hn)).2.1 (v2eAt c n (Nat.lt_of_succ_lt hn)).2.2,
        v2eColMid c (grid1.coords ⟨n + 1, hn⟩) (v2eM0 ⟨n + 1, hn⟩) (v2eH0 ⟨n + 1, hn⟩) (v2eM1 ⟨n + 1, hn⟩) (v2eH1 ⟨n + 1, hn⟩) (v2eM2 ⟨n + 1, hn⟩) (v2eH2 ⟨n + 1, hn⟩) v2eAcc (Memref.isWhole_whole _) v2eCol (Memref.isWhole_whole _) (fun h => h0 ((v2eFirst_iff ⟨n + 1, hn⟩).mp h)) (fun h => h1 ((v2eLast_iff ⟨n + 1, hn⟩).mp h)) (v2eBlk V c 0 ⟨n + 1, hn⟩) (v2eBlk V c 1 ⟨n + 1, hn⟩) (v2eAt c n (Nat.lt_of_succ_lt hn)).2.1 (v2eAt c n (Nat.lt_of_succ_lt hn)).2.2)

/-- The accumulation at a first step. -/
theorem v2eAt_first (c : Dev nD) (t : Fin cfg1.N) (h0 : t.val % 16 = 0) (h1 : ¬t.val % 16 = 15) :
    v2eAt V c t.val t.isLt = (v2eOutIdle,
      v2eAccFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t),
      v2eColFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t)) := by
  obtain ⟨n, hn⟩ := t
  cases n with
  | zero => exact rfl
  | succ n => exact (dif_pos h0).trans rfl

/-- The accumulation at a middle step: over what the point before left. -/
theorem v2eAt_mid (c : Dev nD) (t : Fin cfg1.N) (h0 : ¬t.val % 16 = 0) (h1 : ¬t.val % 16 = 15) :
    v2eAt V c t.val t.isLt = (v2eOutIdle,
      v2eAccMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eColMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The accumulation at a last step: over what the point before left, the output tile stored. -/
theorem v2eAt_last (c : Dev nD) (t : Fin cfg1.N) (h0 : ¬t.val % 16 = 0) (h1 : t.val % 16 = 15) :
    v2eAt V c t.val t.isLt = (v2eOutLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eAccLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2,
      v2eColLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

end Cert.Kernel.Gen

end
-- ==== Proof.V2eBodyBits.lean ====
/-
  The vertex-to-edge kernel's invariant, proof data and body obligation. Between grid points the two scratch buffers
  hold what the recursion of the accumulation says (before the very first point: anything), every other scoped buffer
  that is no staging buffer of this call holds anything; at a generic point the body's run for the step's kind applies,
  and what it stored, read back, is the recursion's next value.
-/
import proofs.«154376_j40303973106024_2_alg».proof.Proof.V2eDataBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The scoped buffers beside the two scratch buffers -/

/-- Every scoped buffer of the core that is neither a staging buffer of this call nor one of its two scratch buffers,
    each whole at some contents. -/
def v2eOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scoped buffers that are no staging buffer of this call: the two scratch buffers at anything beside the others. -/
theorem v2eScoped_split (c : Dev nD) :
    (Pipeline.scopedRest (Ix := Unit) (Name := ℕ) (U := UR sig nD τ) (Lvl := ℕ) (Val := Elt F) spec1 c : sProp 𝕄)
      ⊢ iprop((∃ d, owns (c : Thread nD τ) v2eAcc fullShare d) ∗ (∃ d, owns (c : Thread nD τ) v2eCol fullShare d) ∗ v2eOthers c) := by
  rw [scopedRest1_eq]; unfold v2eOthers; simp only [v2eAcc, v2eCol, owns_whole]
  iintro ⟨H1, H2, H3, H4, H5, H6, HS0, HS1, H9, H10, H11, H12, H13, H14, H15⟩
  isplitl [HS0]; · iexact HS0
  isplitl [HS1]; · iexact HS1
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  iexact H15

theorem v2eScoped_join (c : Dev nD) :
    iprop((∃ d, owns (c : Thread nD τ) v2eAcc fullShare d) ∗ (∃ d, owns (c : Thread nD τ) v2eCol fullShare d) ∗ v2eOthers c)
      ⊢ (Pipeline.scopedRest (Ix := Unit) (Name := ℕ) (U := UR sig nD τ) (Lvl := ℕ) (Val := Elt F) spec1 c : sProp 𝕄) := by
  rw [scopedRest1_eq]; unfold v2eOthers; simp only [v2eAcc, v2eCol, owns_whole]
  iintro ⟨HS0, HS1, H1, H2, H3, H4, H5, H6, H9, H10, H11, H12, H13, H14, H15⟩
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [H9]; · iexact H9
  isplitl [H10]; · iexact H10
  isplitl [H11]; · iexact H11
  isplitl [H12]; · iexact H12
  isplitl [H13]; · iexact H13
  isplitl [H14]; · iexact H14
  iexact H15

/-! ## The invariant between points -/

/-- Before position `n`: at the very first point the scoped buffers as the launch hands them; afterwards the two scratch
    buffers at what the point before left, the others at anything. -/
def v2ePhi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) v2eAcc fullShare (v2eAt V c n hn).2.1 ∗ owns (c : Thread nD τ) v2eCol fullShare (v2eAt V c n hn).2.2 ∗ v2eOthers c)

theorem v2ePhi_succ (c : Dev nD) (n : ℕ) (hn : n < cfg1.N) :
    v2ePhi V c (n + 1) hn = iprop(owns (c : Thread nD τ) v2eAcc fullShare (v2eAt V c n hn).2.1 ∗ owns (c : Thread nD τ) v2eCol fullShare (v2eAt V c n hn).2.2 ∗ v2eOthers c) := rfl

theorem v2ePhi_pos (c : Dev nD) (n : ℕ) (h : n ≤ cfg1.N) (hz : n ≠ 0) :
    v2ePhi V c n h = iprop(owns (c : Thread nD τ) v2eAcc fullShare (v2eAt V c (n - 1) (by omega)).2.1 ∗ owns (c : Thread nD τ) v2eCol fullShare (v2eAt V c (n - 1) (by omega)).2.2 ∗ v2eOthers c) := by
  cases n with
  | zero => exact absurd rfl hz
  | succ n => rfl

/-- At any position the invariant gives the two scratch buffers at some contents beside the others. -/
theorem v2ePhi_forget (c : Dev nD) (n : ℕ) (h : n ≤ cfg1.N) :
    v2ePhi V c n h ⊢ iprop((∃ d, owns (c : Thread nD τ) v2eAcc fullShare d) ∗ (∃ d, owns (c : Thread nD τ) v2eCol fullShare d) ∗ v2eOthers c) := by
  cases n with
  | zero => exact v2eScoped_split c
  | succ n =>
    rw [v2ePhi_succ]
    iintro ⟨HS0, HS1, Hr⟩
    isplitl [HS0]; · iexists _; iexact HS0
    isplitl [HS1]; · iexists _; iexact HS1
    iexact Hr

/-! ## The proof data -/

/-- The proof data on core `c`: the arrays as the region finds them; after the body each input's buffer at its block
    and the output's at the accumulation's first component; the invariant above; nothing owed; full shares. -/
def v2eDat (c : Dev nD) : Dat τ (Elt F) Unit ℕ (UR sig nD τ) ℕ cfg1 c where
  A w := V c (Pipeline.arrRef spec1 w)
  after w t := match w with
    | ⟨0, _⟩ => v2eBlk V c 0 t
    | ⟨1, _⟩ => v2eBlk V c 1 t
    | ⟨2, _⟩ => (v2eAt V c t.val t.isLt).1
  Φ t := v2ePhi V c t.val (Nat.le_of_lt_succ t.isLt)
  q _ := fullShare
  owed _ := 0

theorem v2eDat_A (c : Dev nD) (w : Fin cfg1.W) : (v2eDat V c).A w = V c (Pipeline.arrRef spec1 w) := by
  dsimp only [v2eDat]

theorem v2ePhi_castSucc (c : Dev nD) (t : Fin cfg1.N) :
    (v2eDat V c).Φ t.castSucc = v2ePhi V c t.val (Nat.le_of_lt t.isLt) := by
  dsimp only [v2eDat]; simp only [Fin.coe_castSucc]

theorem v2eAfter_0 (c : Dev nD) (t : Fin cfg1.N) : (v2eDat V c).after 0 t = v2eBlk V c 0 t := by dsimp only [v2eDat]
theorem v2eAfter_1 (c : Dev nD) (t : Fin cfg1.N) : (v2eDat V c).after 1 t = v2eBlk V c 1 t := by dsimp only [v2eDat]
theorem v2eAfter_2 (c : Dev nD) (t : Fin cfg1.N) : (v2eDat V c).after 2 t = (v2eAt V c t.val t.isLt).1 := by dsimp only [v2eDat]

theorem v2eBeforeDat_0 (c : Dev nD) (t : Fin cfg1.N) (d) : (v2eDat V c).before 0 t d = v2eBlk V c 0 t :=
  v2eBefore_0 V (v2eDat V c) (v2eDat_A V c 0) (v2eAfter_0 V c) t d
theorem v2eBeforeDat_1 (c : Dev nD) (t : Fin cfg1.N) (d) : (v2eDat V c).before 1 t d = v2eBlk V c 1 t :=
  v2eBefore_1 V (v2eDat V c) (v2eDat_A V c 1) (v2eAfter_1 V c) t d

/-! ## The body obligation, at a generic point -/

/-- What the body is called with at point `t`, -/
def v2ePre (c : Dev nD) (t : Fin cfg1.N) : sProp 𝕄 :=
  iprop((v2eDat V c).Φ t.castSucc ∗ (v2eDat V c).owesAt () t.castSucc
    ∗ (∃ d, owns (c : Thread nD τ) (v2eM0 t) fullShare ((v2eDat V c).before 0 t d))
    ∗ (∃ d, owns (c : Thread nD τ) (v2eM1 t) fullShare ((v2eDat V c).before 1 t d))
    ∗ (∃ d, owns (c : Thread nD τ) (v2eM2 t) fullShare ((v2eDat V c).before 2 t d)))

/-- and what it returns. -/
def v2ePost (c : Dev nD) (t : Fin cfg1.N) : sProp 𝕄 :=
  iprop((v2eDat V c).Φ t.succ ∗ (v2eDat V c).owesAt () t.succ
    ∗ (v2eDat V c).leavesExact 0 t
    ∗ (v2eDat V c).leavesExact 1 t
    ∗ (v2eDat V c).leavesExact 2 t)

set_option maxHeartbeats 4800000 in
/-- The body at any point: the inputs' buffers hold their blocks; the step's kind is decided by the position modulo 16;
    the invariant hands the body the two scratch buffers at what the point before left (at anything where the step
    clears them) and takes them back at this point's contents. -/
theorem v2eSound (c : Dev nD) (t : Fin cfg1.N) :
    v2ePre V c t ⊢ wp frame (wpE (defs₀ (F := F)) Variants.none c none) Set.univ (bodyAt1 t) (fun _ => v2ePost V c t) := by
  unfold v2ePre v2ePost bodyAt1
  simp only [v2eBeforeDat_0, v2eBeforeDat_1]
  rw [show (v2eDat V c).owesAt () t.succ = (v2eDat V c).owesAt () t.castSucc from rfl]
  rw [show (v2eDat V c).Φ t.succ = v2ePhi V c (t.val + 1) t.isLt from rfl, v2ePhi_succ]
  rw [show (v2eDat V c).leavesExact 0 t = owns (c : Thread nD τ) (v2eM0 t) fullShare ((v2eDat V c).after 0 t) from by
    unfold Dat.leavesExact; rw [v2eLive_0 t], v2eAfter_0]
  rw [show (v2eDat V c).leavesExact 1 t = owns (c : Thread nD τ) (v2eM1 t) fullShare ((v2eDat V c).after 1 t) from by
    unfold Dat.leavesExact; rw [v2eLive_1 t], v2eAfter_1]
  have hN : t.val < 128 := lt_of_lt_of_eq t.isLt (show cfg1.N = 128 from N_1)
  by_cases h0 : t.val % 16 = 0
  · have h1 : ¬t.val % 16 = 15 := by omega
    rw [Dat.leavesExact_idle (v2eDat V c) 2 t (v2eIdle_2 t (fun h => h1 ((v2eLast_iff t).mp h))) (v2eNoFlush_2 t (fun h => h1 ((v2eLast_iff t).mp h)))]
    rw [v2eAt_first V c t h0 h1]
    unfold v2eAccFirst v2eColFirst; (try dsimp only)
    rw [v2ePhi_castSucc V c t]
    iintro ⟨HΦ, Ho, ⟨%d0, H0⟩, ⟨%d1, H1⟩, ⟨%d2, H2⟩⟩
    ihave HΦ' := (v2ePhi_forget V c t.val (Nat.le_of_lt t.isLt)) $$ HΦ
    icases HΦ' with ⟨HS0, HS1, Hr⟩
    iapply ((v2eRunFirst c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (v2eCoverFirstAcc c _ _ _ _ _ _ _ _ _ _ _ _ _ _ _)
      isplitl [HS1]
      · unfold owns; iexists _; isplitr
        swap; · iexact HS1
        ipureintro; exact View.read_writes_of_cover _ _ _ _ _ (v2eCoverFirstCol c _ _ _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (v2eDat V c).leavesExact 2 t = owns (c : Thread nD τ) (v2eM2 t) fullShare ((v2eDat V c).after 2 t) from by
        unfold Dat.leavesExact; rw [v2eLive_2 t ((v2eLast_iff t).mpr h1)], v2eAfter_2]
      rw [v2eAt_last V c t h0 h1]
      unfold v2eOutLast v2eAccLast v2eColLast; (try dsimp only)
      rw [v2ePhi_castSucc V c t, v2ePhi_pos V c _ _ hz]
      iintro ⟨⟨HS0, HS1, Hr⟩, Ho, ⟨%d0, H0⟩, ⟨%d1, H1⟩, ⟨%d2, H2⟩⟩
      iapply ((v2eRunLast c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (v2eCoverLastAcc c _ _ _ _ _ _ _ _ _ _ _ _ _ _ _ _ _)
        isplitl [HS1]
        · unfold owns; iexists _; isplitr
          swap; · iexact HS1
          ipureintro; exact View.read_writes_of_cover _ _ _ _ _ (v2eCoverLastCol c _ _ _ _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (v2eCoverLastOut c _ _ _ _ _ _ _ _ _ _ _ _ _ _ _ _ _)
    · rw [Dat.leavesExact_idle (v2eDat V c) 2 t (v2eIdle_2 t (fun h => h1 ((v2eLast_iff t).mp h))) (v2eNoFlush_2 t (fun h => h1 ((v2eLast_iff t).mp h)))]
      rw [v2eAt_mid V c t h0 h1]
      unfold v2eAccMid v2eColMid; (try dsimp only)
      rw [v2ePhi_castSucc V c t, v2ePhi_pos V c _ _ hz]
      iintro ⟨⟨HS0, HS1, Hr⟩, Ho, ⟨%d0, H0⟩, ⟨%d1, H1⟩, ⟨%d2, H2⟩⟩
      iapply ((v2eRunMid c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (v2eCoverMidAcc c _ _ _ _ _ _ _ _ _ _ _ _ _ _ _ _ _)
        isplitl [HS1]
        · unfold owns; iexists _; isplitr
          swap; · iexact HS1
          ipureintro; exact View.read_writes_of_cover _ _ _ _ _ (v2eCoverMidCol c _ _ _ _ _ _ _ _ _ _ _ _ _ _ _ _ _)
        iexact Hr
      isplitl [Ho]; · iexact Ho
      isplitl [H0]; · iexact H0
      isplitl [H1]; · iexact H1
      iexists _; iexact H2

/-- The library's body obligation, at every point. -/
theorem v2eBody (c : Dev nD) : BodyObligation (v2eDat (F := F) V c) (defs₀ (F := F)) Variants.none () Set.univ := fun t => by
  rw [bigSep_W1, bigSep_W1]
  exact v2eSound V c t

/-- What the launch hands the region is the invariant before the first point. -/
theorem v2ePhi_in (c : Dev nD) :
    (Pipeline.scopedRest (Ix := Unit) (Name := ℕ) (U := UR sig nD τ) (Lvl := ℕ) (Val := Elt F) spec1 c : sProp 𝕄) ⊢ (v2eDat V c).Φ 0 :=
  Idealize.SL.BI.Entails.refl _

/-- After the last point the invariant gives the scoped buffers back, the scratch buffers' contents forgotten. -/
theorem v2ePhi_out (c : Dev nD) :
    (v2eDat V c).Φ (Fin.last cfg1.N) ⊢ (Pipeline.scopedRest (Ix := Unit) (Name := ℕ) (U := UR sig nD τ) (Lvl := ℕ) (Val := Elt F) spec1 c : sProp 𝕄) :=
  (show v2ePhi V c (Fin.last cfg1.N).val (Nat.le_of_lt_succ (Fin.last cfg1.N).isLt) ⊢ _ from v2ePhi_forget V c _ _).trans (v2eScoped_join c)

end Cert.Kernel.Gen

end
-- ==== Proof.V2eRegionBits.lean ====
/-
  The vertex-to-edge kernel's region as the run of @main takes it: its proof data over the region-entry contents, the
  body obligation, and the invariant at the two ends made of, and giving back, the scoped buffers no window stages.
-/
import proofs.«154376_j40303973106024_2_alg».proof.Proof.V2eBodyBits
import proofs.«154376_j40303973106024_2_alg».proof.Proof.RegionProofBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-- The invariant at the first point is the scoped buffers no window stages, whatever rides beside them. -/
theorem v2eIn (c : Dev nD) (P : sProp 𝕄) :
    iprop(emp ∗ P ∗ Pipeline.scopedRest (Ix := Unit) (Name := ℕ) (U := UR sig nD τ) (Lvl := ℕ) (Val := Elt F) spec1 c) ⊢ (v2eDat V c).Φ 0 := by
  iintro ⟨-, -, Hr⟩
  iapply (v2ePhi_in V c)
  iexact Hr

/-- The invariant at the last point gives those buffers back; the kernel has no semaphore of its own. -/
theorem v2eOut (c : Dev nD) :
    (v2eDat V c).Φ (Fin.last cfg1.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec1 c) := by
  rw [Pipeline.ownSems0_none]
  iintro H
  isplitr; · iempintro
  isplitr; · iempintro
  iapply (v2ePhi_out V c)
  iexact H

/-- The region's part of the run. -/
def v2eRegion : Cert.Kernel.Run.RegionProof F 1 where
  D := fun V c => v2eDat V c
  hA := fun V c w => v2eDat_A V c w
  hq := fun _ _ _ => rfl
  howed := fun _ _ _ => rfl
  hrec := fun _ _ _ => rfl
  hbody := fun V c => v2eBody V c
  hin := fun V c => v2eIn V c _
  hout := fun V c => v2eOut V c

end Cert.Kernel.Gen

end
-- ==== Proof.E2vStepsBits.lean ====
/-
  The edge-to-vertex kernel (the third pallas_call): a grid of 16 vertex tiles by 4 edge tiles, the edge axis the fast
  one. Along the 4 steps of one vertex tile the kernel keeps two scratch buffers: the running product
  sum_e H[v-tile, e] XeT[:, e]^T (1024 x 512) and the running row sum sum_e H[v-tile, e] (1024 x 1). At the first step
  it clears both before adding the step's terms, at the last step it scales the product by the reciprocal of the row sum
  (zero where the sum is zero), takes the maximum with zero and stores the tile of the output. This module states the
  two conditions on the grid coordinates in closed form, says where the output window is idle, and names the memrefs
  the body is called with.
-/
import proofs.«154376_j40303973106024_2_alg».proof.Proof.Gen.Kernel.Launch
import proofs.«154376_j40303973106024_2_alg».proof.Proof.Gen.Kernel.Skeleton
import proofs.«154376_j40303973106024_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinates -/

/-- The body's first conditional (clear the two scratch buffers): the edge-tile coordinate is 0. -/
abbrev e2vFirst (i : grid2.Coords) : Prop :=
  (Scalar.cmpi .ne (Scalar.extui (Scalar.cmpi .eq (BitVec.ofNat 32 (i 1).val) 0#32)) 0#32) = 1#1
/-- It holds at the first of every 4 points. -/
theorem e2vFirst_iff : ∀ t : Fin cfg2.N, e2vFirst (grid2.coords t) ↔ t.val % 4 = 0 :=
  (by decide +kernel : ∀ t : Fin grid2.N, e2vFirst (grid2.coords t) ↔ t.val % 4 = 0)

/-- The body's second conditional (scale and store the output tile): the edge-tile coordinate is 3. -/
abbrev e2vLast (i : grid2.Coords) : Prop := k2_cond2 i = 1#1
/-- It holds at the last of every 4 points. -/
theorem e2vLast_iff : ∀ t : Fin cfg2.N, e2vLast (grid2.coords t) ↔ t.val % 4 = 3 :=
  (by decide +kernel : ∀ t : Fin grid2.N, e2vLast (grid2.coords t) ↔ t.val % 4 = 3)

/-! ## Where the windows are idle -/

/-- The two input windows are never idle. -/
theorem e2vLive_0 : ∀ t : Fin cfg2.N, cfg2.idle 0 (grid2.coords t) = false := by decide +kernel
theorem e2vLive_1 : ∀ t : Fin cfg2.N, cfg2.idle 1 (grid2.coords t) = false := by decide +kernel
/-- Away from the last step the body stores nothing into the output window: it is idle there and not written back. -/
theorem e2vIdle_2 : ∀ t : Fin cfg2.N, ¬e2vLast (grid2.coords t) → cfg2.idle 2 (grid2.coords t) = true := by decide +kernel
theorem e2vNoFlush_2 : ∀ t : Fin cfg2.N, ¬e2vLast (grid2.coords t) → (cfg2.win 2).flush t = false := by decide +kernel
/-- At the last step the output window is live. -/
theorem e2vLive_2 : ∀ t : Fin cfg2.N, e2vLast (grid2.coords t) → cfg2.idle 2 (grid2.coords t) = false := by decide +kernel

/-! ## The memrefs the body is called with -/

/-- Each window's current staging memref at point `t`, as the pipeline passes it, and its wholeness. -/
abbrev e2vM0 (t : Fin cfg2.N) : Memref sig .tc .vmem S1024x2048 .f32 := win2_0.stage (cfg2.slots t 0)
abbrev e2vH0 (t : Fin cfg2.N) : (e2vM0 t).IsWhole := hstage2_0 ((cfg2.slots t 0).cast nbuf2_0)
abbrev e2vM1 (t : Fin cfg2.N) : Memref sig .tc .vmem S512x8192 .bf16 := win2_1.stage (cfg2.slots t 1)
abbrev e2vH1 (t : Fin cfg2.N) : (e2vM1 t).IsWhole := hstage2_1 ((cfg2.slots t 1).cast nbuf2_1)
abbrev e2vM2 (t : Fin cfg2.N) : Memref sig .tc .vmem S1024x512 .f32 := win2_2.stage (cfg2.slots t 2)
abbrev e2vH2 (t : Fin cfg2.N) : (e2vM2 t).IsWhole := hstage2_2 ((cfg2.slots t 2).cast nbuf2_2)
/-- The two scratch buffers: the running product and the running row sum. -/
abbrev e2vAcc : Memref sig .tc .vmem S1024x512 .f32 := Memref.whole cc2_scratch0
abbrev e2vCol : Memref sig .tc .vmem S1024x1 .f32 := Memref.whole cc2_scratch1
/-- One staging buffer of the output window, and the scratch buffers, as views through which contents are stated. -/
abbrev e2vVOut : View sig .tc .vmem S1024x512 .f32 := (Memref.whole cc2_stg2_0 : Memref sig .tc .vmem S1024x512 .f32).view
abbrev e2vVAcc : View sig .tc .vmem S1024x512 .f32 := e2vAcc.view
abbrev e2vVCol : View sig .tc .vmem S1024x1 .f32 := e2vCol.view

end Cert.Kernel.Gen

end
-- ==== Proof.E2vRunMidBits.lean ====
/-
  The edge-to-vertex kernel's body at a MIDDLE step (neither the first nor the last of the 4 steps of a vertex tile),
  run once on whole memrefs at symbolic contents: the H tile and the resident XeT array are read and handed back as
  they were, the output's staging buffer is not touched, and each scratch buffer ends with the pieces the body
  stored into it (found by the symbolic execution).
-/
import proofs.«154376_j40303973106024_2_alg».proof.Proof.E2vStepsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle step: from the H tile at `x0`, the resident XeT at `x1`, the output's buffer at `xi2`,
    the running product at `xs0` and the running row sum at `xs1`, it runs to its return with the inputs and the
    output's buffer as they were and each scratch buffer with its pieces written. -/
noncomputable def e2vRunMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i)
    (x0 : Vec F S1024x2048 .f32) (x1 : Vec F S512x8192 .bf16) (xs0 : Vec F S1024x512 .f32) (xs1 : Vec F S1024x1 .f32) :
    Σ' (LS0 : List (View.Piece (Elt F) S1024x512 .f32)), { LS1 : List (View.Piece (Elt F) S1024x1 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, fun xi2 E K => ?run⟩
  case run =>
    simp only [cc2__e2v_kernel_eq_skeleton]; unfold cc2__e2v_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.E2vRunFirstBits.lean ====
/-
  The edge-to-vertex kernel's body at the FIRST step of a vertex tile: it clears the two scratch buffers (whatever they
  held), then adds the step's terms as at every step. The output's staging buffer is not touched.
-/
import proofs.«154376_j40303973106024_2_alg».proof.Proof.E2vRunMidBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first step: from the H tile at `x0`, the resident XeT at `x1`, the output's buffer at `xi2` and the
    scratch buffers at anything, it runs to its return with the inputs and the output's buffer as they were and each
    scratch buffer with its pieces written. -/
noncomputable def e2vRunFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i)
    (x0 : Vec F S1024x2048 .f32) (x1 : Vec F S512x8192 .bf16) :
    Σ' (LS0 : List (View.Piece (Elt F) S1024x512 .f32)), { LS1 : List (View.Piece (Elt F) S1024x1 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, fun xi2 E K => ?run⟩
  case run =>
    simp only [cc2__e2v_kernel_eq_skeleton]; unfold cc2__e2v_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.E2vRunLastBits.lean ====
/-
  The edge-to-vertex kernel's body at the LAST step of a vertex tile: it adds the step's terms to the two scratch buffers
  as at every step, then multiplies the running product by the reciprocal of the running row sum (zero where the sum
  is zero), takes the maximum with zero and stores the result, the output tile, into the output's staging buffer.
-/
import proofs.«154376_j40303973106024_2_alg».proof.Proof.E2vRunFirstBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last step: from the H tile at `x0`, the resident XeT at `x1`, the output's buffer at anything, the
    running product at `xs0` and the running row sum at `xs1`, it runs to its return with the inputs as they were and
    the output's buffer and each scratch buffer with its pieces written. -/
noncomputable def e2vRunLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i)
    (x0 : Vec F S1024x2048 .f32) (x1 : Vec F S512x8192 .bf16) (xs0 : Vec F S1024x512 .f32) (xs1 : Vec F S1024x1 .f32) :
    Σ' (L2 : List (View.Piece (Elt F) S1024x512 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc2__e2v_kernel i arg2 harg2 arg3 harg3 arg4 harg4 arg5 harg5 arg6 harg6) K } := by
  refine ⟨?_, ?_, ?_, fun E K => ?run⟩
  case run =>
    simp only [cc2__e2v_kernel_eq_skeleton]; unfold cc2__e2v_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.E2vDataBits.lean ====
/-
  The edge-to-vertex kernel's proof data. What the two scratch buffers (running product, running row sum) and the
  output's staging buffer hold after each kind of step, as the pieces the body's run stored read back; what they hold
  after each grid point, by recursion on the point (the first step of a vertex tile starts afresh, every other step
  continues from the point before); and the windows' blocks read off the arrays as the region finds them.
-/
import proofs.«154376_j40303973106024_2_alg».proof.Proof.E2vRunLastBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The windows' blocks -/

/-- Window `w`'s block at point `t`, read off its array as the region finds it. -/
def e2vBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place. -/
theorem e2vBefore_0 {c : Dev nD} (dat : Dat τ (Elt F) Unit ℕ (UR sig nD τ) ℕ cfg2 c)
    (hA : dat.A 0 = V c (Pipeline.arrRef spec2 0)) (hafter : ∀ t, dat.after 0 t = e2vBlk V c 0 t) (t : Fin cfg2.N) (d) :
    dat.before 0 t d = e2vBlk V c 0 t :=
  (dat.before_in_eq_fetched 0 rfl (fun _ => rfl) (fun _ _ _ => rfl) (fun t => by rw [hafter]; unfold Dat.blockOf e2vBlk; rw [hA]; try rfl) t d).trans
    (by unfold Dat.fetched Dat.blockOf e2vBlk; rw [hA]; try rfl)

/-- Input window 1's current staging buffer holds its block at every point, fetched there or not, for any proof data
    whose array is the region-entry contents and whose body leaves the block in place. -/
theorem e2vBefore_1 {c : Dev nD} (dat : Dat τ (Elt F) Unit ℕ (UR sig nD τ) ℕ cfg2 c)
    (hA : dat.A 1 = V c (Pipeline.arrRef spec2 1)) (hafter : ∀ t, dat.after 1 t = e2vBlk V c 1 t) (t : Fin cfg2.N) (d) :
    dat.before 1 t d = e2vBlk V c 1 t :=
  (dat.before_in_eq_fetched 1 rfl (fun _ => rfl) (fun _ _ _ => rfl) (fun t => by rw [hafter]; unfold Dat.blockOf e2vBlk; rw [hA]; try rfl) t d).trans
    (by unfold Dat.fetched Dat.blockOf e2vBlk; rw [hA]; try rfl)

/-! ## What each kind of step leaves -/

/-- The pieces a first step stores into each scratch buffer cover it. -/
theorem e2vCoverFirstAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) (y : S1024x512.Idx) :
    ∃ pc ∈ (e2vRunFirst c i arg2 harg2 arg3 harg3 arg4 harg4 arg5 harg5 arg6 harg6 hc0 hc1 x0 x1).1, y ∈ pc.1.set :=
  View.cover_of_tiledL (e2vRunFirst c i arg2 harg2 arg3 harg3 arg4 harg4 arg5 harg5 arg6 harg6 hc0 hc1 x0 x1).1 S1024x512.size (by sl_kernel_rfl) y
theorem e2vCoverFirstCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) (y : S1024x1.Idx) :
    ∃ pc ∈ (e2vRunFirst c i arg2 harg2 arg3 harg3 arg4 harg4 arg5 harg5 arg6 harg6 hc0 hc1 x0 x1).2.1, y ∈ pc.1.set :=
  View.cover_of_tiledL (e2vRunFirst c i arg2 harg2 arg3 harg3 arg4 harg4 arg5 harg5 arg6 harg6 hc0 hc1 x0 x1).2.1 S1024x1.size (by sl_kernel_rfl) y
/-- What a first step leaves in the running product and in the running row sum: its pieces read back. -/
def e2vAccFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) : Vec F S1024x512 .f32 :=
  e2vVAcc.read (Elt F) (e2vVAcc.writes (Elt F) e2vVAcc.junk (e2vRunFirst c i arg2 harg2 arg3 harg3 arg4 harg4 arg5 harg5 arg6 harg6 hc0 hc1 x0 x1).1)
def e2vColFirst (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i) (x0 : Vec F S1024x2048 .f32) (x1 : Vec F S512x8192 .bf16) : Vec F S1024x1 .f32 :=
  e2vVCol.read (Elt F) (e2vVCol.writes (Elt F) e2vVCol.junk (e2vRunFirst c i arg2 harg2 arg3 harg3 arg4 harg4 arg5 harg5 arg6 harg6 hc0 hc1 x0 x1).2.1)

/-- The pieces a middle step stores into each scratch buffer cover it. -/
theorem e2vCoverMidAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) (y : S1024x512.Idx) :
    ∃ pc ∈ (e2vRunMid c i arg2 harg2 arg3 harg3 arg4 harg4 arg5 harg5 arg6 harg6 hc0 hc1 x0 x1 xs0 xs1).1, y ∈ pc.1.set :=
  View.cover_of_tiledL (e2vRunMid c i arg2 harg2 arg3 harg3 arg4 harg4 arg5 harg5 arg6 harg6 hc0 hc1 x0 x1 xs0 xs1).1 S1024x512.size (by sl_kernel_rfl) y
theorem e2vCoverMidCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) (y : S1024x1.Idx) :
    ∃ pc ∈ (e2vRunMid c i arg2 harg2 arg3 harg3 arg4 harg4 arg5 harg5 arg6 harg6 hc0 hc1 x0 x1 xs0 xs1).2.1, y ∈ pc.1.set :=
  View.cover_of_tiledL (e2vRunMid c i arg2 harg2 arg3 harg3 arg4 harg4 arg5 harg5 arg6 harg6 hc0 hc1 x0 x1 xs0 xs1).2.1 S1024x1.size (by sl_kernel_rfl) y
/-- What a middle step leaves in the two scratch buffers. -/
def e2vAccMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) : Vec F S1024x512 .f32 :=
  e2vVAcc.read (Elt F) (e2vVAcc.writes (Elt F) e2vVAcc.junk (e2vRunMid c i arg2 harg2 arg3 harg3 arg4 harg4 arg5 harg5 arg6 harg6 hc0 hc1 x0 x1 xs0 xs1).1)
def e2vColMid (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i) (x0 : Vec F S1024x2048 .f32) (x1 : Vec F S512x8192 .bf16) (xs0 : Vec F S1024x512 .f32) (xs1 : Vec F S1024x1 .f32) : Vec F S1024x1 .f32 :=
  e2vVCol.read (Elt F) (e2vVCol.writes (Elt F) e2vVCol.junk (e2vRunMid c i arg2 harg2 arg3 harg3 arg4 harg4 arg5 harg5 arg6 harg6 hc0 hc1 x0 x1 xs0 xs1).2.1)

/-- The pieces a last step stores into the output's staging buffer and into each scratch buffer cover them. -/
theorem e2vCoverLastOut (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x512.Idx) :
    ∃ pc ∈ (e2vRunLast c i arg2 harg2 arg3 harg3 arg4 harg4 arg5 harg5 arg6 harg6 hc0 hc1 x0 x1 xs0 xs1).1, y ∈ pc.1.set :=
  View.cover_of_tiledL (e2vRunLast c i arg2 harg2 arg3 harg3 arg4 harg4 arg5 harg5 arg6 harg6 hc0 hc1 x0 x1 xs0 xs1).1 S1024x512.size (by sl_kernel_rfl) y
theorem e2vCoverLastAcc (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x512.Idx) :
    ∃ pc ∈ (e2vRunLast c i arg2 harg2 arg3 harg3 arg4 harg4 arg5 harg5 arg6 harg6 hc0 hc1 x0 x1 xs0 xs1).2.1, y ∈ pc.1.set :=
  View.cover_of_tiledL (e2vRunLast c i arg2 harg2 arg3 harg3 arg4 harg4 arg5 harg5 arg6 harg6 hc0 hc1 x0 x1 xs0 xs1).2.1 S1024x512.size (by sl_kernel_rfl) y
theorem e2vCoverLastCol (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) (y : S1024x1.Idx) :
    ∃ pc ∈ (e2vRunLast c i arg2 harg2 arg3 harg3 arg4 harg4 arg5 harg5 arg6 harg6 hc0 hc1 x0 x1 xs0 xs1).2.2.1, y ∈ pc.1.set :=
  View.cover_of_tiledL (e2vRunLast c i arg2 harg2 arg3 harg3 arg4 harg4 arg5 harg5 arg6 harg6 hc0 hc1 x0 x1 xs0 xs1).2.2.1 S1024x1.size (by sl_kernel_rfl) y
/-- What a last step leaves in the output's staging buffer and in the two scratch buffers. -/
def e2vOutLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x512 .f32 :=
  e2vVOut.read (Elt F) (e2vVOut.writes (Elt F) e2vVOut.junk (e2vRunLast c i arg2 harg2 arg3 harg3 arg4 harg4 arg5 harg5 arg6 harg6 hc0 hc1 x0 x1 xs0 xs1).1)
def e2vAccLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x512 .f32 :=
  e2vVAcc.read (Elt F) (e2vVAcc.writes (Elt F) e2vVAcc.junk (e2vRunLast c i arg2 harg2 arg3 harg3 arg4 harg4 arg5 harg5 arg6 harg6 hc0 hc1 x0 x1 xs0 xs1).2.1)
def e2vColLast (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i) (x0 : Vec F S1024x2048 .f32) (x1 : Vec F S512x8192 .bf16) (xs0 : Vec F S1024x512 .f32) (xs1 : Vec F S1024x1 .f32) : Vec F S1024x1 .f32 :=
  e2vVCol.read (Elt F) (e2vVCol.writes (Elt F) e2vVCol.junk (e2vRunLast c i arg2 harg2 arg3 harg3 arg4 harg4 arg5 harg5 arg6 harg6 hc0 hc1 x0 x1 xs0 xs1).2.2.1)

/-- The output window's contents where nothing consults them (a step that stores nothing into it: the window is idle
    there and not written back). -/
def e2vOutIdle : Vec F S1024x512 .f32 := e2vVOut.read (Elt F) e2vVOut.junk

/-! ## What the buffers hold after each point -/

/-- THE ACCUMULATION: the output's staging buffer, the running product and the running row sum after the body at
    position `n`. A first step (position ≡ 0 mod 4) starts afresh from the point's blocks; every other step continues
    from what the point before left in the two scratch buffers; a last step (≡ 3 mod 4) also stores the output tile. -/
def e2vAt (c : Dev nD) : (n : ℕ) → n < cfg2.N → Vec F S1024x512 .f32 × Vec F S1024x512 .f32 × Vec F S1024x1 .f32
  | 0, hn => (e2vOutIdle,
      e2vAccFirst c (grid2.coords ⟨0, hn⟩) (e2vM0 ⟨0, hn⟩) (e2vH0 ⟨0, hn⟩) (e2vM1 ⟨0, hn⟩) (e2vH1 ⟨0, hn⟩) (e2vM2 ⟨0, hn⟩) (e2vH2 ⟨0, hn⟩) e2vAcc (Memref.isWhole_whole _) e2vCol (Memref.isWhole_whole _) ((e2vFirst_iff ⟨0, hn⟩).mpr (Nat.zero_mod _)) (fun h => (fun h => by (try dsimp only at h); omega) ((e2vLast_iff ⟨0, hn⟩).mp h)) (e2vBlk V c 0 ⟨0, hn⟩) (e2vBlk V c 1 ⟨0, hn⟩),
      e2vColFirst c (grid2.coords ⟨0, hn⟩) (e2vM0 ⟨0, hn⟩) (e2vH0 ⟨0, hn⟩) (e2vM1 ⟨0, hn⟩) (e2vH1 ⟨0, hn⟩) (e2vM2 ⟨0, hn⟩) (e2vH2 ⟨0, hn⟩) e2vAcc (Memref.isWhole_whole _) e2vCol (Memref.isWhole_whole _) ((e2vFirst_iff ⟨0, hn⟩).mpr (Nat.zero_mod _)) (fun h => (fun h => by (try dsimp only at h); omega) ((e2vLast_iff ⟨0, hn⟩).mp h)) (e2vBlk V c 0 ⟨0, hn⟩) (e2vBlk V c 1 ⟨0, hn⟩))
  | n + 1, hn =>
    if h0 : (n + 1) % 4 = 0 then
      (e2vOutIdle,
        e2vAccFirst c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) ((e2vFirst_iff ⟨n + 1, hn⟩).mpr h0) (fun h => (fun h => by (try dsimp only at h); omega) ((e2vLast_iff ⟨n + 1, hn⟩).mp h)) (e2vBlk V c 0 ⟨n + 1, hn⟩) (e2vBlk V c 1 ⟨n + 1, hn⟩),
        e2vColFirst c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) ((e2vFirst_iff ⟨n + 1, hn⟩).mpr h0) (fun h => (fun h => by (try dsimp only at h); omega) ((e2vLast_iff ⟨n + 1, hn⟩).mp h)) (e2vBlk V c 0 ⟨n + 1, hn⟩) (e2vBlk V c 1 ⟨n + 1, hn⟩))
    else if h1 : (n + 1) % 4 = 3 then
      (e2vOutLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2,
        e2vAccLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2,
        e2vColLast c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) ((e2vLast_iff ⟨n + 1, hn⟩).mpr h1) (e2vBlk V c 0 ⟨n + 1, hn⟩) (e2vBlk V c 1 ⟨n + 1, hn⟩) (e2vAt c n (Nat.lt_of_succ_lt hn)).2.1 (e2vAt c n (Nat.lt_of_succ_lt hn)).2.2)
    else
      (e2vOutIdle,
        e2vAccMid c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) (fun h => h1 ((e2vLast_iff ⟨n + 1, hn⟩).mp h)) (e2vBlk V c 0 ⟨n + 1, hn⟩) (e2vBlk V c 1 ⟨n + 1, hn⟩) (e2vAt c n (Nat.lt_of_succ_lt hn)).2.1 (e2vAt c n (Nat.lt_of_succ_lt hn)).2.2,
        e2vColMid c (grid2.coords ⟨n + 1, hn⟩) (e2vM0 ⟨n + 1, hn⟩) (e2vH0 ⟨n + 1, hn⟩) (e2vM1 ⟨n + 1, hn⟩) (e2vH1 ⟨n + 1, hn⟩) (e2vM2 ⟨n + 1, hn⟩) (e2vH2 ⟨n + 1, hn⟩) e2vAcc (Memref.isWhole_whole _) e2vCol (Memref.isWhole_whole _) (fun h => h0 ((e2vFirst_iff ⟨n + 1, hn⟩).mp h)) (fun h => h1 ((e2vLast_iff ⟨n + 1, hn⟩).mp h)) (e2vBlk V c 0 ⟨n + 1, hn⟩) (e2vBlk V c 1 ⟨n + 1, hn⟩) (e2vAt c n (Nat.lt_of_succ_lt hn)).2.1 (e2vAt c n (Nat.lt_of_succ_lt hn)).2.2)

/-- The accumulation at a first step. -/
theorem e2vAt_first (c : Dev nD) (t : Fin cfg2.N) (h0 : t.val % 4 = 0) (h1 : ¬t.val % 4 = 3) :
    e2vAt V c t.val t.isLt = (e2vOutIdle,
      e2vAccFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t),
      e2vColFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t)) := by
  obtain ⟨n, hn⟩ := t
  cases n with
  | zero => exact rfl
  | succ n => exact (dif_pos h0).trans rfl

/-- The accumulation at a middle step: over what the point before left. -/
theorem e2vAt_mid (c : Dev nD) (t : Fin cfg2.N) (h0 : ¬t.val % 4 = 0) (h1 : ¬t.val % 4 = 3) :
    e2vAt V c t.val t.isLt = (e2vOutIdle,
      e2vAccMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vColMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The accumulation at a last step: over what the point before left, the output tile stored. -/
theorem e2vAt_last (c : Dev nD) (t : Fin cfg2.N) (h0 : ¬t.val % 4 = 0) (h1 : t.val % 4 = 3) :
    e2vAt V c t.val t.isLt = (e2vOutLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vAccLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2,
      e2vColLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) (e2vAt V c (t.val - 1) (Nat.lt_of_le_of_lt (Nat.sub_le _ _) t.isLt)).2.1 (e2vAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

end Cert.Kernel.Gen

end
-- ==== Proof.E2vBodyBits.lean ====
/-
  The edge-to-vertex kernel's invariant, proof data and body obligation. Between grid points the two scratch buffers
  hold what the recursion of the accumulation says (before the very first point: anything), every other scoped buffer
  that is no staging buffer of this call holds anything; at a generic point the body's run for the step's kind applies,
  and what it stored, read back, is the recursion's next value.
-/
import proofs.«154376_j40303973106024_2_alg».proof.Proof.E2vDataBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-! ## The scoped buffers beside the two scratch buffers -/

/-- Every scoped buffer of the core that is neither a staging buffer of this call nor one of its two scratch buffers,
    each whole at some contents. -/
def e2vOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers that are no staging buffer of this call: the two scratch buffers at anything beside the others. -/
theorem e2vScoped_split (c : Dev nD) :
    (Pipeline.scopedRest (Ix := Unit) (Name := ℕ) (U := UR sig nD τ) (Lvl := ℕ) (Val := Elt F) spec2 c : sProp 𝕄)
      ⊢ iprop((∃ d, owns (c : Thread nD τ) e2vAcc fullShare d) ∗ (∃ d, owns (c : Thread nD τ) e2vCol fullShare d) ∗ e2vOthers c) := by
  rw [scopedRest2_eq]; unfold e2vOthers; simp only [e2vAcc, e2vCol, owns_whole]
  iintro ⟨H1, H2, H3, H4, H5, H6, H7, H8, H9, H10, H11, H12, H13, HS0, HS1⟩
  isplitl [HS0]; · iexact HS0
  isplitl [HS1]; · iexact HS1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem e2vScoped_join (c : Dev nD) :
    iprop((∃ d, owns (c : Thread nD τ) e2vAcc fullShare d) ∗ (∃ d, owns (c : Thread nD τ) e2vCol fullShare d) ∗ e2vOthers c)
      ⊢ (Pipeline.scopedRest (Ix := Unit) (Name := ℕ) (U := UR sig nD τ) (Lvl := ℕ) (Val := Elt F) spec2 c : sProp 𝕄) := by
  rw [scopedRest2_eq]; unfold e2vOthers; simp only [e2vAcc, e2vCol, owns_whole]
  iintro ⟨HS0, HS1, H1, H2, H3, H4, H5, H6, H7, H8, H9, H10, H11, H12, H13⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  iexact HS1

/-! ## The invariant between points -/

/-- Before position `n`: at the very first point the scoped buffers as the launch hands them; afterwards the two scratch
    buffers at what the point before left, the others at anything. -/
def e2vPhi (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) e2vAcc fullShare (e2vAt V c n hn).2.1 ∗ owns (c : Thread nD τ) e2vCol fullShare (e2vAt V c n hn).2.2 ∗ e2vOthers c)

theorem e2vPhi_succ (c : Dev nD) (n : ℕ) (hn : n < cfg2.N) :
    e2vPhi V c (n + 1) hn = iprop(owns (c : Thread nD τ) e2vAcc fullShare (e2vAt V c n hn).2.1 ∗ owns (c : Thread nD τ) e2vCol fullShare (e2vAt V c n hn).2.2 ∗ e2vOthers c) := rfl

theorem e2vPhi_pos (c : Dev nD) (n : ℕ) (h : n ≤ cfg2.N) (hz : n ≠ 0) :
    e2vPhi V c n h = iprop(owns (c : Thread nD τ) e2vAcc fullShare (e2vAt V c (n - 1) (by omega)).2.1 ∗ owns (c : Thread nD τ) e2vCol fullShare (e2vAt V c (n - 1) (by omega)).2.2 ∗ e2vOthers c) := by
  cases n with
  | zero => exact absurd rfl hz
  | succ n => rfl

/-- At any position the invariant gives the two scratch buffers at some contents beside the others. -/
theorem e2vPhi_forget (c : Dev nD) (n : ℕ) (h : n ≤ cfg2.N) :
    e2vPhi V c n h ⊢ iprop((∃ d, owns (c : Thread nD τ) e2vAcc fullShare d) ∗ (∃ d, owns (c : Thread nD τ) e2vCol fullShare d) ∗ e2vOthers c) := by
  cases n with
  | zero => exact e2vScoped_split c
  | succ n =>
    rw [e2vPhi_succ]
    iintro ⟨HS0, HS1, Hr⟩
    isplitl [HS0]; · iexists _; iexact HS0
    isplitl [HS1]; · iexists _; iexact HS1
    iexact Hr

/-! ## The proof data -/

/-- The proof data on core `c`: the arrays as the region finds them; after the body each input's buffer at its block
    and the output's at the accumulation's first component; the invariant above; nothing owed; full shares. -/
def e2vDat (c : Dev nD) : Dat τ (Elt F) Unit ℕ (UR sig nD τ) ℕ cfg2 c where
  A w := V c (Pipeline.arrRef spec2 w)
  after w t := match w with
    | ⟨0, _⟩ => e2vBlk V c 0 t
    | ⟨1, _⟩ => e2vBlk V c 1 t
    | ⟨2, _⟩ => (e2vAt V c t.val t.isLt).1
  Φ t := e2vPhi V c t.val (Nat.le_of_lt_succ t.isLt)
  q _ := fullShare
  owed _ := 0

theorem e2vDat_A (c : Dev nD) (w : Fin cfg2.W) : (e2vDat V c).A w = V c (Pipeline.arrRef spec2 w) := by
  dsimp only [e2vDat]

theorem e2vPhi_castSucc (c : Dev nD) (t : Fin cfg2.N) :
    (e2vDat V c).Φ t.castSucc = e2vPhi V c t.val (Nat.le_of_lt t.isLt) := by
  dsimp only [e2vDat]; simp only [Fin.coe_castSucc]

theorem e2vAfter_0 (c : Dev nD) (t : Fin cfg2.N) : (e2vDat V c).after 0 t = e2vBlk V c 0 t := by dsimp only [e2vDat]
theorem e2vAfter_1 (c : Dev nD) (t : Fin cfg2.N) : (e2vDat V c).after 1 t = e2vBlk V c 1 t := by dsimp only [e2vDat]
theorem e2vAfter_2 (c : Dev nD) (t : Fin cfg2.N) : (e2vDat V c).after 2 t = (e2vAt V c t.val t.isLt).1 := by dsimp only [e2vDat]

theorem e2vBeforeDat_0 (c : Dev nD) (t : Fin cfg2.N) (d) : (e2vDat V c).before 0 t d = e2vBlk V c 0 t :=
  e2vBefore_0 V (e2vDat V c) (e2vDat_A V c 0) (e2vAfter_0 V c) t d
theorem e2vBeforeDat_1 (c : Dev nD) (t : Fin cfg2.N) (d) : (e2vDat V c).before 1 t d = e2vBlk V c 1 t :=
  e2vBefore_1 V (e2vDat V c) (e2vDat_A V c 1) (e2vAfter_1 V c) t d

/-! ## The body obligation, at a generic point -/

/-- What the body is called with at point `t`, -/
def e2vPre (c : Dev nD) (t : Fin cfg2.N) : sProp 𝕄 :=
  iprop((e2vDat V c).Φ t.castSucc ∗ (e2vDat V c).owesAt () t.castSucc
    ∗ (∃ d, owns (c : Thread nD τ) (e2vM0 t) fullShare ((e2vDat V c).before 0 t d))
    ∗ (∃ d, owns (c : Thread nD τ) (e2vM1 t) fullShare ((e2vDat V c).before 1 t d))
    ∗ (∃ d, owns (c : Thread nD τ) (e2vM2 t) fullShare ((e2vDat V c).before 2 t d)))

/-- and what it returns. -/
def e2vPost (c : Dev nD) (t : Fin cfg2.N) : sProp 𝕄 :=
  iprop((e2vDat V c).Φ t.succ ∗ (e2vDat V c).owesAt () t.succ
    ∗ (e2vDat V c).leavesExact 0 t
    ∗ (e2vDat V c).leavesExact 1 t
    ∗ (e2vDat V c).leavesExact 2 t)

set_option maxHeartbeats 4800000 in
/-- The body at any point: the inputs' buffers hold their blocks; the step's kind is decided by the position modulo 4;
    the invariant hands the body the two scratch buffers at what the point before left (at anything where the step
    clears them) and takes them back at this point's contents. -/
theorem e2vSound (c : Dev nD) (t : Fin cfg2.N) :
    e2vPre V c t ⊢ wp frame (wpE (defs₀ (F := F)) Variants.none c none) Set.univ (bodyAt2 t) (fun _ => e2vPost V c t) := by
  unfold e2vPre e2vPost bodyAt2
  simp only [e2vBeforeDat_0, e2vBeforeDat_1]
  rw [show (e2vDat V c).owesAt () t.succ = (e2vDat V c).owesAt () t.castSucc from rfl]
  rw [show (e2vDat V c).Φ t.succ = e2vPhi V c (t.val + 1) t.isLt from rfl, e2vPhi_succ]
  rw [show (e2vDat V c).leavesExact 0 t = owns (c : Thread nD τ) (e2vM0 t) fullShare ((e2vDat V c).after 0 t) from by
    unfold Dat.leavesExact; rw [e2vLive_0 t], e2vAfter_0]
  rw [show (e2vDat V c).leavesExact 1 t = owns (c : Thread nD τ) (e2vM1 t) fullShare ((e2vDat V c).after 1 t) from by
    unfold Dat.leavesExact; rw [e2vLive_1 t], e2vAfter_1]
  have hN : t.val < 64 := lt_of_lt_of_eq t.isLt (show cfg2.N = 64 from N_2)
  by_cases h0 : t.val % 4 = 0
  · have h1 : ¬t.val % 4 = 3 := by omega
    rw [Dat.leavesExact_idle (e2vDat V c) 2 t (e2vIdle_2 t (fun h => h1 ((e2vLast_iff t).mp h))) (e2vNoFlush_2 t (fun h => h1 ((e2vLast_iff t).mp h)))]
    rw [e2vAt_first V c t h0 h1]
    unfold e2vAccFirst e2vColFirst; (try dsimp only)
    rw [e2vPhi_castSucc V c t]
    iintro ⟨HΦ, Ho, ⟨%d0, H0⟩, ⟨%d1, H1⟩, ⟨%d2, H2⟩⟩
    ihave HΦ' := (e2vPhi_forget V c t.val (Nat.le_of_lt t.isLt)) $$ HΦ
    icases HΦ' with ⟨HS0, HS1, Hr⟩
    iapply ((e2vRunFirst c (grid2.coords t) (e2vM0 t) (e2vH0 t) (e2vM1 t) (e2vH1 t) (e2vM2 t) (e2vH2 t) e2vAcc (Memref.isWhole_whole _) e2vCol (Memref.isWhole_whole _) ((e2vFirst_iff t).mpr h0) (fun h => h1 ((e2vLast_iff t).mp h)) (e2vBlk V c 0 t) (e2vBlk V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (e2vCoverFirstAcc c _ _ _ _ _ _ _ _ _ _ _ _ _ _ _)
      isplitl [HS1]
      · unfold owns; iexists _; isplitr
        swap; · iexact HS1
        ipureintro; exact View.read_writes_of_cover _ _ _ _ _ (e2vCoverFirstCol c _ _ _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 4 = 3
    · rw [show (e2vDat V c).leavesExact 2 t = owns (c : Thread nD τ) (e2vM2 t) fullShare ((e2vDat V c).after 2 t) from by
        unfold Dat.leavesExact; rw [e2vLive_2 t ((e2vLast_iff t).mpr h1)], e2vAfter_2]
      rw [e2vAt_last V c t h0 h1]
      unfold e2vOutLast e2vAccLast e2vColLast; (try dsimp only)
      rw [e2vPhi_castSucc V c t, e2vPhi_pos V c _ _ hz]
      iintro ⟨⟨HS0, HS1, Hr⟩, Ho, ⟨%d0, H0⟩, ⟨%d1, H1⟩, ⟨%d2, H2⟩⟩
      iapply ((e2vRunLast c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) ((e2vLast_iff t).mpr h1) (e2vBlk V c 0 t) (e2vBlk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (e2vCoverLastAcc c _ _ _ _ _ _ _ _ _ _ _ _ _ _ _ _ _)
        isplitl [HS1]
        · unfold owns; iexists _; isplitr
          swap; · iexact HS1
          ipureintro; exact View.read_writes_of_cover _ _ _ _ _ (e2vCoverLastCol c _ _ _ _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (e2vCoverLastOut c _ _ _ _ _ _ _ _ _ _ _ _ _ _ _ _ _)
    · rw [Dat.leavesExact_idle (e2vDat V c) 2 t (e2vIdle_2 t (fun h => h1 ((e2vLast_iff t).mp h))) (e2vNoFlush_2 t (fun h => h1 ((e2vLast_iff t).mp h)))]
      rw [e2vAt_mid V c t h0 h1]
      unfold e2vAccMid e2vColMid; (try dsimp only)
      rw [e2vPhi_castSucc V c t, e2vPhi_pos V c _ _ hz]
      iintro ⟨⟨HS0, HS1, Hr⟩, Ho, ⟨%d0, H0⟩, ⟨%d1, H1⟩, ⟨%d2, H2⟩⟩
      iapply ((e2vRunMid c (grid2.coords t) (e2vM0 t) (e2vH0 t) (e2vM1 t) (e2vH1 t) (e2vM2 t) (e2vH2 t) e2vAcc (Memref.isWhole_whole _) e2vCol (Memref.isWhole_whole _) (fun h => h0 ((e2vFirst_iff t).mp h)) (fun h => h1 ((e2vLast_iff t).mp h)) (e2vBlk V c 0 t) (e2vBlk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (e2vCoverMidAcc c _ _ _ _ _ _ _ _ _ _ _ _ _ _ _ _ _)
        isplitl [HS1]
        · unfold owns; iexists _; isplitr
          swap; · iexact HS1
          ipureintro; exact View.read_writes_of_cover _ _ _ _ _ (e2vCoverMidCol c _ _ _ _ _ _ _ _ _ _ _ _ _ _ _ _ _)
        iexact Hr
      isplitl [Ho]; · iexact Ho
      isplitl [H0]; · iexact H0
      isplitl [H1]; · iexact H1
      iexists _; iexact H2

/-- The library's body obligation, at every point. -/
theorem e2vBody (c : Dev nD) : BodyObligation (e2vDat (F := F) V c) (defs₀ (F := F)) Variants.none () Set.univ := fun t => by
  rw [bigSep_W2, bigSep_W2]
  exact e2vSound V c t

/-- What the launch hands the region is the invariant before the first point. -/
theorem e2vPhi_in (c : Dev nD) :
    (Pipeline.scopedRest (Ix := Unit) (Name := ℕ) (U := UR sig nD τ) (Lvl := ℕ) (Val := Elt F) spec2 c : sProp 𝕄) ⊢ (e2vDat V c).Φ 0 :=
  Idealize.SL.BI.Entails.refl _

/-- After the last point the invariant gives the scoped buffers back, the scratch buffers' contents forgotten. -/
theorem e2vPhi_out (c : Dev nD) :
    (e2vDat V c).Φ (Fin.last cfg2.N) ⊢ (Pipeline.scopedRest (Ix := Unit) (Name := ℕ) (U := UR sig nD τ) (Lvl := ℕ) (Val := Elt F) spec2 c : sProp 𝕄) :=
  (show e2vPhi V c (Fin.last cfg2.N).val (Nat.le_of_lt_succ (Fin.last cfg2.N).isLt) ⊢ _ from e2vPhi_forget V c _ _).trans (e2vScoped_join c)

end Cert.Kernel.Gen

end
-- ==== Proof.E2vRegionBits.lean ====
/-
  The edge-to-vertex kernel's region as the run of @main takes it: its proof data over the region-entry contents, the
  body obligation, and the invariant at the two ends made of, and giving back, the scoped buffers no window stages.
-/
import proofs.«154376_j40303973106024_2_alg».proof.Proof.E2vBodyBits
import proofs.«154376_j40303973106024_2_alg».proof.Proof.RegionProofBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's unscoped buffers when the region is entered, per core: a parameter.
variable (V : (c : Dev nD) → (b : Ref sig .tc) → Buf (Elt F) ((c : Thread nD τ).loc b))

/-- The invariant at the first point is the scoped buffers no window stages, whatever rides beside them. -/
theorem e2vIn (c : Dev nD) (P : sProp 𝕄) :
    iprop(emp ∗ P ∗ Pipeline.scopedRest (Ix := Unit) (Name := ℕ) (U := UR sig nD τ) (Lvl := ℕ) (Val := Elt F) spec2 c) ⊢ (e2vDat V c).Φ 0 := by
  iintro ⟨-, -, Hr⟩
  iapply (e2vPhi_in V c)
  iexact Hr

/-- The invariant at the last point gives those buffers back; the kernel has no semaphore of its own. -/
theorem e2vOut (c : Dev nD) :
    (e2vDat V c).Φ (Fin.last cfg2.N) ⊢ iprop(emp
      ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) spec2 c) := by
  rw [Pipeline.ownSems0_none]
  iintro H
  isplitr; · iempintro
  isplitr; · iempintro
  iapply (e2vPhi_out V c)
  iexact H

/-- The region's part of the run. -/
def e2vRegion : Cert.Kernel.Run.RegionProof F 2 where
  D := fun V c => e2vDat V c
  hA := fun V c w => e2vDat_A V c w
  hq := fun _ _ _ => rfl
  howed := fun _ _ _ => rfl
  hrec := fun _ _ _ => rfl
  hbody := fun V c => e2vBody V c
  hin := fun V c => e2vIn V c _
  hout := fun V c => e2vOut V c

end Cert.Kernel.Gen

end
-- ==== Proof.MainRunAtBits.lean ====
/-
  The run of @main at the three kernels' proof data: the linear kernel's, the vertex-to-edge kernel's and the
  edge-to-vertex kernel's records put into the assembly.  The result buffer ends holding `result m c`, the last
  region's output array after its last point; every argument ends as launched.
-/
import proofs.«154376_j40303973106024_2_alg».proof.Proof.MainRunBits
import proofs.«154376_j40303973106024_2_alg».proof.Proof.Region0ProofBits
import proofs.«154376_j40303973106024_2_alg».proof.Proof.V2eRegionBits
import proofs.«154376_j40303973106024_2_alg».proof.Proof.E2vRegionBits

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first region leaves in `main_v1`, -/
abbrev res0 (c : Dev nD) : Buf (Elt F) ((c : Thread nD τ).loc main_v1) := out0 m region0 c
/-- the second in `main_v2`, -/
abbrev res1 (c : Dev nD) : Buf (Elt F) ((c : Thread nD τ).loc main_v2) := out1 m region0 v2eRegion c
/-- and the third in `main_v3`: the program's result. -/
abbrev result (c : Dev nD) : Buf (Elt F) ((c : Thread nD τ).loc main_v3) := out2 m region0 v2eRegion e2vRegion c

/-- From any memory with zero counters every weakly fair execution of @main terminates; the result buffer ends at
    `result m c` and every argument as launched. -/
theorem run : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ region0 v2eRegion e2vRegion

/-- The frame: @main runs and leaves every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Run

end
-- ==== Proof.RunValues.lean ====
/-
  What the later regions find in the buffers they read.

  The valuations between @main's items, read at the buffers the second and third regions' windows are laid over: each
  region's output buffer holds, from that region on, what its write-backs left there, and the second argument, which
  no item writes, what the host operation's valuation says of it.  Each fact is stated of the valuation and of its
  reading at the TensorCore's references, the form a region's proof data takes it in.
-/
import proofs.«154376_j40303973106024_2_alg».proof.Proof.MainRun

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)
variable (P0 : RegionProof F 0) (P1 : RegionProof F 1) (P2 : RegionProof F 2)

/-! ## After region 0 -/

/-- Region 0 leaves its result in `main_v1` -/
theorem W2_main_v1 (c : Dev nD) : W2 m P0 c main_v1 = out0 m P0 c :=
  Function.update_self (Proc.devRef .tc main_v1 : DevRef τ sig) (out0 m P0 c) (V1 m c)
/-- and changes no other buffer. -/
theorem W2_of (c : Dev nD) (r : Ref sig .tc) (h : r ≠ main_v1) : W2 m P0 c r = V1 m c r :=
  Function.update_of_ne (StableHlo.devRef_ne_of_ne h) _ _
theorem W2_main_arg1 (c : Dev nD) : W2 m P0 c main_arg1 = V1 m c main_arg1 := W2_of m P0 c main_arg1 (by decide)

theorem valsOf_W2_main_v1 (c : Dev nD) : valsOf (W2 m P0) c main_v1 = out0 m P0 c := W2_main_v1 m P0 c
theorem valsOf_W2_main_arg1 (c : Dev nD) : valsOf (W2 m P0) c main_arg1 = V1 m c main_arg1 := W2_main_arg1 m P0 c

/-! ## After region 1 -/

/-- Region 1 leaves its result in `main_v2` -/
theorem W3_main_v2 (c : Dev nD) : W3 m P0 P1 c main_v2 = out1 m P0 P1 c :=
  Function.update_self (Proc.devRef .tc main_v2 : DevRef τ sig) (out1 m P0 P1 c) (W2 m P0 c)
/-- and changes no other buffer. -/
theorem W3_of (c : Dev nD) (r : Ref sig .tc) (h : r ≠ main_v2) : W3 m P0 P1 c r = W2 m P0 c r :=
  Function.update_of_ne (StableHlo.devRef_ne_of_ne h) _ _
theorem W3_main_arg1 (c : Dev nD) : W3 m P0 P1 c main_arg1 = V1 m c main_arg1 :=
  (W3_of m P0 P1 c main_arg1 (by decide)).trans (W2_main_arg1 m P0 c)

theorem valsOf_W3_main_v2 (c : Dev nD) : valsOf (W3 m P0 P1) c main_v2 = out1 m P0 P1 c := W3_main_v2 m P0 P1 c
theorem valsOf_W3_main_arg1 (c : Dev nD) : valsOf (W3 m P0 P1) c main_arg1 = V1 m c main_arg1 := W3_main_arg1 m P0 P1 c

/-! ## The three results, each over what its region read -/

/-- Region 0's result: its output array after the last point, the region entered from the host operation's valuation. -/
theorem out0_eq (c : Dev nD) : out0 m P0 c = (P0.D (valsOf (V1 m)) c).arrAt 3 cfg0.N := rfl
/-- Region 1's result, the region entered from the valuation region 0 left. -/
theorem out1_eq (c : Dev nD) : out1 m P0 P1 c = (P1.D (valsOf (W2 m P0)) c).arrAt 2 cfg1.N := rfl
/-- Region 2's result, the region entered from the valuation region 1 left. -/
theorem out2_eq (c : Dev nD) : out2 m P0 P1 P2 c = (P2.D (valsOf (W3 m P0 P1)) c).arrAt 2 cfg2.N := rfl

end Cert.KernelIdeal.Run

end
-- ==== Proof.Region0Value.lean ====
/-
  The linear kernel's output array after its region, as one function of the three arrays the region reads. Point t of
  the grid writes back block t of the output (rows 2048 t to 2048 t + 2047), and what it writes is the body's payload
  of block t of X, of the whole weight matrix and of the whole bias row; the 8 blocks tile the 16384 rows. So the
  array ends holding, at row r and column q, the payload of the block of X that holds row r, read at row r mod 2048
  and column q.
-/
import proofs.«154376_j40303973106024_2_alg».proof.Proof.Gen.KernelIdeal.Launch
import proofs.«154376_j40303973106024_2_alg».proof.Proof.Gen.KernelIdeal.Skeleton
import proofs.«154376_j40303973106024_2_alg».proof.Proof.Gen.KernelIdeal.Points
import proofs.«154376_j40303973106024_2_alg».proof.Proof.Region0Data
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the contents the region finds in each core's arrays
variable (V : (c : Dev nD) → (b : Ref sig .tc) → Buf (Elt F) ((c : Thread nD τ).loc b))

/-! ## The windows' block indices at a point -/

/-- The printed index maps, decided over the grid: the X block and the output block at point `t` are block `t` along
    the rows; the weight matrix and the bias row are one block each. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks of the arrays -/

/-- The block of 2048 rows of `x` numbered `q`. -/
def rows0 (x : Vec F S16384x512 .f32) (q : Fin 8) : Vec F S2048x512 .f32 :=
  fun j => x (ix2 (n0 := 16384) (n1 := 512)
    ⟨q.val * 2048 + (j 0).val, by have h : (j 0).val < 2048 := (j 0).isLt; have := q.isLt; omega⟩ (j 1))

/-- What the output array ends holding: at row `r` and column `q` the body's payload of the block of `x` holding row
    `r`, of the weight matrix and of the bias row, read at row `r mod 2048` and column `q`. -/
def G0 (x : Vec F S16384x512 .f32) (w : Vec F S512x512 .f32) (b : Vec F S1x512 .f32) : Vec F S16384x512 .bf16 :=
  fun i => k0_pay1 (rows0 x ⟨(i 0).val / 2048, by have h : (i 0).val < 16384 := (i 0).isLt; omega⟩) w b
    (ix2 (n0 := 2048) (n1 := 512) ⟨(i 0).val % 2048, Nat.mod_lt _ (by decide)⟩ (i 1))

/-- Window 0's block at point `t` is block `t` of the rows of X. -/
theorem iblk0_0_eq (c : Dev nD) (t : Fin cfg0.N) : iblk0 V c 0 t = rows0 (V c main_arg0) (Fin.cast N_0 t) := by
  obtain ⟨e0, e1, -⟩ := idx_facts0 t
  funext j
  unfold iblk0 rows0
  rw [View.read_apply]
  show V c main_arg0 (((cfg0.win 0).blk t).view.emb j) = _
  refine congrArg _ ?_
  funext a; apply Fin.ext
  match a with
  | ⟨0, _⟩ => show win0_0.index t (0 : Fin 2) * 2048 + 1 * (j 0).val = t.val * 2048 + (j 0).val; rw [e0]; omega
  | ⟨1, _⟩ => show win0_0.index t (1 : Fin 2) * 512 + 1 * (j 1).val = (j 1).val; rw [e1]; omega

/-- Window 1's block at every point is the whole weight matrix. -/
theorem iblk0_1_eq (c : Dev nD) (t : Fin cfg0.N) : iblk0 V c 1 t = V c main_arg2 := by
  obtain ⟨-, -, e0, e1, -⟩ := idx_facts0 t
  funext j
  unfold iblk0
  rw [View.read_apply]
  show V c main_arg2 (((cfg0.win 1).blk t).view.emb j) = _
  refine congrArg _ ?_
  funext a; apply Fin.ext
  match a with
  | ⟨0, _⟩ => show win0_1.index t (0 : Fin 2) * 512 + 1 * (j 0).val = (j 0).val; rw [e0]; omega
  | ⟨1, _⟩ => show win0_1.index t (1 : Fin 2) * 512 + 1 * (j 1).val = (j 1).val; rw [e1]; omega

/-- Window 2's block at every point is the whole bias row. -/
theorem iblk0_2_eq (c : Dev nD) (t : Fin cfg0.N) : iblk0 V c 2 t = V c main_v0 := by
  obtain ⟨-, -, -, -, e0, e1, -⟩ := idx_facts0 t
  funext j
  unfold iblk0
  rw [View.read_apply]
  show V c main_v0 (((cfg0.win 2).blk t).view.emb j) = _
  refine congrArg _ ?_
  funext a; apply Fin.ext
  match a with
  | ⟨0, _⟩ => show win0_2.index t (0 : Fin 2) * 1 + 1 * (j 0).val = (j 0).val; rw [e0]; omega
  | ⟨1, _⟩ => show win0_2.index t (1 : Fin 2) * 512 + 1 * (j 1).val = (j 1).val; rw [e1]; omega

/-! ## What a point writes back -/

/-- The payload depends on the block of rows and on the index only through their values. -/
theorem pay0_congr (x : Vec F S16384x512 .f32) (w : Vec F S512x512 .f32) (b : Vec F S1x512 .f32) {q q' : Fin 8} {k k' : S2048x512.Idx}
    (hq : q = q') (hk : k = k') : k0_pay1 (rows0 x q) w b k = k0_pay1 (rows0 x q') w b k' := by
  subst hq hk; rfl

/-- What point `t` writes back is block `t` of `G0` of the three arrays as the region finds them. -/
theorem flushed0_3_eq (c : Dev nD) (t : Fin cfg0.N) :
    (dats0 V c).flushed 3 t = ((cfg0.win 3).blk t).view.read (Elt F) (G0 (V c main_arg0) (V c main_arg2) (V c main_v0)) := by
  show (cfg0.win 3).cut (grid0.coords t) ((dats0 V c).after 3 t) = _
  rw [after0_3, iblk0_0_eq, iblk0_1_eq, iblk0_2_eq]
  obtain ⟨-, -, -, -, -, -, e0, e1⟩ := idx_facts0 t
  funext j
  rw [View.read_apply]
  show k0_pay1 (rows0 (V c main_arg0) (Fin.cast N_0 t)) (V c main_arg2) (V c main_v0) j
    = G0 (V c main_arg0) (V c main_arg2) (V c main_v0) (((cfg0.win 3).blk t).view.emb j)
  have h0 : ((((cfg0.win 3).blk t).view.emb j) 0).val = t.val * 2048 + (j 0).val := by
    show win0_3.index t (0 : Fin 2) * 2048 + 1 * (j 0).val = _; rw [e0]; omega
  have h1 : ((((cfg0.win 3).blk t).view.emb j) 1).val = (j 1).val := by
    show win0_3.index t (1 : Fin 2) * 512 + 1 * (j 1).val = _; rw [e1]; omega
  generalize ((cfg0.win 3).blk t).view.emb j = y at h0 h1 ⊢
  have hj0 : (j 0).val < 2048 := (j 0).isLt
  unfold G0
  refine pay0_congr _ _ _ (Fin.ext ?_) (funext fun a => Fin.ext ?_)
  · show t.val = (y 0).val / 2048
    rw [h0]; omega
  · match a with
    | ⟨0, _⟩ => show (j 0).val = (y 0).val % 2048; rw [h0]; omega
    | ⟨1, _⟩ => show (j 1).val = (y 1).val; exact h1.symm

/-! ## The blocks tile the array -/

/-- An index of the array is in point `t`'s block iff each coordinate is in the block's range on its axis. -/
theorem mem_blk0_3 (t : Fin cfg0.N) (i : S16384x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- Every row `r` of the array is in the block of point `r / 2048`, which writes it back. -/
theorem cover0_3 (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  obtain ⟨t, ht⟩ : ∃ t : Fin cfg0.N, t.val = (i 0).val / 2048 := ⟨Fin.cast N_0.symm ⟨(i 0).val / 2048, by omega⟩, rfl⟩
  obtain ⟨-, -, -, -, -, -, e0, e1⟩ := idx_facts0 t
  refine ⟨t, flush0_3 t, ?_⟩
  rw [mem_blk0_3]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 512 ≤ (i 1).val ∧ (i 1).val < win0_3.index t (1 : Fin 2) * 512 + 512
    rw [e1]; omega

/-! ## The array after the region -/

/-- The output array after the region: `G0` of the three arrays as the region finds them, at every index. -/
theorem arrAt0_3 (c : Dev nD) :
    (dats0 V c).arrAt 3 cfg0.N = G0 (V c main_arg0) (V c main_arg2) (V c main_v0) :=
  (dats0 V c).arrAt_eq_of_cover 3 _ (fun t _ => flushed0_3_eq V c t) cover0_3

/-- The input arrays after the region are as the region found them. -/
theorem arrAt0_0 (c : Dev nD) (n : Nat) : (dats0 V c).arrAt 0 n = V c main_arg0 := ((dats0 V c).arrAt_in 0 rfl n).trans (A_eq0 V c 0)
theorem arrAt0_1 (c : Dev nD) (n : Nat) : (dats0 V c).arrAt 1 n = V c main_arg2 := ((dats0 V c).arrAt_in 1 rfl n).trans (A_eq0 V c 1)
theorem arrAt0_2 (c : Dev nD) (n : Nat) : (dats0 V c).arrAt 2 n = V c main_v0 := ((dats0 V c).arrAt_in 2 rfl n).trans (A_eq0 V c 2)

end Cert.KernelIdeal.Gen

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«154376_j40303973106024_2_alg».proof.Proof.LibPlainDot
import proofs.«154376_j40303973106024_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LinearPayload.lean ====
/-
  The linear step's arithmetic, entry by entry.

  One step of the linear pass sees 2048 rows of the features, the whole weight matrix [512, 512] and the bias as a row
  [1, 512].  At the ideal values its result at (p, q) is (sum_k X[p, k] * W[q, k]) + b[q]: the product with the
  transposed weights (both operands contracted along their columns), plus the bias row repeated down the rows.
  Roundings to a shorter float format are the identity at the ideal values.
-/
import proofs.«154376_j40303973106024_2_alg».proof.Proof.Gen.KernelIdeal.Skeleton
import proofs.«154376_j40303973106024_2_alg».proof.Proof.LibZeroAccDots
import Idealize.ShloMosaic.Lib.ValueLayout
import Idealize.ShloMosaic.Lib.Pipeline.Value

noncomputable section

open scoped BigOperators

namespace Cert.KernelIdeal.LinearPayload

open Cert.KernelIdeal Cert.KernelIdeal.Gen Idealize.ShloMosaic Idealize.ShloMosaic.ValueIdx

/-- The mapped features of a block of rows. -/
theorem k0_pay1_apply (v0 : Vec Ideal S2048x512 .f32) (v2 : Vec Ideal S512x512 .f32) (v5 : Vec Ideal S1x512 .f32)
    (p : Fin 2048) (q : Fin 512) :
    k0_pay1 (F := Ideal) v0 v2 v5 (ix2 p q) = (∑ k : Fin 512, v0 (ix2 p k) * v2 (ix2 q k)) + v5 (ix2 (0 : Fin 1) q) := by
  unfold k0_pay1
  rw [shapeCast_self]
  show FloatOps.matmul dot_S2048x512_S512x512_S2048x512_1_1_0_0_n_n none _ _ (constant (F := Ideal) S2048x512 .f32 0x00000000#32) (ix2 p q)
      + broadcastTo S2048x512 v5 broadcasts_S1x512_S2048x512 (ix2 p q) = _
  rw [broadcastTo_1b_ab_apply]
  refine congrArg (· + v5 (ix2 (0 : Fin 1) q)) ?_
  exact Cert.ZeroAccDots.rows_rows dot_S2048x512_S512x512_S2048x512_1_1_0_0_n_n rfl rfl rfl rfl rfl rfl rfl rfl none _ _ p q

end Cert.KernelIdeal.LinearPayload

end
-- ==== Proof.Region0Ideal.lean ====
/-
  The linear kernel's output array at the ideal values, entry by entry: row r, column q holds
  (sum_k X[r, k] * W[q, k]) + b[q] — the product of X with the transposed weights plus the bias, the roundings to
  bf16 being the identity at the ideal values. The row r of the array is row r mod 2048 of the block of 2048 rows
  numbered r / 2048.
-/
import proofs.«154376_j40303973106024_2_alg».proof.Proof.Region0Value
import proofs.«154376_j40303973106024_2_alg».proof.Proof.LinearPayload

noncomputable section

open scoped BigOperators

namespace Cert.KernelIdeal.Gen

open Idealize.ShloMosaic Idealize.ShloMosaic.ValueIdx

/-- Row `r mod 2048` of the block of rows numbered `r / 2048` is row `r`. -/
theorem rows0_apply {F : FTy → Type} [FloatOps F] (x : Vec F S16384x512 .f32) (r : Fin 16384) (k : Fin 512)
    (h1 : r.val / 2048 < 8) (h2 : r.val % 2048 < 2048) :
    rows0 x ⟨r.val / 2048, h1⟩ (ix2 (n0 := 2048) (n1 := 512) ⟨r.val % 2048, h2⟩ k) = x (ix2 r k) := by
  unfold rows0
  refine congrArg x (funext fun a => Fin.ext ?_)
  match a with
  | ⟨0, _⟩ => show r.val / 2048 * 2048 + r.val % 2048 = r.val; omega
  | ⟨1, _⟩ => rfl

/-- The output array of the linear kernel at the ideal values, at row `r` and column `q`. -/
theorem G0_apply (x : Vec Ideal S16384x512 .f32) (w : Vec Ideal S512x512 .f32) (b : Vec Ideal S1x512 .f32)
    (r : Fin 16384) (q : Fin 512) :
    G0 (F := Ideal) x w b (ix2 r q) = (∑ k : Fin 512, x (ix2 r k) * w (ix2 q k)) + b (ix2 (0 : Fin 1) q) := by
  unfold G0
  show k0_pay1 (F := Ideal) (rows0 x ⟨r.val / 2048, _⟩) w b (ix2 (n0 := 2048) (n1 := 512) ⟨r.val % 2048, _⟩ q) = _
  rw [Cert.KernelIdeal.LinearPayload.k0_pay1_apply]
  refine congrArg (· + b (ix2 (0 : Fin 1) q)) (Finset.sum_congr rfl fun k _ => ?_)
  rw [rows0_apply]

end Cert.KernelIdeal.Gen

end
-- ==== Proof.V2ePieces.lean ====
/-
  The edge pass's steps, as arithmetic of what they load.

  A step of the edge pass stores whole buffers only, so what it leaves in a buffer is the value it stored there last,
  and a load that follows a whole-buffer store reads that store's value.  Read this way:
    * a first step clears the feature sums and the counts, then adds the step's terms to the cleared values;
    * a middle step adds the step's terms to what the step before left;
    * a last step does the same and stores, as the output tile, the updated feature sums times the guarded reciprocal
      of the updated counts.
  The step's terms are those of the incidence block and of the rows of the mapped features that the step's vertex
  block selects (a slice of 1024 rows of the resident feature array).  Nothing here depends on the float model.
-/
import proofs.«154376_j40303973106024_2_alg».proof.Proof.V2eData
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem v2eZeroOff : (![0, 0] : Fin 2 → Nat) = fun _ => 0 := funext fun a => by fin_cases a <;> rfl

/-- A first step leaves, as feature sums, the step's products added to the cleared sums. -/
theorem v2eAccFirst_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i)
    (x0 : Vec F S1024x1024 .f32) (x1 : Vec F S16384x512 .bf16) :
    v2eAccFirst c i arg2 harg2 arg3 harg3 arg4 harg4 arg5 harg5 arg6 harg6 hc0 hc1 x0 x1
      = k1_pay4 x0 (View.ld x1 (Rect.unit (s := S16384x512) (k1_off1 i) S1024x512.size (k1_off1_inb i))) k1_pay1 := by
  unfold v2eAccFirst
  rw [View.read_writes_eq_canon _ _ _ (v2eCoverFirstAcc c i arg2 harg2 arg3 harg3 arg4 harg4 arg5 harg5 arg6 harg6 hc0 hc1 x0 x1)]
  unfold v2eRunFirst
  dsimp only
  sl_unfold_words
  rw [View.canon_cons_unit_zero (S := S512x1024) v2eZeroOff, View.readCov_unit_zero (S := S512x1024) _ v2eZeroOff]
  simp only [View.readAt_eq_ld, harg2.read_unread, harg3.read_unread, View.ld_unit_zero (S := S1024x1024) v2eZeroOff]

/-- A first step leaves, as counts, the block's column sums added to the cleared counts. -/
theorem v2eColFirst_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : v2eFirst i) (hc1 : ¬v2eLast i)
    (x0 : Vec F S1024x1024 .f32) (x1 : Vec F S16384x512 .bf16) :
    v2eColFirst c i arg2 harg2 arg3 harg3 arg4 harg4 arg5 harg5 arg6 harg6 hc0 hc1 x0 x1
      = k1_pay3 x0 k1_pay2 := by
  unfold v2eColFirst
  rw [View.read_writes_eq_canon _ _ _ (v2eCoverFirstCol c i arg2 harg2 arg3 harg3 arg4 harg4 arg5 harg5 arg6 harg6 hc0 hc1 x0 x1)]
  unfold v2eRunFirst
  dsimp only
  sl_unfold_words
  rw [View.canon_cons_unit_zero (S := S1x1024) v2eZeroOff, View.readCov_unit_zero (S := S1x1024) _ v2eZeroOff]
  simp only [View.readAt_eq_ld, harg2.read_unread, View.ld_unit_zero (S := S1024x1024) v2eZeroOff]

/-- A middle step adds the step's products to the feature sums it found. -/
theorem v2eAccMid_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i)
    (x0 : Vec F S1024x1024 .f32) (x1 : Vec F S16384x512 .bf16) (xs0 : Vec F S512x1024 .f32) (xs1 : Vec F S1x1024 .f32) :
    v2eAccMid c i arg2 harg2 arg3 harg3 arg4 harg4 arg5 harg5 arg6 harg6 hc0 hc1 x0 x1 xs0 xs1
      = k1_pay4 x0 (View.ld x1 (Rect.unit (s := S16384x512) (k1_off1 i) S1024x512.size (k1_off1_inb i))) xs0 := by
  unfold v2eAccMid
  rw [View.read_writes_eq_canon _ _ _ (v2eCoverMidAcc c i arg2 harg2 arg3 harg3 arg4 harg4 arg5 harg5 arg6 harg6 hc0 hc1 x0 x1 xs0 xs1)]
  unfold v2eRunMid
  dsimp only
  rw [View.canon_unit_zero v2eZeroOff]
  simp only [View.readAt_eq_ld, harg2.read_unread, harg3.read_unread, harg5.read_unread,
    View.ld_unit_zero (S := S1024x1024) v2eZeroOff, View.ld_unit_zero (S := S512x1024) v2eZeroOff]

/-- A middle step adds the block's column sums to the counts it found. -/
theorem v2eColMid_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : ¬v2eLast i)
    (x0 : Vec F S1024x1024 .f32) (x1 : Vec F S16384x512 .bf16) (xs0 : Vec F S512x1024 .f32) (xs1 : Vec F S1x1024 .f32) :
    v2eColMid c i arg2 harg2 arg3 harg3 arg4 harg4 arg5 harg5 arg6 harg6 hc0 hc1 x0 x1 xs0 xs1
      = k1_pay3 x0 xs1 := by
  unfold v2eColMid
  rw [View.read_writes_eq_canon _ _ _ (v2eCoverMidCol c i arg2 harg2 arg3 harg3 arg4 harg4 arg5 harg5 arg6 harg6 hc0 hc1 x0 x1 xs0 xs1)]
  unfold v2eRunMid
  dsimp only
  rw [View.canon_unit_zero v2eZeroOff]
  simp only [View.readAt_eq_ld, harg2.read_unread, harg6.read_unread,
    View.ld_unit_zero (S := S1024x1024) v2eZeroOff, View.ld_unit_zero (S := S1x1024) v2eZeroOff]

/-- A last step adds the step's products to the feature sums it found. -/
theorem v2eAccLast_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i)
    (x0 : Vec F S1024x1024 .f32) (x1 : Vec F S16384x512 .bf16) (xs0 : Vec F S512x1024 .f32) (xs1 : Vec F S1x1024 .f32) :
    v2eAccLast c i arg2 harg2 arg3 harg3 arg4 harg4 arg5 harg5 arg6 harg6 hc0 hc1 x0 x1 xs0 xs1
      = k1_pay4 x0 (View.ld x1 (Rect.unit (s := S16384x512) (k1_off1 i) S1024x512.size (k1_off1_inb i))) xs0 := by
  unfold v2eAccLast
  rw [View.read_writes_eq_canon _ _ _ (v2eCoverLastAcc c i arg2 harg2 arg3 harg3 arg4 harg4 arg5 harg5 arg6 harg6 hc0 hc1 x0 x1 xs0 xs1)]
  unfold v2eRunLast
  dsimp only
  sl_unfold_words
  rw [View.canon_unit_zero v2eZeroOff]
  simp only [View.readAt_eq_ld, harg2.read_unread, harg3.read_unread, harg5.read_unread,
    View.ld_unit_zero (S := S1024x1024) v2eZeroOff, View.ld_unit_zero (S := S512x1024) v2eZeroOff]

/-- A last step adds the block's column sums to the counts it found. -/
theorem v2eColLast_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i)
    (x0 : Vec F S1024x1024 .f32) (x1 : Vec F S16384x512 .bf16) (xs0 : Vec F S512x1024 .f32) (xs1 : Vec F S1x1024 .f32) :
    v2eColLast c i arg2 harg2 arg3 harg3 arg4 harg4 arg5 harg5 arg6 harg6 hc0 hc1 x0 x1 xs0 xs1
      = k1_pay3 x0 xs1 := by
  unfold v2eColLast
  rw [View.read_writes_eq_canon _ _ _ (v2eCoverLastCol c i arg2 harg2 arg3 harg3 arg4 harg4 arg5 harg5 arg6 harg6 hc0 hc1 x0 x1 xs0 xs1)]
  unfold v2eRunLast
  dsimp only
  sl_unfold_words
  rw [View.canon_unit_zero v2eZeroOff]
  simp only [View.readAt_eq_ld, harg2.read_unread, harg6.read_unread,
    View.ld_unit_zero (S := S1024x1024) v2eZeroOff, View.ld_unit_zero (S := S1x1024) v2eZeroOff]

/-- A last step stores, as the output tile, the updated feature sums scaled by the guarded reciprocal of the updated counts. -/
theorem v2eOutLast_eq (c : Dev nD) (i : grid1.Coords) (arg2 : Memref sig .tc .vmem S1024x1024 .f32) (harg2 : arg2.IsWhole) (arg3 : Memref sig .tc .vmem S16384x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (hc0 : ¬v2eFirst i) (hc1 : v2eLast i)
    (x0 : Vec F S1024x1024 .f32) (x1 : Vec F S16384x512 .bf16) (xs0 : Vec F S512x1024 .f32) (xs1 : Vec F S1x1024 .f32) :
    v2eOutLast c i arg2 harg2 arg3 harg3 arg4 harg4 arg5 harg5 arg6 harg6 hc0 hc1 x0 x1 xs0 xs1
      = k1_pay5 (k1_pay3 x0 xs1) (k1_pay4 x0 (View.ld x1 (Rect.unit (s := S16384x512) (k1_off1 i) S1024x512.size (k1_off1_inb i))) xs0) := by
  unfold v2eOutLast
  rw [View.read_writes_eq_canon _ _ _ (v2eCoverLastOut c i arg2 harg2 arg3 harg3 arg4 harg4 arg5 harg5 arg6 harg6 hc0 hc1 x0 x1 xs0 xs1)]
  unfold v2eRunLast
  dsimp only
  sl_unfold_words
  rw [View.canon_unit_zero v2eZeroOff, View.readCov_unit_zero (S := S1x1024) _ v2eZeroOff,
    View.readCov_unit_zero (S := S512x1024) _ v2eZeroOff]
  simp only [View.readAt_eq_ld, harg2.read_unread, harg3.read_unread, harg5.read_unread, harg6.read_unread,
    View.ld_unit_zero (S := S1024x1024) v2eZeroOff, View.ld_unit_zero (S := S512x1024) v2eZeroOff,
    View.ld_unit_zero (S := S1x1024) v2eZeroOff]

end Cert.KernelIdeal.Gen

end
-- ==== Proof.V2eStepForm.lean ====
/-
  The edge pass's accumulation, step by step, in terms of the steps' arithmetic.

  Point `t` of the edge pass (8 edge blocks by 16 vertex blocks, the vertex block the fast coordinate) is step
  `t mod 16` of edge block `t / 16`.  What the three buffers hold after point `t`:
    * at a first step (`t mod 16 = 0`) the feature sums are the step's products added to zero, the counts the block's
      column sums added to zero;
    * at every other step they are the step's terms added to what point `t − 1` left;
    * at a last step (`t mod 16 = 15`) the output tile is the feature sums just formed times the guarded reciprocal of
      the counts just formed.
  The step's terms are taken from the incidence block of the point and from the 1024 rows of the mapped features that
  the point's vertex block selects.  Nothing here depends on the float model.
-/
import proofs.«154376_j40303973106024_2_alg».proof.Proof.V2eBody
import proofs.«154376_j40303973106024_2_alg».proof.Proof.V2ePieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The contents of the TensorCore's unscoped buffers when the region is entered, per core: a parameter.
variable (V : (c : Dev nD) → (b : Ref sig .tc) → Buf (Elt F) ((c : Thread nD τ).loc b))

/-- The rows of the mapped features that the step at grid coordinates `i` loads. -/
abbrev v2eRows (x1 : Vec F S16384x512 .bf16) (i : grid1.Coords) : Vec F S1024x512 .bf16 :=
  View.ld x1 (Rect.unit (s := S16384x512) (k1_off1 i) S1024x512.size (k1_off1_inb i))

/-- The components of a triple that is given by an equation. -/
theorem trip_1 {α β γ : Type} {p : α × β × γ} {a : α} {b : β} {c : γ} (h : p = (a, b, c)) : p.1 = a := by subst h; rfl
theorem trip_2 {α β γ : Type} {p : α × β × γ} {a : α} {b : β} {c : γ} (h : p = (a, b, c)) : p.2.1 = b := by subst h; rfl
theorem trip_3 {α β γ : Type} {p : α × β × γ} {a : α} {b : β} {c : γ} (h : p = (a, b, c)) : p.2.2 = c := by subst h; rfl

/-- A first step: the step's terms added to zero. -/
theorem v2eStep_first (c : Dev nD) (t : Fin cfg1.N) (h0 : t.val % 16 = 0) :
    (v2eAt V c t.val t.isLt).2.1 = k1_pay4 (v2eBlk V c 0 t) (v2eRows (v2eBlk V c 1 t) (grid1.coords t)) k1_pay1
    ∧ (v2eAt V c t.val t.isLt).2.2 = k1_pay3 (v2eBlk V c 0 t) k1_pay2 := by
  have h1 : ¬t.val % 16 = 15 := by omega
  have e := v2eAt_first V c t h0 h1
  exact ⟨(trip_2 e).trans (v2eAccFirst_eq c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t)),
    (trip_3 e).trans (v2eColFirst_eq c (grid1.coords t) (v2eM0 t) (v2eH0 t) (v2eM1 t) (v2eH1 t) (v2eM2 t) (v2eH2 t) v2eAcc (Memref.isWhole_whole _) v2eCol (Memref.isWhole_whole _) ((v2eFirst_iff t).mpr h0) (fun h => h1 ((v2eLast_iff t).mp h)) (v2eBlk V c 0 t) (v2eBlk V c 1 t))⟩

/-- Every other step: the step's terms added to what the point before left. -/
theorem v2eStep_next (c : Dev nD) (t : Fin cfg1.N) (h0 : ¬t.val % 16 = 0) :
    (v2eAt V c t.val t.isLt).2.1
        = k1_pay4 (v2eBlk V c 0 t) (v2eRows (v2eBlk V c 1 t) (grid1.coords t)) (v2eAt V c (t.val - 1) (Nat.lt_of_le_of_lt (Nat.sub_le _ _) t.isLt)).2.1
    ∧ (v2eAt V c t.val t.isLt).2.2 = k1_pay3 (v2eBlk V c 0 t) (v2eAt V c (t.val - 1) (Nat.lt_of_le_of_lt (Nat.sub_le _ _) t.isLt)).2.2 := by
  by_cases h1 : t.val % 16 = 15
  · have e := v2eAt_last V c t h0 h1
    exact ⟨(trip_2 e).trans (v2eAccLast_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2),
      (trip_3 e).trans (v2eColLast_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2)⟩
  · have e := v2eAt_mid V c t h0 h1
    exact ⟨(trip_2 e).trans (v2eAccMid_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2),
      (trip_3 e).trans (v2eColMid_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) (fun h => h1 ((v2eLast_iff t).mp h)) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2)⟩

/-- A last step's output tile: the feature sums just formed, scaled by the guarded reciprocal of the counts just
    formed. -/
theorem v2eStep_out (c : Dev nD) (t : Fin cfg1.N) (h1 : t.val % 16 = 15) :
    (v2eAt V c t.val t.isLt).1 = k1_pay5 (v2eAt V c t.val t.isLt).2.2 (v2eAt V c t.val t.isLt).2.1 := by
  have h0 : ¬t.val % 16 = 0 := by omega
  have e := v2eAt_last V c t h0 h1
  exact (trip_1 e).trans ((v2eOutLast_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2).trans
    (congrArg₂ k1_pay5 ((trip_3 e).trans (v2eColLast_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2)).symm
      ((trip_2 e).trans (v2eAccLast_eq c (grid1.coords t) (v2eM0 t) (v2eH0 t) (v2eM1 t) (v2eH1 t) (v2eM2 t) (v2eH2 t) v2eAcc (Memref.isWhole_whole _) v2eCol (Memref.isWhole_whole _) (fun h => h0 ((v2eFirst_iff t).mp h)) ((v2eLast_iff t).mpr h1) (v2eBlk V c 0 t) (v2eBlk V c 1 t) (v2eAt V c (t.val - 1) (Nat.lt_of_le_of_lt (Nat.sub_le _ _) t.isLt)).2.1 (v2eAt V c (t.val - 1) (Nat.lt_of_le_of_lt (Nat.sub_le _ _) t.isLt)).2.2)).symm))

end Cert.KernelIdeal.Gen

end
-- ==== Proof.LibDotColCol.lean ====
/-
  A columns-by-columns contraction read as a plain sum.

  Take operands of shapes [K, A] and [K, B] and a result of shape [A, B], with dimension numbers that say: no batch
  axes; each operand keeps its axis 1; axis 0 of the left is contracted against axis 0 of the right. This is the
  product `xᵀ y`: the contraction's own index set is a one-axis shape of extent K, and the sum over it of
  `x (left index) * y (right index)` at the result index (p, q) is `∑ k < K, x (k, p) * y (k, q)`: on its kept axis
  each operand reads the result's coordinate (the left the row `p`, the right the column `q`), on its contracted
  axis the contraction's one coordinate.

  Stated for ANY record with these dimension numbers and for any K, A, B. The last theorem reads a matrix product
  unit's result into the zero splat at the ideal values, where it is the accumulator's entry (zero) plus that sum,
  whatever the operands' formats and the contraction precision.
-/
import Idealize.ShloMosaic.Lib.ValueIdx
import Idealize.ShloMosaic.PureOps.Ideal.Laws

open scoped BigOperators

namespace Cert.DotColCol

open Idealize.ShloMosaic Idealize.ShloMosaic.ValueIdx

variable {K A B : Nat} (d : DotDims ⟨2, ![K, A]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's row coordinate: with no batch axis, the
    left operand's one kept axis is the result's axis 0. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_kept (hlb : d.lhsBatch = []) (hln : d.lhsNonContracting = [1]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column `p` of the left and column `q` of the right. -/
theorem sum_eq (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K)
    (x : (⟨2, ![K, A]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 k p) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_kept d hlb hln hrb hrn _ _)
  rw [el, er]

/-- The product `xᵀ y` into the zero splat, at `(p, q)`, at the ideal values: for any record with the
    columns-by-columns dimension numbers, any operand formats and any contraction precision. -/
theorem matmul_zero_apply {φ₁ φ₂ : FTy} (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![K, A]⟩ φ₁) (y : FVec Ideal ⟨2, ![K, B]⟩ φ₂) (p : Fin A) (q : Fin B) :
    FloatOps.matmul d prec x y (constant (F := Ideal) ⟨2, ![A, B]⟩ .f32 0x00000000#32) (ix2 p q) = ∑ k : Fin K, x (ix2 k p) * y (ix2 k q) :=
  (Ideal.matmul_constant_zero_apply d prec x y (ix2 p q)).trans (sum_eq d hlb hln hlc hrb hrn hrc hr hs x y p q)

end Cert.DotColCol
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.IncidenceMean.lean ====
/-
  Mean aggregation along a hypergraph's incidence matrix: the function both programs compute.

  Data: vertex features X [16384, 512], an incidence matrix H [16384 vertices, 8192 edges], a weight matrix W [512, 512]
  and a bias b [512].  First the features are mapped linearly: Xt[v, o] = (sum_i X[v, i] * W[o, i]) + b[o].  Then every
  edge takes the mean of its vertices' features, weighted by the incidence entries: with the column sum
  c1[e] = sum_v H[v, e], the edge feature is (sum_v Xt[v, o] * H[v, e]) * r(c1[e]), where r is the guarded reciprocal:
  r(d) = 0 when d = 0 and 1/d otherwise.  Then every vertex takes the mean of its edges' features in the same way, with
  the row sum c2[v] = sum_e H[v, e], and the result is clamped below at zero:
  out[v, o] = max ((sum_e H[v, e] * XeT[o, e]) * r(c2[v]), 0).

  The edge features are kept transposed, XeT [512 features, 8192 edges].  The guarded reciprocal is kept as ONE function
  of the extended reals, spelt through the comparison and the division of the ideal floats, and is never opened: the two
  programs apply the same function to the same sums.  All sums are finite sums in the extended reals, a commutative
  additive monoid, so that regrouping them needs no finiteness of the entries.
-/
import Idealize.ShloMosaic.Lib.ValueIdx
import Idealize.ShloMosaic.PureOps.Ideal.Laws

noncomputable section

open scoped BigOperators

namespace Cert.IncidenceMean

open Idealize.ShloMosaic Idealize.ShloMosaic.ValueIdx

/-- The guarded reciprocal: zero at zero, otherwise one over the argument (the ideal floats' comparison, selection and
    division, at the words of 0.0 and 1.0). -/
def safeRecip (d : EReal) : EReal :=
  Scalar.select (Ideal.cmp .oeq d (Ideal.ofBits .f32 0x00000000#32)) (Ideal.ofBits .f32 0x00000000#32)
    (Ideal.div (Ideal.ofBits .f32 0x3F800000#32) d)

variable (X : (⟨2, ![16384, 512]⟩ : Shape).Idx → EReal) (H : (⟨2, ![16384, 8192]⟩ : Shape).Idx → EReal)
  (W : (⟨2, ![512, 512]⟩ : Shape).Idx → EReal) (b : (⟨1, ![512]⟩ : Shape).Idx → EReal)

/-- The linear map: vertex `v`'s feature `o`. -/
def xtAt (v : Fin 16384) (o : Fin 512) : EReal := (∑ i : Fin 512, X (ix2 v i) * W (ix2 o i)) + b (ix1 o)

/-- The column sum of the incidence matrix at edge `e`. -/
def c1At (e : Fin 8192) : EReal := ∑ v : Fin 16384, H (ix2 v e)

/-- The row sum of the incidence matrix at vertex `v`. -/
def c2At (v : Fin 16384) : EReal := ∑ e : Fin 8192, H (ix2 v e)

/-- Edge `e`'s feature `o`: the guarded mean over the edge's vertices. -/
def xeTAt (o : Fin 512) (e : Fin 8192) : EReal :=
  (∑ v : Fin 16384, xtAt X W b v o * H (ix2 v e)) * safeRecip (c1At H e)

/-- Vertex `v`'s result `o`: the guarded mean over the vertex's edges, clamped below at zero. -/
def outAt (v : Fin 16384) (o : Fin 512) : EReal :=
  max ((∑ e : Fin 8192, H (ix2 v e) * xeTAt X H W b o e) * safeRecip (c2At H v)) 0

/-- The mapped features as an array [16384, 512]. -/
def xt : (⟨2, ![16384, 512]⟩ : Shape).Idx → EReal := fun j => xtAt X W b (j 0) (j 1)

/-- The edge features as an array [512, 8192] (features by edges). -/
def xeT : (⟨2, ![512, 8192]⟩ : Shape).Idx → EReal := fun j => xeTAt X H W b (j 0) (j 1)

/-- The result as an array [16384, 512]. -/
def G : (⟨2, ![16384, 512]⟩ : Shape).Idx → EReal := fun j => outAt X H W b (j 0) (j 1)

theorem xt_ix2 (v : Fin 16384) (o : Fin 512) : xt X W b (ix2 v o) = xtAt X W b v o := rfl

theorem xeT_ix2 (o : Fin 512) (e : Fin 8192) : xeT X H W b (ix2 o e) = xeTAt X H W b o e := rfl

theorem G_ix2 (v : Fin 16384) (o : Fin 512) : G X H W b (ix2 v o) = outAt X H W b v o := rfl

/-- The edge feature with the product written incidence entry first (the order of a product `Hᵀ Xt`). -/
theorem xeTAt_comm (o : Fin 512) (e : Fin 8192) :
    (∑ v : Fin 16384, H (ix2 v e) * xtAt X W b v o) * safeRecip (c1At H e) = xeTAt X H W b o e := by
  unfold xeTAt
  exact congrArg (· * safeRecip (c1At H e)) (Finset.sum_congr rfl fun v _ => mul_comm _ _)

end Cert.IncidenceMean

end
-- ==== Proof.EdgePayloads.lean ====
/-
  The edge step's arithmetic, entry by entry.

  One step of the edge pass sees a block of the incidence matrix (1024 vertices by 1024 edges), the matching 1024 rows of
  the mapped features, and two running arrays: the feature sums [512 features, 1024 edges] and the column counts
  [1, 1024 edges].  Entry by entry, at the ideal values:
    * both running arrays start at zero;
    * the count of edge `e` grows by the block's column sum, sum_p H[p, e];
    * the feature sum at (o, e) grows by sum_k Xt[k, o] * H[k, e] (a product of the transposed features with the block:
      both operands are contracted along their rows);
    * at the end the feature sum at (o, e) is multiplied by the guarded reciprocal of edge `e`'s count.
  Roundings to a shorter float format are the identity at the ideal values.
-/
import proofs.«154376_j40303973106024_2_alg».proof.Proof.Gen.KernelIdeal.Skeleton
import proofs.«154376_j40303973106024_2_alg».proof.Proof.LibDotColCol
import proofs.«154376_j40303973106024_2_alg».proof.Proof.LibColumnSums
import proofs.«154376_j40303973106024_2_alg».proof.Proof.IncidenceMean
import Idealize.ShloMosaic.Lib.ValueLayout
import Idealize.ShloMosaic.Lib.Pipeline.Value

noncomputable section

open scoped BigOperators

namespace Cert.KernelIdeal.EdgePayloads

open Cert.KernelIdeal Cert.KernelIdeal.Gen Idealize.ShloMosaic Idealize.ShloMosaic.ValueIdx Cert.IncidenceMean

/-- The feature sums start at zero. -/
theorem k1_pay1_apply (o : Fin 512) (e : Fin 1024) : k1_pay1 (F := Ideal) (ix2 o e) = 0 := by
  unfold k1_pay1
  rw [shapeCast_self]
  exact Ideal.ofBits_zero_f32

/-- The counts start at zero. -/
theorem k1_pay2_apply (e : Fin 1024) : k1_pay2 (F := Ideal) (ix2 (0 : Fin 1) e) = 0 := by
  unfold k1_pay2
  rw [shapeCast_self]
  exact Ideal.ofBits_zero_f32

/-- The count of edge `e` grows by the block's column sum. -/
theorem k1_pay3_apply (v3 : Vec Ideal S1024x1024 .f32) (v5 : Vec Ideal S1x1024 .f32) (e : Fin 1024) :
    k1_pay3 (F := Ideal) v3 v5 (ix2 (0 : Fin 1) e) = v5 (ix2 (0 : Fin 1) e) + ∑ p : Fin 1024, v3 (ix2 p e) := by
  unfold k1_pay3
  dsimp only
  rw [shapeCast_self]
  refine congrArg (v5 (ix2 (0 : Fin 1) e) + ·) ?_
  refine (shapeCast_a_1a_apply _ _ (0 : Fin 1) e).trans ?_
  exact Cert.LibColumnSums.multiReduction_add_rows_apply v3 _ _ _ _ e

/-- The feature sum at `(o, e)` grows by the product of the features' column `o` with the block's column `e`. -/
theorem k1_pay4_apply (v3 : Vec Ideal S1024x1024 .f32) (v16 : Vec Ideal S1024x512 .bf16) (v19 : Vec Ideal S512x1024 .f32)
    (o : Fin 512) (e : Fin 1024) :
    k1_pay4 (F := Ideal) v3 v16 v19 (ix2 o e) = v19 (ix2 o e) + ∑ k : Fin 1024, v16 (ix2 k o) * v3 (ix2 k e) := by
  unfold k1_pay4
  rw [shapeCast_self, shapeCast_self]
  refine congrArg (v19 (ix2 o e) + ·) ?_
  exact Cert.DotColCol.matmul_zero_apply dot_S1024x512_S1024x1024_S512x1024_0_0_1_1_n_n rfl rfl rfl rfl rfl rfl rfl rfl none _ _ o e

/-- At the end the feature sum at `(o, e)` is multiplied by the guarded reciprocal of edge `e`'s count. -/
theorem k1_pay5_apply (v27 : Vec Ideal S1x1024 .f32) (v34 : Vec Ideal S512x1024 .f32) (o : Fin 512) (e : Fin 1024) :
    k1_pay5 (F := Ideal) v27 v34 (ix2 o e) = v34 (ix2 o e) * safeRecip (v27 (ix2 (0 : Fin 1) e)) := by
  unfold k1_pay5
  refine congrArg (v34 (ix2 o e) * ·) ?_
  refine (broadcastTo_1b_ab_apply _ _ o e).trans ?_
  rfl

end Cert.KernelIdeal.EdgePayloads

end
-- ==== Proof.BlockSums.lean ====
/-
  Sums taken block by block.

  Cut the indices `0, …, n·B − 1` into `n` consecutive blocks of `B` indices; block `t` holds `B·t, …, B·t + B − 1`.
  A sum over all the indices is the sum over the blocks of the sums inside each block.  An accumulator that visits the
  blocks in order — cleared to zero and given the first block's sum at the first step, given the next block's sum at
  every later step — holds the whole sum after the last step.  The statements hold in any additive commutative monoid
  (no subtraction, no cancellation), so they apply to the extended reals as they are; the two cuts used here (16 blocks
  of 1024, 4 blocks of 2048) are stated apart.
-/
import Mathlib.Algebra.BigOperators.Fin
import Mathlib.Logic.Equiv.Fin.Basic
import Mathlib.Tactic.Common

open scoped BigOperators

namespace Cert.BlockSums

variable {M : Type*} [AddCommMonoid M]

/-- Index `r` of block `t` lies below `n · B`. -/
theorem block_lt {n B : ℕ} (t : Fin n) (r : Fin B) : B * t.val + r.val < n * B := by
  have ht : t.val + 1 ≤ n := t.isLt
  have hr := r.isLt
  calc B * t.val + r.val < B * t.val + B := Nat.add_lt_add_left hr _
    _ = B * (t.val + 1) := (Nat.mul_add_one B t.val).symm
    _ ≤ B * n := Nat.mul_le_mul_left B ht
    _ = n * B := Nat.mul_comm B n

/-- A sum over `n · B` indices is the sum over the `n` blocks of the sums over each block's `B` indices. -/
theorem sum_blocks {N : ℕ} (n B : ℕ) (hN : N = n * B) (f : Fin N → M) :
    ∑ k, f k = ∑ t : Fin n, ∑ r : Fin B, f ⟨B * t.val + r.val, hN ▸ block_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- After step `j` the accumulator holds the sums of blocks `0, …, j`. -/
theorem acc_range (n : ℕ) (s A : ℕ → M) (h0 : A 0 = 0 + s 0) (hs : ∀ j, j + 1 < n → A (j + 1) = A j + s (j + 1)) :
    ∀ j, j < n → A j = ∑ t ∈ Finset.range (j + 1), s t
  | 0, _ => by rw [h0, zero_add, Finset.sum_range_one]
  | j + 1, h => by
    rw [hs j h, acc_range n s A h0 hs j (Nat.lt_of_succ_lt h), Finset.sum_range_succ _ (j + 1)]

/-- THE ACCUMULATOR: after the last of the `n` steps it holds the whole sum.  `s t` is block `t`'s sum. -/
theorem acc_last {N : ℕ} (n B : ℕ) (hn : 0 < n) (hN : N = n * B) (f : Fin N → M) (s A : ℕ → M)
    (hsum : ∀ t : Fin n, s t.val = ∑ r : Fin B, f ⟨B * t.val + r.val, hN ▸ block_lt t r⟩)
    (h0 : A 0 = 0 + s 0) (hs : ∀ j, j + 1 < n → A (j + 1) = A j + s (j + 1)) :
    A (n - 1) = ∑ k, f k := by
  rw [acc_range n s A h0 hs (n - 1) (Nat.sub_lt hn Nat.one_pos), Nat.sub_add_cancel hn, sum_blocks n B hN f,
    ← Fin.sum_univ_eq_sum_range]
  exact Finset.sum_congr rfl fun t _ => hsum t

/-- 16384 indices as 16 blocks of 1024. -/
theorem sum_16x1024 (f : Fin 16384 → M) :
    ∑ k, f k = ∑ t : Fin 16, ∑ r : Fin 1024, f ⟨1024 * t.val + r.val, block_lt (n := 16) t r⟩ :=
  sum_blocks 16 1024 rfl f

/-- 8192 indices as 4 blocks of 2048. -/
theorem sum_4x2048 (f : Fin 8192 → M) :
    ∑ k, f k = ∑ t : Fin 4, ∑ r : Fin 2048, f ⟨2048 * t.val + r.val, block_lt (n := 4) t r⟩ :=
  sum_blocks 4 2048 rfl f

/-- The accumulator over 16 blocks of 1024: after step 15 it holds the sum over all 16384 indices. -/
theorem acc_16x1024 (f : Fin 16384 → M) (s A : ℕ → M)
    (hsum : ∀ t : Fin 16, s t.val = ∑ r : Fin 1024, f ⟨1024 * t.val + r.val, block_lt (n := 16) t r⟩)
    (h0 : A 0 = 0 + s 0) (hs : ∀ j, j + 1 < 16 → A (j + 1) = A j + s (j + 1)) : A 15 = ∑ k, f k :=
  acc_last 16 1024 (by decide) rfl f s A hsum h0 hs

/-- The accumulator over 4 blocks of 2048: after step 3 it holds the sum over all 8192 indices. -/
theorem acc_4x2048 (f : Fin 8192 → M) (s A : ℕ → M)
    (hsum : ∀ t : Fin 4, s t.val = ∑ r : Fin 2048, f ⟨2048 * t.val + r.val, block_lt (n := 4) t r⟩)
    (h0 : A 0 = 0 + s 0) (hs : ∀ j, j + 1 < 4 → A (j + 1) = A j + s (j + 1)) : A 3 = ∑ k, f k :=
  acc_last 4 2048 (by decide) rfl f s A hsum h0 hs

end Cert.BlockSums
-- ==== Proof.Tiles.lean ====
/-
  The three passes' tiles are pieces of the incidence mean.

  The vertices are cut into 16 blocks of 1024 (and, for the linear pass, 8 blocks of 2048), the edges into 8 blocks of
  1024 and into 4 blocks of 2048.  `vtx j r` is vertex `1024 j + r`, `vtx2 T p` vertex `2048 T + p`, `edg E e` edge
  `1024 E + e`, `edg2 j q` edge `2048 j + q`.
    * Linear pass: the tile's entry is the mapped feature of the tile's vertex.
    * Edge pass, at edge block `E`: the feature accumulator visits the 16 vertex blocks, adding at step `j` the sum over
      the block's vertices of Xt[v, o] · H[v, edge]; the count accumulator adds the block's part of the column sum.
      After step 15 the accumulator times the guarded reciprocal of the count is the edge feature.
    * Vertex pass, at vertex block `V`: the accumulators visit the 4 edge blocks of 2048 in the same way; after step 3
      the accumulator times the guarded reciprocal of the count, clamped below at zero, is the result.
  The accumulators are abstract sequences with their step equations, and the block sums abstract sequences with their
  values, so that they can be instantiated with what a run of the passes gives.
-/
import proofs.«154376_j40303973106024_2_alg».proof.Proof.IncidenceMean
import proofs.«154376_j40303973106024_2_alg».proof.Proof.BlockSums

noncomputable section

open scoped BigOperators

namespace Cert.IncidenceMean

open Idealize.ShloMosaic Idealize.ShloMosaic.ValueIdx Cert.BlockSums

/-- Vertex `1024 j + r`: row `r` of vertex block `j` (16 blocks of 1024). -/
def vtx (j : Fin 16) (r : Fin 1024) : Fin 16384 := ⟨1024 * j.val + r.val, block_lt (n := 16) j r⟩

/-- Vertex `2048 T + p`: row `p` of vertex block `T` (8 blocks of 2048). -/
def vtx2 (T : Fin 8) (p : Fin 2048) : Fin 16384 := ⟨2048 * T.val + p.val, block_lt (n := 8) T p⟩

/-- Edge `1024 E + e`: column `e` of edge block `E` (8 blocks of 1024). -/
def edg (E : Fin 8) (e : Fin 1024) : Fin 8192 := ⟨1024 * E.val + e.val, block_lt (n := 8) E e⟩

/-- Edge `2048 j + q`: column `q` of edge block `j` (4 blocks of 2048). -/
def edg2 (j : Fin 4) (q : Fin 2048) : Fin 8192 := ⟨2048 * j.val + q.val, block_lt (n := 4) j q⟩

theorem vtx_val (j : Fin 16) (r : Fin 1024) : (vtx j r).val = 1024 * j.val + r.val := rfl
theorem vtx2_val (T : Fin 8) (p : Fin 2048) : (vtx2 T p).val = 2048 * T.val + p.val := rfl
theorem edg_val (E : Fin 8) (e : Fin 1024) : (edg E e).val = 1024 * E.val + e.val := rfl
theorem edg2_val (j : Fin 4) (q : Fin 2048) : (edg2 j q).val = 2048 * j.val + q.val := rfl

variable (X : (⟨2, ![16384, 512]⟩ : Shape).Idx → EReal) (H : (⟨2, ![16384, 8192]⟩ : Shape).Idx → EReal)
  (W : (⟨2, ![512, 512]⟩ : Shape).Idx → EReal) (b : (⟨1, ![512]⟩ : Shape).Idx → EReal)

/-- The linear pass's tile entry is the mapped feature. -/
theorem linear_tile (T : Fin 8) (p : Fin 2048) (q : Fin 512) :
    (∑ k : Fin 512, X (ix2 (vtx2 T p) k) * W (ix2 q k)) + b (ix1 q) = xtAt X W b (vtx2 T p) q := rfl

/-- The edge pass's accumulators over ANY feature array `xt`: after step 15 the feature accumulator times the guarded
    reciprocal of the count is the guarded mean over all 16384 vertices. -/
theorem edge_acc (xt : (⟨2, ![16384, 512]⟩ : Shape).Idx → EReal) (E : Fin 8) (o : Fin 512) (e : Fin 1024)
    (A C sA sC : ℕ → EReal)
    (hsA : ∀ j : Fin 16, sA j.val = ∑ r : Fin 1024, xt (ix2 (vtx j r) o) * H (ix2 (vtx j r) (edg E e)))
    (hsC : ∀ j : Fin 16, sC j.val = ∑ r : Fin 1024, H (ix2 (vtx j r) (edg E e)))
    (hA0 : A 0 = 0 + sA 0) (hAs : ∀ j, j + 1 < 16 → A (j + 1) = A j + sA (j + 1))
    (hC0 : C 0 = 0 + sC 0) (hCs : ∀ j, j + 1 < 16 → C (j + 1) = C j + sC (j + 1)) :
    A 15 * safeRecip (C 15)
      = (∑ v : Fin 16384, xt (ix2 v o) * H (ix2 v (edg E e))) * safeRecip (∑ v : Fin 16384, H (ix2 v (edg E e))) := by
  have hA : A 15 = ∑ v : Fin 16384, xt (ix2 v o) * H (ix2 v (edg E e)) :=
    acc_16x1024 (fun v => xt (ix2 v o) * H (ix2 v (edg E e))) sA A hsA hA0 hAs
  have hC : C 15 = ∑ v : Fin 16384, H (ix2 v (edg E e)) := acc_16x1024 (fun v => H (ix2 v (edg E e))) sC C hsC hC0 hCs
  rw [hA, hC]

/-- The edge pass's tile entry is the edge feature. -/
theorem edge_tile (E : Fin 8) (o : Fin 512) (e : Fin 1024) (A C sA sC : ℕ → EReal)
    (hsA : ∀ j : Fin 16, sA j.val = ∑ r : Fin 1024, xtAt X W b (vtx j r) o * H (ix2 (vtx j r) (edg E e)))
    (hsC : ∀ j : Fin 16, sC j.val = ∑ r : Fin 1024, H (ix2 (vtx j r) (edg E e)))
    (hA0 : A 0 = 0 + sA 0) (hAs : ∀ j, j + 1 < 16 → A (j + 1) = A j + sA (j + 1))
    (hC0 : C 0 = 0 + sC 0) (hCs : ∀ j, j + 1 < 16 → C (j + 1) = C j + sC (j + 1)) :
    A 15 * safeRecip (C 15) = xeTAt X H W b o (edg E e) :=
  edge_acc H (xt X W b) E o e A C sA sC hsA hsC hA0 hAs hC0 hCs

/-- The vertex pass's accumulators over ANY edge-feature array `xe` [512, 8192]: after step 3 the feature accumulator
    times the guarded reciprocal of the count, clamped below at zero. -/
theorem vertex_acc (xe : (⟨2, ![512, 8192]⟩ : Shape).Idx → EReal) (V : Fin 16) (p : Fin 1024) (o : Fin 512)
    (A C sA sC : ℕ → EReal)
    (hsA : ∀ j : Fin 4, sA j.val = ∑ q : Fin 2048, H (ix2 (vtx V p) (edg2 j q)) * xe (ix2 o (edg2 j q)))
    (hsC : ∀ j : Fin 4, sC j.val = ∑ q : Fin 2048, H (ix2 (vtx V p) (edg2 j q)))
    (hA0 : A 0 = 0 + sA 0) (hAs : ∀ j, j + 1 < 4 → A (j + 1) = A j + sA (j + 1))
    (hC0 : C 0 = 0 + sC 0) (hCs : ∀ j, j + 1 < 4 → C (j + 1) = C j + sC (j + 1)) :
    max (A 3 * safeRecip (C 3)) 0
      = max ((∑ k : Fin 8192, H (ix2 (vtx V p) k) * xe (ix2 o k)) * safeRecip (∑ k : Fin 8192, H (ix2 (vtx V p) k))) 0 := by
  have hA : A 3 = ∑ k : Fin 8192, H (ix2 (vtx V p) k) * xe (ix2 o k) :=
    acc_4x2048 (fun k => H (ix2 (vtx V p) k) * xe (ix2 o k)) sA A hsA hA0 hAs
  have hC : C 3 = ∑ k : Fin 8192, H (ix2 (vtx V p) k) := acc_4x2048 (fun k => H (ix2 (vtx V p) k)) sC C hsC hC0 hCs
  rw [hA, hC]

/-- The vertex pass's tile entry is the result. -/
theorem vertex_tile (V : Fin 16) (p : Fin 1024) (o : Fin 512) (A C sA sC : ℕ → EReal)
    (hsA : ∀ j : Fin 4, sA j.val = ∑ q : Fin 2048, H (ix2 (vtx V p) (edg2 j q)) * xeTAt X H W b o (edg2 j q))
    (hsC : ∀ j : Fin 4, sC j.val = ∑ q : Fin 2048, H (ix2 (vtx V p) (edg2 j q)))
    (hA0 : A 0 = 0 + sA 0) (hAs : ∀ j, j + 1 < 4 → A (j + 1) = A j + sA (j + 1))
    (hC0 : C 0 = 0 + sC 0) (hCs : ∀ j, j + 1 < 4 → C (j + 1) = C j + sC (j + 1)) :
    max (A 3 * safeRecip (C 3)) 0 = outAt X H W b (vtx V p) o := by
  have hA : A 3 = ∑ k : Fin 8192, H (ix2 (vtx V p) k) * xeTAt X H W b o k :=
    acc_4x2048 (fun k => H (ix2 (vtx V p) k) * xeTAt X H W b o k) sA A hsA hA0 hAs
  have hC : C 3 = c2At H (vtx V p) := acc_4x2048 (fun k => H (ix2 (vtx V p) k)) sC C hsC hC0 hCs
  rw [hA, hC]
  rfl

end Cert.IncidenceMean

end
-- ==== Proof.V2eValue.lean ====
/-
  The edge pass's output array.

  At the ideal values the edge pass leaves, in its output array [512 features, 8192 edges], at (o, edge) the guarded
  mean over all 16384 vertices:  (sum_v Xt[v, o] * H[v, edge]) * r(sum_v H[v, edge]),  of the feature array Xt and the
  incidence matrix H that the pass finds when it starts.
    * The blocks: point `t` reads the incidence block of vertex block `t mod 16` and edge block `t / 16`, the whole
      feature array (of which the step loads the rows of vertex block `t mod 16`), and writes edge block `t / 16` of
      the output.
    * The accumulation: along the 16 steps of an edge block the feature sums and the counts are accumulators cleared
      at the first step; entry by entry they satisfy the accumulator equations of a sum taken in 16 blocks of 1024,
      so after step 15 they hold the sums over all the vertices.
    * The last step of each edge block writes its tile back, and the 8 tiles cover the array.
-/
import proofs.«154376_j40303973106024_2_alg».proof.Proof.V2eStepForm
import proofs.«154376_j40303973106024_2_alg».proof.Proof.EdgePayloads
import proofs.«154376_j40303973106024_2_alg».proof.Proof.Tiles
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.IncidenceMean Cert.KernelIdeal.EdgePayloads
open scoped BigOperators

-- The contents of the TensorCore's unscoped buffers when the region is entered, per core: a parameter.
variable (V : (c : Dev nD) → (b : Ref sig .tc) → Buf (Elt Ideal) ((c : Thread nD τ).loc b))

/-! ## The function the output array ends at -/

/-- The guarded means of the columns of `xt` over the columns of `h`: the output array [512, 8192]. -/
def G1 (xt : Vec Ideal S16384x512 .bf16) (h : Vec Ideal S16384x8192 .f32) : Vec Ideal S512x8192 .bf16 :=
  fun i => (∑ v : Fin 16384, xt (ix2 v (i 0)) * h (ix2 v (i 1))) * safeRecip (∑ v : Fin 16384, h (ix2 v (i 1)))

/-- The feature array and the incidence matrix as the pass finds them. -/
abbrev v2eXt (c : Dev nD) : Vec Ideal S16384x512 .bf16 := V c main_v1
abbrev v2eH (c : Dev nD) : Vec Ideal S16384x8192 .f32 := V c main_arg1

/-! ## The blocks a point reads -/

/-- The printed index maps, decided over the grid. -/
theorem v2eIdx : ∀ t : Fin cfg1.N,
    win1_0.index t (0 : Fin 2) = t.val % 16 ∧ win1_0.index t (1 : Fin 2) = t.val / 16
    ∧ win1_1.index t (0 : Fin 2) = 0 ∧ win1_1.index t (1 : Fin 2) = 0
    ∧ win1_2.index t (0 : Fin 2) = 0 ∧ win1_2.index t (1 : Fin 2) = t.val / 16
    ∧ ((grid1.coords t) 1).val = t.val % 16 :=
  (by decide +kernel : ∀ t : Fin grid1.N, _)

/-- The vertex of row `r` of the block read at position `n`, and the edge of its column `e`. -/
def v2eRow (n : ℕ) (r : Fin 1024) : Fin 16384 := ⟨1024 * (n % 16) + r.val, by have := r.isLt; omega⟩
def v2eEdge (n : ℕ) (e : Fin 1024) : Fin 8192 := ⟨1024 * (n / 16 % 8) + e.val, by have := e.isLt; omega⟩

/-- The incidence block of point `t`. -/
theorem v2eBlk_0_eq (c : Dev nD) (t : Fin cfg1.N) :
    v2eBlk V c 0 t = fun y : S1024x1024.Idx => v2eH V c (ix2 (v2eRow t.val (y 0)) (v2eEdge t.val (y 1))) := by
  obtain ⟨e0, e1, -⟩ := v2eIdx t
  have hN : t.val < 128 := lt_of_lt_of_eq t.isLt (show cfg1.N = 128 from N_1)
  funext y
  unfold v2eBlk
  rw [View.read_apply]
  show V c main_arg1 (((cfg1.win 0).blk t).view.emb y) = V c main_arg1 _
  refine congrArg _ ?_
  funext a; apply Fin.ext
  match a with
  | ⟨0, _⟩ => show win1_0.index t (0 : Fin 2) * 1024 + 1 * (y 0).val = 1024 * (t.val % 16) + (y 0).val; rw [e0]; omega
  | ⟨1, _⟩ => show win1_0.index t (1 : Fin 2) * 1024 + 1 * (y 1).val = 1024 * (t.val / 16 % 8) + (y 1).val; rw [e1]; omega

/-- The feature window of every point is the whole feature array. -/
theorem v2eBlk_1_eq (c : Dev nD) (t : Fin cfg1.N) : v2eBlk V c 1 t = v2eXt V c := by
  obtain ⟨-, -, e0, e1, -⟩ := v2eIdx t
  funext y
  unfold v2eBlk
  rw [View.read_apply]
  show V c main_v1 (((cfg1.win 1).blk t).view.emb y) = V c main_v1 y
  refine congrArg _ ?_
  funext a; apply Fin.ext
  match a with
  | ⟨0, _⟩ => show win1_1.index t (0 : Fin 2) * 16384 + 1 * (y 0).val = (y 0).val; rw [e0]; omega
  | ⟨1, _⟩ => show win1_1.index t (1 : Fin 2) * 512 + 1 * (y 1).val = (y 1).val; rw [e1]; omega

/-- The rows of the features the step at point `t` loads are those of its vertex block. -/
theorem v2eRows_apply (x1 : Vec Ideal S16384x512 .bf16) (t : Fin cfg1.N) (r : Fin 1024) (o : Fin 512) :
    v2eRows x1 (grid1.coords t) (ix2 r o) = x1 (ix2 (v2eRow t.val r) o) := by
  obtain ⟨-, -, -, -, -, -, e6⟩ := v2eIdx t
  show x1 ((Rect.unit (s := S16384x512) (k1_off1 (grid1.coords t)) S1024x512.size (k1_off1_inb (grid1.coords t))).idx (ix2 r o)) = _
  refine congrArg x1 (funext fun a => Fin.ext ?_)
  match a with
  | ⟨0, _⟩ =>
    show k1_off1 (grid1.coords t) 0 + 1 * r.val = 1024 * (t.val % 16) + r.val
    rw [k1_off1_eq]
    show 1024 * ((grid1.coords t) 1).val + 1 * r.val = _
    rw [e6]; omega
  | ⟨1, _⟩ =>
    show k1_off1 (grid1.coords t) 1 + 1 * o.val = o.val
    rw [k1_off1_eq]
    show 0 + 1 * o.val = o.val
    omega

/-! ## The accumulators, entry by entry -/

/-- The sum, over the rows of the block read at position `n`, of the products for feature `o` and column `e`. -/
def v2eTermA (c : Dev nD) (o : Fin 512) (e : Fin 1024) (n : ℕ) : EReal :=
  ∑ r : Fin 1024, v2eXt V c (ix2 (v2eRow n r) o) * v2eH V c (ix2 (v2eRow n r) (v2eEdge n e))

/-- The sum, over the rows of the block read at position `n`, of the incidence entries of column `e`. -/
def v2eTermC (c : Dev nD) (e : Fin 1024) (n : ℕ) : EReal :=
  ∑ r : Fin 1024, v2eH V c (ix2 (v2eRow n r) (v2eEdge n e))

/-- A step's product term, from operands that read the two arrays at the position's rows and columns. -/
theorem v2eTermA_of (c : Dev nD) (n : ℕ) (o : Fin 512) (e : Fin 1024) (x0 : Vec Ideal S1024x1024 .f32) (xr : Vec Ideal S1024x512 .bf16)
    (h0 : ∀ (r : Fin 1024) (e : Fin 1024), x0 (ix2 r e) = v2eH V c (ix2 (v2eRow n r) (v2eEdge n e)))
    (hr : ∀ (r : Fin 1024) (o : Fin 512), xr (ix2 r o) = v2eXt V c (ix2 (v2eRow n r) o)) :
    (∑ k : Fin 1024, xr (ix2 k o) * x0 (ix2 k e)) = v2eTermA V c o e n :=
  Finset.sum_congr rfl fun r _ => by rw [h0, hr]

/-- A step's column-sum term, likewise. -/
theorem v2eTermC_of (c : Dev nD) (n : ℕ) (e : Fin 1024) (x0 : Vec Ideal S1024x1024 .f32)
    (h0 : ∀ (r : Fin 1024) (e : Fin 1024), x0 (ix2 r e) = v2eH V c (ix2 (v2eRow n r) (v2eEdge n e))) :
    (∑ p : Fin 1024, x0 (ix2 p e)) = v2eTermC V c e n :=
  Finset.sum_congr rfl fun r _ => h0 r e

/-- The incidence block of point `t`, entry by entry. -/
theorem v2eBlk_0_apply (c : Dev nD) (t : Fin cfg1.N) (r : Fin 1024) (e : Fin 1024) :
    v2eBlk V c 0 t (ix2 r e) = v2eH V c (ix2 (v2eRow t.val r) (v2eEdge t.val e)) :=
  congrFun (v2eBlk_0_eq V c t) (ix2 r e)

/-- The rows of the features loaded at point `t`, entry by entry. -/
theorem v2eRows_blk_apply (c : Dev nD) (t : Fin cfg1.N) (r : Fin 1024) (o : Fin 512) :
    v2eRows (v2eBlk V c 1 t) (grid1.coords t) (ix2 r o) = v2eXt V c (ix2 (v2eRow t.val r) o) :=
  (congrFun (congrArg (fun X : Vec Ideal S16384x512 .bf16 => v2eRows X (grid1.coords t)) (v2eBlk_1_eq V c t)) (ix2 r o)).trans
    (v2eRows_apply (v2eXt V c) t r o)

/-- The accumulation at any position, with anything past the grid. -/
def v2eAtT (c : Dev nD) (n : ℕ) : Vec Ideal S512x1024 .bf16 × Vec Ideal S512x1024 .f32 × Vec Ideal S1x1024 .f32 :=
  if h : n < cfg1.N then v2eAt V c n h else (v2eOutIdle (F := Ideal), k1_pay1 (F := Ideal), k1_pay2 (F := Ideal))

theorem v2eAtT_eq (c : Dev nD) (n : ℕ) (h : n < cfg1.N) : v2eAtT V c n = v2eAt V c n h := dif_pos h

/-- At a first step the accumulators are the step's terms added to zero. -/
theorem v2eAcc_first (c : Dev nD) (n : ℕ) (hn : n < 128) (h0 : n % 16 = 0) (o : Fin 512) (e : Fin 1024) :
    (v2eAtT V c n).2.1 (ix2 o e) = 0 + v2eTermA V c o e n
    ∧ (v2eAtT V c n).2.2 (ix2 (0 : Fin 1) e) = 0 + v2eTermC V c e n := by
  have hN : n < cfg1.N := lt_of_lt_of_eq hn (show cfg1.N = 128 from N_1).symm
  rw [v2eAtT_eq V c n hN]
  obtain ⟨ea, ec⟩ := v2eStep_first V c ⟨n, hN⟩ h0
  constructor
  · refine (congrFun ea (ix2 o e)).trans ?_
    refine (k1_pay4_apply (v2eBlk V c 0 ⟨n, hN⟩) (v2eRows (v2eBlk V c 1 ⟨n, hN⟩) (grid1.coords ⟨n, hN⟩)) (k1_pay1 (F := Ideal)) o e).trans ?_
    rw [k1_pay1_apply]
    exact congrArg (0 + ·) (v2eTermA_of V c n o e _ _ (v2eBlk_0_apply V c ⟨n, hN⟩) (v2eRows_blk_apply V c ⟨n, hN⟩))
  · refine (congrFun ec (ix2 (0 : Fin 1) e)).trans ?_
    refine (k1_pay3_apply (v2eBlk V c 0 ⟨n, hN⟩) (k1_pay2 (F := Ideal)) e).trans ?_
    rw [k1_pay2_apply]
    exact congrArg (0 + ·) (v2eTermC_of V c n e _ (v2eBlk_0_apply V c ⟨n, hN⟩))

/-- At every other step they are the step's terms added to what the position before left. -/
theorem v2eAcc_next (c : Dev nD) (n : ℕ) (hn : n + 1 < 128) (h0 : ¬(n + 1) % 16 = 0) (o : Fin 512) (e : Fin 1024) :
    (v2eAtT V c (n + 1)).2.1 (ix2 o e) = (v2eAtT V c n).2.1 (ix2 o e) + v2eTermA V c o e (n + 1)
    ∧ (v2eAtT V c (n + 1)).2.2 (ix2 (0 : Fin 1) e) = (v2eAtT V c n).2.2 (ix2 (0 : Fin 1) e) + v2eTermC V c e (n + 1) := by
  have hN1 : n + 1 < cfg1.N := lt_of_lt_of_eq hn (show cfg1.N = 128 from N_1).symm
  have hN : n < cfg1.N := Nat.lt_of_succ_lt hN1
  rw [v2eAtT_eq V c (n + 1) hN1, v2eAtT_eq V c n hN]
  obtain ⟨ea, ec⟩ := v2eStep_next V c ⟨n + 1, hN1⟩ h0
  constructor
  · refine (congrFun ea (ix2 o e)).trans ?_
    refine (k1_pay4_apply (v2eBlk V c 0 ⟨n + 1, hN1⟩) (v2eRows (v2eBlk V c 1 ⟨n + 1, hN1⟩) (grid1.coords ⟨n + 1, hN1⟩)) _ o e).trans ?_
    exact congrArg (_ + ·) (v2eTermA_of V c (n + 1) o e _ _ (v2eBlk_0_apply V c ⟨n + 1, hN1⟩) (v2eRows_blk_apply V c ⟨n + 1, hN1⟩))
  · refine (congrFun ec (ix2 (0 : Fin 1) e)).trans ?_
    refine (k1_pay3_apply (v2eBlk V c 0 ⟨n + 1, hN1⟩) _ e).trans ?_
    exact congrArg (_ + ·) (v2eTermC_of V c (n + 1) e _ (v2eBlk_0_apply V c ⟨n + 1, hN1⟩))

/-! ## The output tile of a last step -/

/-- The tile a last step stores is the guarded mean over all the vertices. -/
theorem v2eOut_at (c : Dev nD) (t : Fin cfg1.N) (h15 : t.val % 16 = 15) (o : Fin 512) (e : Fin 1024) :
    (v2eAt V c t.val t.isLt).1 (ix2 o e) = G1 (v2eXt V c) (v2eH V c) (ix2 o (v2eEdge t.val e)) := by
  have hN : t.val < 128 := lt_of_lt_of_eq t.isLt (show cfg1.N = 128 from N_1)
  have hE : t.val / 16 < 8 := by omega
  have ht : 16 * (t.val / 16) + 15 = t.val := by omega
  -- the accumulators of the tile's edge block, step by step
  have key := edge_acc (v2eH V c) (v2eXt V c) ⟨t.val / 16, hE⟩ o e
    (fun j => (v2eAtT V c (16 * (t.val / 16) + j)).2.1 (ix2 o e))
    (fun j => (v2eAtT V c (16 * (t.val / 16) + j)).2.2 (ix2 (0 : Fin 1) e))
    (fun j => v2eTermA V c o e (16 * (t.val / 16) + j))
    (fun j => v2eTermC V c e (16 * (t.val / 16) + j))
    (fun j => by
      have hj := j.isLt
      refine Finset.sum_congr rfl fun r _ => ?_
      have e1 : v2eRow (16 * (t.val / 16) + j.val) r = vtx j r := Fin.ext (by
        show 1024 * ((16 * (t.val / 16) + j.val) % 16) + r.val = 1024 * j.val + r.val; omega)
      have e2 : v2eEdge (16 * (t.val / 16) + j.val) e = edg ⟨t.val / 16, hE⟩ e := Fin.ext (by
        show 1024 * ((16 * (t.val / 16) + j.val) / 16 % 8) + e.val = 1024 * (t.val / 16) + e.val; omega)
      rw [e1, e2])
    (fun j => by
      have hj := j.isLt
      refine Finset.sum_congr rfl fun r _ => ?_
      have e1 : v2eRow (16 * (t.val / 16) + j.val) r = vtx j r := Fin.ext (by
        show 1024 * ((16 * (t.val / 16) + j.val) % 16) + r.val = 1024 * j.val + r.val; omega)
      have e2 : v2eEdge (16 * (t.val / 16) + j.val) e = edg ⟨t.val / 16, hE⟩ e := Fin.ext (by
        show 1024 * ((16 * (t.val / 16) + j.val) / 16 % 8) + e.val = 1024 * (t.val / 16) + e.val; omega)
      rw [e1, e2])
    (v2eAcc_first V c (16 * (t.val / 16) + 0) (by omega) (by omega) o e).1
    (fun j hj => (v2eAcc_next V c (16 * (t.val / 16) + j) (by omega) (by omega) o e).1)
    (v2eAcc_first V c (16 * (t.val / 16) + 0) (by omega) (by omega) o e).2
    (fun j hj => (v2eAcc_next V c (16 * (t.val / 16) + j) (by omega) (by omega) o e).2)
  have hAT : v2eAtT V c (16 * (t.val / 16) + 15) = v2eAt V c t.val t.isLt :=
    (congrArg (v2eAtT V c) ht).trans (v2eAtT_eq V c t.val t.isLt)
  have hEe : edg ⟨t.val / 16, hE⟩ e = v2eEdge t.val e := Fin.ext (by
    show 1024 * (t.val / 16) + e.val = 1024 * (t.val / 16 % 8) + e.val; omega)
  rw [hAT, hEe] at key
  refine (congrFun (v2eStep_out V c t h15) (ix2 o e)).trans ?_
  refine (k1_pay5_apply (v2eAt V c t.val t.isLt).2.2 (v2eAt V c t.val t.isLt).2.1 o e).trans ?_
  exact key

/-! ## What a last step writes back, and the array after the pass -/

/-- What a flushing point writes back is its block of the guarded means. -/
theorem v2eFlushed (c : Dev nD) (t : Fin cfg1.N) (hf : (cfg1.win 2).flush t = true) :
    (v2eDat V c).flushed 2 t = ((cfg1.win 2).blk t).view.read (Elt Ideal) (G1 (v2eXt V c) (v2eH V c)) := by
  have h15 : t.val % 16 = 15 := (flush1_2 t).mp hf
  have hN : t.val < 128 := lt_of_lt_of_eq t.isLt (show cfg1.N = 128 from N_1)
  show (cfg1.win 2).cut (grid1.coords t) ((v2eDat V c).after 2 t) = _
  rw [v2eAfter_2]
  obtain ⟨-, -, -, -, e4, e5, -⟩ := v2eIdx t
  funext y
  rw [View.read_apply]
  obtain ⟨o, e, rfl⟩ : ∃ (o : Fin 512) (e : Fin 1024), y = ix2 o e := ⟨y 0, y 1, eq_ix2 y⟩
  have hemb : ((cfg1.win 2).blk t).view.emb (ix2 o e) = ix2 o (v2eEdge t.val e) := funext fun a => Fin.ext (by
    match a with
    | ⟨0, _⟩ => show win1_2.index t (0 : Fin 2) * 512 + 1 * o.val = o.val; rw [e4]; omega
    | ⟨1, _⟩ => show win1_2.index t (1 : Fin 2) * 1024 + 1 * e.val = 1024 * (t.val / 16 % 8) + e.val; rw [e5]; omega)
  rw [hemb]
  exact v2eOut_at V c t h15 o e

/-- An index of the output array is in point `t`'s block iff each coordinate is in the block's range on its axis. -/
theorem v2eMem_blk (t : Fin cfg1.N) (i : S512x8192.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- Every column of the output array is in the block of the last step of its edge block, which writes it back. -/
theorem v2eCover (i : S512x8192.Idx) : ∃ t : Fin cfg1.N, (cfg1.win 2).flush t = true ∧ i ∈ ((cfg1.win 2).blk t).view.set := by
  have hi0 : (i 0).val < 512 := (i 0).isLt
  have hi1 : (i 1).val < 8192 := (i 1).isLt
  obtain ⟨t, ht⟩ : ∃ t : Fin cfg1.N, t.val = 16 * ((i 1).val / 1024) + 15 :=
    ⟨Fin.cast N_1.symm ⟨16 * ((i 1).val / 1024) + 15, by omega⟩, rfl⟩
  obtain ⟨-, -, -, -, e4, e5, -⟩ := v2eIdx t
  refine ⟨t, (flush1_2 t).mpr (by rw [ht]; omega), ?_⟩
  rw [v2eMem_blk]
  intro a
  match a with
  | ⟨0, _⟩ =>
    show win1_2.index t (0 : Fin 2) * 512 ≤ (i 0).val ∧ (i 0).val < win1_2.index t (0 : Fin 2) * 512 + 512
    rw [e4]; omega
  | ⟨1, _⟩ =>
    show win1_2.index t (1 : Fin 2) * 1024 ≤ (i 1).val ∧ (i 1).val < win1_2.index t (1 : Fin 2) * 1024 + 1024
    rw [e5, ht]; omega

/-- THE OUTPUT ARRAY AFTER THE EDGE PASS: the guarded means, over the columns of the incidence matrix, of the columns
    of the feature array, as the pass finds the two. -/
theorem v2eArr (c : Dev nD) : (v2eDat V c).arrAt 2 cfg1.N = G1 (V c main_v1) (V c main_arg1) :=
  (v2eDat V c).arrAt_eq_of_cover 2 _ (fun t hf => v2eFlushed V c t hf) v2eCover

/-- The input arrays after the pass are as it found them. -/
theorem v2eArr_0 (c : Dev nD) (n : Nat) : (v2eDat V c).arrAt 0 n = V c main_arg1 := ((v2eDat V c).arrAt_in 0 rfl n).trans (v2eDat_A V c 0)
theorem v2eArr_1 (c : Dev nD) (n : Nat) : (v2eDat V c).arrAt 1 n = V c main_v1 := ((v2eDat V c).arrAt_in 1 rfl n).trans (v2eDat_A V c 1)

end Cert.KernelIdeal.Gen

end
-- ==== Proof.E2vPieces.lean ====
/-
  The vertex pass's steps, as arithmetic of what they load.

  A step of the vertex pass stores whole buffers only, so what it leaves in a buffer is the value it stored there last,
  and a load that follows a whole-buffer store reads that store's value.  Read this way:
    * a first step clears the running products and the running row sums, then adds the step's terms to the cleared
      values;
    * a middle step adds the step's terms to what the step before left;
    * a last step does the same and stores, as the output tile, the updated products times the guarded reciprocal of
      the updated row sums, clamped below at zero.
  The step's terms are those of the incidence block (1024 vertices by 2048 edges) and of the columns of the edge
  features that the step's edge block selects (a slice of 2048 columns of the resident transposed feature array).
  Nothing here depends on the float model.
-/
import proofs.«154376_j40303973106024_2_alg».proof.Proof.E2vData
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem e2vZeroOff : (![0, 0] : Fin 2 → Nat) = fun _ => 0 := funext fun a => by fin_cases a <;> rfl

/-- A first step leaves, as running products, the step's products added to the cleared products. -/
theorem e2vAccFirst_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i)
    (x0 : Vec F S1024x2048 .f32) (x1 : Vec F S512x8192 .bf16) :
    e2vAccFirst c i arg2 harg2 arg3 harg3 arg4 harg4 arg5 harg5 arg6 harg6 hc0 hc1 x0 x1
      = k2_pay4 x0 (View.ld x1 (Rect.unit (s := S512x8192) (k2_off1 i) S512x2048.size (k2_off1_inb i))) k2_pay1 := by
  unfold e2vAccFirst
  rw [View.read_writes_eq_canon _ _ _ (e2vCoverFirstAcc c i arg2 harg2 arg3 harg3 arg4 harg4 arg5 harg5 arg6 harg6 hc0 hc1 x0 x1)]
  unfold e2vRunFirst
  dsimp only
  sl_unfold_words
  rw [View.canon_cons_unit_zero (S := S1024x512) e2vZeroOff, View.readCov_unit_zero (S := S1024x512) _ e2vZeroOff]
  simp only [View.readAt_eq_ld, harg2.read_unread, harg3.read_unread, View.ld_unit_zero (S := S1024x2048) e2vZeroOff]

/-- A first step leaves, as running row sums, the block's row sums added to the cleared sums. -/
theorem e2vColFirst_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : e2vFirst i) (hc1 : ¬e2vLast i)
    (x0 : Vec F S1024x2048 .f32) (x1 : Vec F S512x8192 .bf16) :
    e2vColFirst c i arg2 harg2 arg3 harg3 arg4 harg4 arg5 harg5 arg6 harg6 hc0 hc1 x0 x1
      = k2_pay3 x0 k2_pay2 := by
  unfold e2vColFirst
  rw [View.read_writes_eq_canon _ _ _ (e2vCoverFirstCol c i arg2 harg2 arg3 harg3 arg4 harg4 arg5 harg5 arg6 harg6 hc0 hc1 x0 x1)]
  unfold e2vRunFirst
  dsimp only
  sl_unfold_words
  rw [View.canon_cons_unit_zero (S := S1024x1) e2vZeroOff, View.readCov_unit_zero (S := S1024x1) _ e2vZeroOff]
  simp only [View.readAt_eq_ld, harg2.read_unread, View.ld_unit_zero (S := S1024x2048) e2vZeroOff]

/-- A middle step adds the step's products to the running products it found. -/
theorem e2vAccMid_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i)
    (x0 : Vec F S1024x2048 .f32) (x1 : Vec F S512x8192 .bf16) (xs0 : Vec F S1024x512 .f32) (xs1 : Vec F S1024x1 .f32) :
    e2vAccMid c i arg2 harg2 arg3 harg3 arg4 harg4 arg5 harg5 arg6 harg6 hc0 hc1 x0 x1 xs0 xs1
      = k2_pay4 x0 (View.ld x1 (Rect.unit (s := S512x8192) (k2_off1 i) S512x2048.size (k2_off1_inb i))) xs0 := by
  unfold e2vAccMid
  rw [View.read_writes_eq_canon _ _ _ (e2vCoverMidAcc c i arg2 harg2 arg3 harg3 arg4 harg4 arg5 harg5 arg6 harg6 hc0 hc1 x0 x1 xs0 xs1)]
  unfold e2vRunMid
  dsimp only
  rw [View.canon_unit_zero e2vZeroOff]
  simp only [View.readAt_eq_ld, harg2.read_unread, harg3.read_unread, harg5.read_unread,
    View.ld_unit_zero (S := S1024x2048) e2vZeroOff, View.ld_unit_zero (S := S1024x512) e2vZeroOff]

/-- A middle step adds the block's row sums to the running row sums it found. -/
theorem e2vColMid_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : ¬e2vLast i)
    (x0 : Vec F S1024x2048 .f32) (x1 : Vec F S512x8192 .bf16) (xs0 : Vec F S1024x512 .f32) (xs1 : Vec F S1024x1 .f32) :
    e2vColMid c i arg2 harg2 arg3 harg3 arg4 harg4 arg5 harg5 arg6 harg6 hc0 hc1 x0 x1 xs0 xs1
      = k2_pay3 x0 xs1 := by
  unfold e2vColMid
  rw [View.read_writes_eq_canon _ _ _ (e2vCoverMidCol c i arg2 harg2 arg3 harg3 arg4 harg4 arg5 harg5 arg6 harg6 hc0 hc1 x0 x1 xs0 xs1)]
  unfold e2vRunMid
  dsimp only
  rw [View.canon_unit_zero e2vZeroOff]
  simp only [View.readAt_eq_ld, harg2.read_unread, harg6.read_unread,
    View.ld_unit_zero (S := S1024x2048) e2vZeroOff, View.ld_unit_zero (S := S1024x1) e2vZeroOff]

/-- A last step adds the step's products to the running products it found. -/
theorem e2vAccLast_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i)
    (x0 : Vec F S1024x2048 .f32) (x1 : Vec F S512x8192 .bf16) (xs0 : Vec F S1024x512 .f32) (xs1 : Vec F S1024x1 .f32) :
    e2vAccLast c i arg2 harg2 arg3 harg3 arg4 harg4 arg5 harg5 arg6 harg6 hc0 hc1 x0 x1 xs0 xs1
      = k2_pay4 x0 (View.ld x1 (Rect.unit (s := S512x8192) (k2_off1 i) S512x2048.size (k2_off1_inb i))) xs0 := by
  unfold e2vAccLast
  rw [View.read_writes_eq_canon _ _ _ (e2vCoverLastAcc c i arg2 harg2 arg3 harg3 arg4 harg4 arg5 harg5 arg6 harg6 hc0 hc1 x0 x1 xs0 xs1)]
  unfold e2vRunLast
  dsimp only
  sl_unfold_words
  rw [View.canon_unit_zero e2vZeroOff]
  simp only [View.readAt_eq_ld, harg2.read_unread, harg3.read_unread, harg5.read_unread,
    View.ld_unit_zero (S := S1024x2048) e2vZeroOff, View.ld_unit_zero (S := S1024x512) e2vZeroOff]

/-- A last step adds the block's row sums to the running row sums it found. -/
theorem e2vColLast_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i)
    (x0 : Vec F S1024x2048 .f32) (x1 : Vec F S512x8192 .bf16) (xs0 : Vec F S1024x512 .f32) (xs1 : Vec F S1024x1 .f32) :
    e2vColLast c i arg2 harg2 arg3 harg3 arg4 harg4 arg5 harg5 arg6 harg6 hc0 hc1 x0 x1 xs0 xs1
      = k2_pay3 x0 xs1 := by
  unfold e2vColLast
  rw [View.read_writes_eq_canon _ _ _ (e2vCoverLastCol c i arg2 harg2 arg3 harg3 arg4 harg4 arg5 harg5 arg6 harg6 hc0 hc1 x0 x1 xs0 xs1)]
  unfold e2vRunLast
  dsimp only
  sl_unfold_words
  rw [View.canon_unit_zero e2vZeroOff]
  simp only [View.readAt_eq_ld, harg2.read_unread, harg6.read_unread,
    View.ld_unit_zero (S := S1024x2048) e2vZeroOff, View.ld_unit_zero (S := S1024x1) e2vZeroOff]

/-- A last step stores, as the output tile, the updated products scaled by the guarded reciprocal of the updated row sums, clamped below at zero. -/
theorem e2vOutLast_eq (c : Dev nD) (i : grid2.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole) (hc0 : ¬e2vFirst i) (hc1 : e2vLast i)
    (x0 : Vec F S1024x2048 .f32) (x1 : Vec F S512x8192 .bf16) (xs0 : Vec F S1024x512 .f32) (xs1 : Vec F S1024x1 .f32) :
    e2vOutLast c i arg2 harg2 arg3 harg3 arg4 harg4 arg5 harg5 arg6 harg6 hc0 hc1 x0 x1 xs0 xs1
      = k2_pay5 (k2_pay3 x0 xs1) (k2_pay4 x0 (View.ld x1 (Rect.unit (s := S512x8192) (k2_off1 i) S512x2048.size (k2_off1_inb i))) xs0) := by
  unfold e2vOutLast
  rw [View.read_writes_eq_canon _ _ _ (e2vCoverLastOut c i arg2 harg2 arg3 harg3 arg4 harg4 arg5 harg5 arg6 harg6 hc0 hc1 x0 x1 xs0 xs1)]
  unfold e2vRunLast
  dsimp only
  sl_unfold_words
  rw [View.canon_unit_zero e2vZeroOff, View.readCov_unit_zero (S := S1024x1) _ e2vZeroOff,
    View.readCov_unit_zero (S := S1024x512) _ e2vZeroOff]
  simp only [View.readAt_eq_ld, harg2.read_unread, harg3.read_unread, harg5.read_unread, harg6.read_unread,
    View.ld_unit_zero (S := S1024x2048) e2vZeroOff, View.ld_unit_zero (S := S1024x512) e2vZeroOff,
    View.ld_unit_zero (S := S1024x1) e2vZeroOff]

end Cert.KernelIdeal.Gen

end
-- ==== Proof.LibLaneOps.lean ====
/-
  Sums along the lanes of a matrix, and two casts, read at an index.

  A float sum of an `[a, b]` matrix along its second axis is a vector of length `a` whose entry `p` is, at the exact
  values, the sum over the lane coordinate `q` of the matrix's entry `(p, q)`.  A `[1, 1, a, b]` array viewed as an
  `[a, b]` matrix keeps its row-major order, so the matrix's entry `(p, q)` is the array's entry `(0, 0, p, q)`.  A
  sum over every index of an `[a, 1, 1]` array is the sum over its leading coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLaneOps

open Idealize.ShloMosaic Idealize.ShloMosaic.ValueIdx

/-- The source index over row `p` with lane `q` inserted is `(p, q)`. -/
theorem lift_lane {a b : ℕ} (h : (⟨2, ![a, b]⟩ : Shape).Reduces [1] ⟨1, ![a]⟩) (p : Fin a) (q : Fin b) :
    h.lift (ix1 p) q = ix2 p q := by
  funext ax
  match ax with
  | ⟨0, _⟩ => rfl
  | ⟨1, _⟩ => rfl

/-- A float sum along the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (lift_lane h p q))

/-- A `[1, 1, a, b]` array cast to `[a, b]` reads, at `(p, q)`, the operand at `(0, 0, p, q)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An index of a rank-3 shape is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an `[a, 1, 1]` shape is the sum over the leading coordinate. -/
theorem sum_idx3_lead {M : Type*} [AddCommMonoid M] {a : Nat} (f : (⟨3, ![a, 1, 1]⟩ : Shape).Idx → M) :
    ∑ i, f i = ∑ p : Fin a, f (ix3 p (0 : Fin 1) (0 : Fin 1)) := by
  rw [← Equiv.sum_comp (idxEquiv3 (n0 := a) (n1 := 1) (n2 := 1)).symm f, Fintype.sum_prod_type]
  refine Finset.sum_congr rfl fun p _ => ?_
  rw [Fintype.sum_prod_type, Fin.sum_univ_one, Fin.sum_univ_one]
  rfl

end Cert.LibLaneOps

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.VertexPayloads.lean ====
/-
  The vertex step's arithmetic, entry by entry.

  One step of the vertex pass sees a block of the incidence matrix (1024 vertices by 2048 edges), the matching 2048
  columns of the transposed edge features [512 features, 2048 edges], and two running arrays: the feature sums
  [1024 vertices, 512 features] and the row counts, kept as a column [1024, 1].  Entry by entry, at the ideal values:
    * both running arrays start at zero;
    * the count of vertex `p` grows by the block's row sum, sum_q H[p, q];
    * the feature sum at (p, o) grows by sum_k H[p, k] * XeT[o, k] (both operands are contracted along their columns);
    * at the end the feature sum at (p, o) is multiplied by the guarded reciprocal of vertex `p`'s count and clamped
      below at zero.
  Roundings to a shorter float format are the identity at the ideal values.
-/
import proofs.«154376_j40303973106024_2_alg».proof.Proof.Gen.KernelIdeal.Skeleton
import proofs.«154376_j40303973106024_2_alg».proof.Proof.LibZeroAccDots
import proofs.«154376_j40303973106024_2_alg».proof.Proof.LibLaneOps
import proofs.«154376_j40303973106024_2_alg».proof.Proof.LibColumnLayout
import proofs.«154376_j40303973106024_2_alg».proof.Proof.IncidenceMean
import Idealize.ShloMosaic.Lib.ValueLayout
import Idealize.ShloMosaic.Lib.Pipeline.Value

noncomputable section

open scoped BigOperators

namespace Cert.KernelIdeal.VertexPayloads

open Cert.KernelIdeal Cert.KernelIdeal.Gen Idealize.ShloMosaic Idealize.ShloMosaic.ValueIdx Cert.IncidenceMean

/-- The feature sums start at zero. -/
theorem k2_pay1_apply (p : Fin 1024) (o : Fin 512) : k2_pay1 (F := Ideal) (ix2 p o) = 0 := by
  unfold k2_pay1
  rw [shapeCast_self]
  exact Ideal.ofBits_zero_f32

/-- The counts start at zero. -/
theorem k2_pay2_apply (p : Fin 1024) : k2_pay2 (F := Ideal) (ix2 p (0 : Fin 1)) = 0 := by
  unfold k2_pay2
  rw [shapeCast_self]
  exact Ideal.ofBits_zero_f32

/-- The count of vertex `p` grows by the block's row sum. -/
theorem k2_pay3_apply (v3 : Vec Ideal S1024x2048 .f32) (v5 : Vec Ideal S1024x1 .f32) (p : Fin 1024) :
    k2_pay3 (F := Ideal) v3 v5 (ix2 p (0 : Fin 1)) = v5 (ix2 p (0 : Fin 1)) + ∑ q : Fin 2048, v3 (ix2 p q) := by
  unfold k2_pay3
  dsimp only
  rw [shapeCast_self]
  refine congrArg (v5 (ix2 p (0 : Fin 1)) + ·) ?_
  refine (Cert.ColumnLayout.shapeCast_a_a1_apply _ _ p (0 : Fin 1)).trans ?_
  exact Cert.LibLaneOps.multiReduction_add_lanes_apply v3 _ _ _ _ p

/-- The feature sum at `(p, o)` grows by the product of the block's row `p` with the edge features' row `o`. -/
theorem k2_pay4_apply (v3 : Vec Ideal S1024x2048 .f32) (v16 : Vec Ideal S512x2048 .bf16) (v19 : Vec Ideal S1024x512 .f32)
    (p : Fin 1024) (o : Fin 512) :
    k2_pay4 (F := Ideal) v3 v16 v19 (ix2 p o) = v19 (ix2 p o) + ∑ k : Fin 2048, v3 (ix2 p k) * v16 (ix2 o k) := by
  unfold k2_pay4
  rw [shapeCast_self, shapeCast_self]
  refine congrArg (v19 (ix2 p o) + ·) ?_
  exact Cert.ZeroAccDots.rows_rows dot_S1024x2048_S512x2048_S1024x512_1_1_0_0_n_n rfl rfl rfl rfl rfl rfl rfl rfl none _ _ p o

/-- At the end the feature sum at `(p, o)` is multiplied by the guarded reciprocal of vertex `p`'s count and clamped
    below at zero. -/
theorem k2_pay5_apply (v27 : Vec Ideal S1024x1 .f32) (v34 : Vec Ideal S1024x512 .f32) (p : Fin 1024) (o : Fin 512) :
    k2_pay5 (F := Ideal) v27 v34 (ix2 p o) = max (v34 (ix2 p o) * safeRecip (v27 (ix2 p (0 : Fin 1)))) 0 := by
  unfold k2_pay5
  show max (v34 (ix2 p o) * broadcastTo S1024x512 _ broadcasts_S1024x1_S1024x512 (ix2 p o)) (Ideal.ofBits .f32 0x00000000#32) = _
  rw [Ideal.ofBits_zero_f32]
  refine congrArg (fun r => max (v34 (ix2 p o) * r) 0) ?_
  refine (Cert.ColumnLayout.broadcastTo_a1_ab_apply _ _ p o).trans ?_
  rfl

end Cert.KernelIdeal.VertexPayloads

end
-- ==== Proof.E2vValue.lean ====
/-
  The vertex pass's output array at the ideal values.

  The pass visits 16 vertex blocks of 1024 rows and, within each, 4 edge blocks of 2048 columns of the incidence matrix
  H. At a step it adds, to the running products, the product of H's block with the matching 2048 columns of the
  transposed edge features XeT, and to the running row sums H's block's row sums; the first step of a vertex block
  starts both from zero; the last step stores the products times the guarded reciprocal of the row sums, clamped below
  at zero, as rows 1024 V to 1024 V + 1023 of the output, and the pipeline writes that block back. So the array ends
  holding, at vertex v and feature o, max ((sum_e H[v, e] * XeT[o, e]) * safeRecip (sum_e H[v, e])) 0.
-/
import proofs.«154376_j40303973106024_2_alg».proof.Proof.E2vPieces
import proofs.«154376_j40303973106024_2_alg».proof.Proof.E2vBody
import proofs.«154376_j40303973106024_2_alg».proof.Proof.VertexPayloads
import proofs.«154376_j40303973106024_2_alg».proof.Proof.Tiles
import Idealize.ShloMosaic.Lib.ValueIdx
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.IncidenceMean Cert.KernelIdeal.VertexPayloads

-- the contents the region finds in each core's arrays, at the ideal values
variable (V : (c : Dev nD) → (b : Ref sig .tc) → Buf (Elt Ideal) ((c : Thread nD τ).loc b))

/-! ## The windows' block indices and the loaded columns' offset at a point -/

/-- The printed index maps and the offset of the columns of XeT the step loads, decided over the grid: point `t` is
    edge block `t mod 4` of vertex block `t / 4`. -/
theorem e2vIdx : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ k2_off1 (grid2.coords t) (0 : Fin 2) = 0 ∧ k2_off1 (grid2.coords t) (1 : Fin 2) = 2048 * (t.val % 4) :=
  (by decide +kernel : ∀ t : Fin grid2.N, _)

/-- A point's number is below 64. -/
theorem e2vLt (t : Fin cfg2.N) : t.val < 64 := N_2 ▸ t.isLt

/-! ## The blocks the step sees -/

/-- The H block at point `t`: rows `1024 (t / 4) + p`, columns `2048 (t mod 4) + k`. -/
theorem e2vBlk_0_apply (c : Dev nD) (t : Fin cfg2.N) (p : Fin 1024) (k : Fin 2048)
    (hr : 1024 * (t.val / 4) + p.val < 16384) (hc : 2048 * (t.val % 4) + k.val < 8192) :
    e2vBlk V c 0 t (ix2 p k)
      = V c main_arg1 (ix2 (n0 := 16384) (n1 := 8192) ⟨1024 * (t.val / 4) + p.val, hr⟩ ⟨2048 * (t.val % 4) + k.val, hc⟩) := by
  obtain ⟨e0, e1, -⟩ := e2vIdx t
  unfold e2vBlk
  rw [View.read_apply]
  show V c main_arg1 (((cfg2.win 0).blk t).view.emb (ix2 p k)) = _
  refine congrArg _ ?_
  funext a; apply Fin.ext
  match a with
  | ⟨0, _⟩ => show win2_0.index t (0 : Fin 2) * 1024 + 1 * p.val = 1024 * (t.val / 4) + p.val; rw [e0]; omega
  | ⟨1, _⟩ => show win2_0.index t (1 : Fin 2) * 2048 + 1 * k.val = 2048 * (t.val % 4) + k.val; rw [e1]; omega

/-- The XeT window's block at every point is the whole array. -/
theorem e2vBlk_1_eq (c : Dev nD) (t : Fin cfg2.N) : e2vBlk V c 1 t = V c main_v2 := by
  obtain ⟨-, -, e0, e1, -⟩ := e2vIdx t
  funext j
  unfold e2vBlk
  rw [View.read_apply]
  show V c main_v2 (((cfg2.win 1).blk t).view.emb j) = _
  refine congrArg _ ?_
  funext a; apply Fin.ext
  match a with
  | ⟨0, _⟩ => show win2_1.index t (0 : Fin 2) * 512 + 1 * (j 0).val = (j 0).val; rw [e0]; omega
  | ⟨1, _⟩ => show win2_1.index t (1 : Fin 2) * 8192 + 1 * (j 1).val = (j 1).val; rw [e1]; omega

/-- The columns of XeT the step at point `t` loads: columns `2048 (t mod 4) + k`. -/
theorem e2vXsl_apply (x1 : Vec Ideal S512x8192 .bf16) (t : Fin cfg2.N) (o : Fin 512) (k : Fin 2048)
    (hc : 2048 * (t.val % 4) + k.val < 8192) :
    View.ld x1 (Rect.unit (s := S512x8192) (k2_off1 (grid2.coords t)) S512x2048.size (k2_off1_inb (grid2.coords t))) (ix2 o k)
      = x1 (ix2 (n0 := 512) (n1 := 8192) o ⟨2048 * (t.val % 4) + k.val, hc⟩) := by
  obtain ⟨-, -, -, -, -, -, e0, e1⟩ := e2vIdx t
  show x1 ((Rect.unit (s := S512x8192) (k2_off1 (grid2.coords t)) S512x2048.size (k2_off1_inb (grid2.coords t))).emb (ix2 o k)) = _
  refine congrArg x1 ?_
  funext a; apply Fin.ext
  match a with
  | ⟨0, _⟩ => show k2_off1 (grid2.coords t) (0 : Fin 2) + 1 * o.val = o.val; rw [e0]; omega
  | ⟨1, _⟩ => show k2_off1 (grid2.coords t) (1 : Fin 2) + 1 * k.val = 2048 * (t.val % 4) + k.val; rw [e1]; omega

/-! ## The step's terms -/

/-- The incidence matrix H and the transposed edge features XeT as the region finds them, and the blocks of them the
    step at point `t` sees, each at its type of values. -/
abbrev e2vH (c : Dev nD) : Vec Ideal S16384x8192 .f32 := V c main_arg1
abbrev e2vX (c : Dev nD) : Vec Ideal S512x8192 .bf16 := V c main_v2
abbrev e2vHb (c : Dev nD) (t : Fin cfg2.N) : Vec Ideal S1024x2048 .f32 := e2vBlk V c 0 t
abbrev e2vXb (c : Dev nD) (t : Fin cfg2.N) : Vec Ideal S512x8192 .bf16 := e2vBlk V c 1 t

/-- The step's term of the running products at point `t`, row `p`, feature `o`: the product of row `p` of H's block with
    row `o` of the loaded columns of XeT. -/
def e2vTermA (c : Dev nD) (t : Fin cfg2.N) (p : Fin 1024) (o : Fin 512) : EReal :=
  ∑ k : Fin 2048, e2vHb V c t (ix2 p k) * View.ld (e2vXb V c t) (Rect.unit (s := S512x8192) (k2_off1 (grid2.coords t)) S512x2048.size (k2_off1_inb (grid2.coords t))) (ix2 o k)

/-- The step's term of the running row sums at point `t`, row `p`: the sum of row `p` of H's block. -/
def e2vTermC (c : Dev nD) (t : Fin cfg2.N) (p : Fin 1024) : EReal :=
  ∑ q : Fin 2048, e2vHb V c t (ix2 p q)

/-- At edge block `j` of vertex block `Vt` the products' term is over H's row `1024 Vt + p` and XeT's row `o`, along
    the edges `2048 j + q`. -/
theorem e2vTermA_eq (c : Dev nD) (t : Fin cfg2.N) (Vt : Fin 16) (j : Fin 4) (ht : t.val = 4 * Vt.val + j.val)
    (p : Fin 1024) (o : Fin 512) :
    e2vTermA V c t p o = ∑ q : Fin 2048, e2vH V c (ix2 (vtx Vt p) (edg2 j q)) * e2vX V c (ix2 o (edg2 j q)) := by
  unfold e2vTermA e2vHb e2vXb e2vH e2vX
  have hp := p.isLt; have hj := j.isLt; have hV := Vt.isLt
  refine Finset.sum_congr rfl fun k _ => ?_
  have hk := k.isLt
  rw [e2vBlk_1_eq, e2vXsl_apply _ t o k (by omega), e2vBlk_0_apply V c t p k (by omega) (by omega)]
  have hH : (ix2 (n0 := 16384) (n1 := 8192) ⟨1024 * (t.val / 4) + p.val, by omega⟩ ⟨2048 * (t.val % 4) + k.val, by omega⟩)
      = ix2 (vtx Vt p) (edg2 j k) := by
    funext a
    match a with
    | ⟨0, _⟩ => exact Fin.ext (by show 1024 * (t.val / 4) + p.val = 1024 * Vt.val + p.val; omega)
    | ⟨1, _⟩ => exact Fin.ext (by show 2048 * (t.val % 4) + k.val = 2048 * j.val + k.val; omega)
  have hX : (ix2 (n0 := 512) (n1 := 8192) o ⟨2048 * (t.val % 4) + k.val, by omega⟩) = ix2 o (edg2 j k) := by
    funext a
    match a with
    | ⟨0, _⟩ => rfl
    | ⟨1, _⟩ => exact Fin.ext (by show 2048 * (t.val % 4) + k.val = 2048 * j.val + k.val; omega)
  rw [hH, hX]

/-- and the row sums' term is over H's row `1024 Vt + p`, along the same edges. -/
theorem e2vTermC_eq (c : Dev nD) (t : Fin cfg2.N) (Vt : Fin 16) (j : Fin 4) (ht : t.val = 4 * Vt.val + j.val) (p : Fin 1024) :
    e2vTermC V c t p = ∑ q : Fin 2048, e2vH V c (ix2 (vtx Vt p) (edg2 j q)) := by
  unfold e2vTermC e2vHb e2vH
  have hp := p.isLt; have hj := j.isLt; have hV := Vt.isLt
  refine Finset.sum_congr rfl fun k _ => ?_
  have hk := k.isLt
  rw [e2vBlk_0_apply V c t p k (by omega) (by omega)]
  refine congrArg _ ?_
  funext a
  match a with
  | ⟨0, _⟩ => exact Fin.ext (by show 1024 * (t.val / 4) + p.val = 1024 * Vt.val + p.val; omega)
  | ⟨1, _⟩ => exact Fin.ext (by show 2048 * (t.val % 4) + k.val = 2048 * j.val + k.val; omega)

/-! ## The running arrays, step by step -/

/-- The accumulation at a position does not depend on how the position is written. -/
theorem e2vAt_irrel (c : Dev nD) {n n' : ℕ} (h : n = n') (hn : n < cfg2.N) (hn' : n' < cfg2.N) :
    e2vAt V c n hn = e2vAt V c n' hn' := by subst h; rfl

/-- A first step starts the running products from zero, -/
theorem e2vAcc_first (c : Dev nD) (t : Fin cfg2.N) (h0 : t.val % 4 = 0) (p : Fin 1024) (o : Fin 512) :
    (e2vAt V c t.val t.isLt).2.1 (ix2 p o) = 0 + e2vTermA V c t p o := by
  have h1 : ¬t.val % 4 = 3 := by omega
  rw [e2vAt_first V c t h0 h1]
  dsimp only
  rw [e2vAccFirst_eq, k2_pay4_apply, k2_pay1_apply]
  rfl

/-- and the running row sums. -/
theorem e2vCol_first (c : Dev nD) (t : Fin cfg2.N) (h0 : t.val % 4 = 0) (p : Fin 1024) :
    (e2vAt V c t.val t.isLt).2.2 (ix2 p (0 : Fin 1)) = 0 + e2vTermC V c t p := by
  have h1 : ¬t.val % 4 = 3 := by omega
  rw [e2vAt_first V c t h0 h1]
  dsimp only
  rw [e2vColFirst_eq, k2_pay3_apply, k2_pay2_apply]
  rfl

/-- Every later step adds its term to the running products of the step before, -/
theorem e2vAcc_next (c : Dev nD) (t : Fin cfg2.N) (h0 : ¬t.val % 4 = 0) (p : Fin 1024) (o : Fin 512) :
    (e2vAt V c t.val t.isLt).2.1 (ix2 p o)
      = (e2vAt V c (t.val - 1) (Nat.lt_of_le_of_lt (Nat.sub_le _ _) t.isLt)).2.1 (ix2 p o) + e2vTermA V c t p o := by
  by_cases h1 : t.val % 4 = 3
  · rw [e2vAt_last V c t h0 h1]
    dsimp only
    rw [e2vAccLast_eq, k2_pay4_apply]
    rfl
  · rw [e2vAt_mid V c t h0 h1]
    dsimp only
    rw [e2vAccMid_eq, k2_pay4_apply]
    rfl

/-- and to the running row sums. -/
theorem e2vCol_next (c : Dev nD) (t : Fin cfg2.N) (h0 : ¬t.val % 4 = 0) (p : Fin 1024) :
    (e2vAt V c t.val t.isLt).2.2 (ix2 p (0 : Fin 1))
      = (e2vAt V c (t.val - 1) (Nat.lt_of_le_of_lt (Nat.sub_le _ _) t.isLt)).2.2 (ix2 p (0 : Fin 1)) + e2vTermC V c t p := by
  by_cases h1 : t.val % 4 = 3
  · rw [e2vAt_last V c t h0 h1]
    dsimp only
    rw [e2vColLast_eq, k2_pay3_apply]
    rfl
  · rw [e2vAt_mid V c t h0 h1]
    dsimp only
    rw [e2vColMid_eq, k2_pay3_apply]
    rfl

/-- A last step stores the updated products times the guarded reciprocal of the updated row sums, clamped below at zero. -/
theorem e2vOut_last (c : Dev nD) (t : Fin cfg2.N) (h1 : t.val % 4 = 3) (p : Fin 1024) (o : Fin 512) :
    (e2vAt V c t.val t.isLt).1 (ix2 p o)
      = max ((e2vAt V c t.val t.isLt).2.1 (ix2 p o) * safeRecip ((e2vAt V c t.val t.isLt).2.2 (ix2 p (0 : Fin 1)))) 0 := by
  have h0 : ¬t.val % 4 = 0 := by omega
  rw [e2vAt_last V c t h0 h1]
  dsimp only
  rw [e2vOutLast_eq, e2vAccLast_eq, e2vColLast_eq, k2_pay5_apply]

/-! ## A vertex block's four steps -/

/-- The point of edge block `j` of vertex block `Vt`. -/
def e2vPt (Vt : Fin 16) (j : Fin 4) : Fin cfg2.N :=
  Fin.cast N_2.symm ⟨4 * Vt.val + j.val, by have := Vt.isLt; have := j.isLt; omega⟩

theorem e2vPt_val (Vt : Fin 16) (j : Fin 4) : (e2vPt Vt j).val = 4 * Vt.val + j.val := rfl

/-- The running product at row `p`, feature `o` after step `n` of vertex block `Vt` (zero past the block's four steps), -/
def e2vSeqA (c : Dev nD) (Vt : Fin 16) (p : Fin 1024) (o : Fin 512) (n : ℕ) : EReal :=
  if h : n < 4 then (e2vAt V c (e2vPt Vt ⟨n, h⟩).val (e2vPt Vt ⟨n, h⟩).isLt).2.1 (ix2 p o) else 0
/-- the running row sum at row `p`, -/
def e2vSeqC (c : Dev nD) (Vt : Fin 16) (p : Fin 1024) (n : ℕ) : EReal :=
  if h : n < 4 then (e2vAt V c (e2vPt Vt ⟨n, h⟩).val (e2vPt Vt ⟨n, h⟩).isLt).2.2 (ix2 p (0 : Fin 1)) else 0
/-- and the steps' terms. -/
def e2vSeqTA (c : Dev nD) (Vt : Fin 16) (p : Fin 1024) (o : Fin 512) (n : ℕ) : EReal :=
  if h : n < 4 then e2vTermA V c (e2vPt Vt ⟨n, h⟩) p o else 0
def e2vSeqTC (c : Dev nD) (Vt : Fin 16) (p : Fin 1024) (n : ℕ) : EReal :=
  if h : n < 4 then e2vTermC V c (e2vPt Vt ⟨n, h⟩) p else 0

/-- What the array ends holding: at vertex `v` and feature `o` the sum over the edges of H[v, e] XeT[o, e], times the
    guarded reciprocal of the sum over the edges of H[v, e], clamped below at zero. -/
def G2 (h : Vec Ideal S16384x8192 .f32) (xeT : Vec Ideal S512x8192 .bf16) : Vec Ideal S16384x512 .f32 :=
  fun i => max ((∑ e : Fin 8192, h (ix2 (n0 := 16384) (n1 := 8192) (i 0) e) * xeT (ix2 (n0 := 512) (n1 := 8192) (i 1) e))
    * Cert.IncidenceMean.safeRecip (∑ e : Fin 8192, h (ix2 (n0 := 16384) (n1 := 8192) (i 0) e))) 0

/-- The tile the last step of vertex block `Vt` stores is the block's rows of `G2`. -/
theorem e2vTile (c : Dev nD) (Vt : Fin 16) (p : Fin 1024) (o : Fin 512) :
    (e2vAt V c (e2vPt Vt 3).val (e2vPt Vt 3).isLt).1 (ix2 p o) = G2 (V c main_arg1) (V c main_v2) (ix2 (vtx Vt p) o) := by
  have hV := Vt.isLt
  rw [e2vOut_last V c (e2vPt Vt 3) (by show (4 * Vt.val + 3) % 4 = 3; omega) p o]
  have hsA : ∀ j : Fin 4, e2vSeqTA V c Vt p o j.val
      = ∑ q : Fin 2048, e2vH V c (ix2 (vtx Vt p) (edg2 j q)) * e2vX V c (ix2 o (edg2 j q)) := fun j => by
    unfold e2vSeqTA; rw [dif_pos j.isLt]; exact e2vTermA_eq V c _ Vt j rfl p o
  have hsC : ∀ j : Fin 4, e2vSeqTC V c Vt p j.val = ∑ q : Fin 2048, e2vH V c (ix2 (vtx Vt p) (edg2 j q)) := fun j => by
    unfold e2vSeqTC; rw [dif_pos j.isLt]; exact e2vTermC_eq V c _ Vt j rfl p
  have hA0 : e2vSeqA V c Vt p o 0 = 0 + e2vSeqTA V c Vt p o 0 := by
    unfold e2vSeqA e2vSeqTA; rw [dif_pos (by decide : 0 < 4), dif_pos (by decide : 0 < 4)]
    exact e2vAcc_first V c (e2vPt Vt ⟨0, by decide⟩) (by show (4 * Vt.val + 0) % 4 = 0; omega) p o
  have hC0 : e2vSeqC V c Vt p 0 = 0 + e2vSeqTC V c Vt p 0 := by
    unfold e2vSeqC e2vSeqTC; rw [dif_pos (by decide : 0 < 4), dif_pos (by decide : 0 < 4)]
    exact e2vCol_first V c (e2vPt Vt ⟨0, by decide⟩) (by show (4 * Vt.val + 0) % 4 = 0; omega) p
  have hAs : ∀ j, j + 1 < 4 → e2vSeqA V c Vt p o (j + 1) = e2vSeqA V c Vt p o j + e2vSeqTA V c Vt p o (j + 1) := fun j hj => by
    have hj' : j < 4 := by omega
    unfold e2vSeqA e2vSeqTA; rw [dif_pos hj, dif_pos hj', dif_pos hj]
    rw [e2vAcc_next V c (e2vPt Vt ⟨j + 1, hj⟩) (by show ¬(4 * Vt.val + (j + 1)) % 4 = 0; omega) p o,
      e2vAt_irrel V c (show (e2vPt Vt ⟨j + 1, hj⟩).val - 1 = (e2vPt Vt ⟨j, hj'⟩).val from by
        show 4 * Vt.val + (j + 1) - 1 = 4 * Vt.val + j; omega) _ (e2vPt Vt ⟨j, hj'⟩).isLt]
  have hCs : ∀ j, j + 1 < 4 → e2vSeqC V c Vt p (j + 1) = e2vSeqC V c Vt p j + e2vSeqTC V c Vt p (j + 1) := fun j hj => by
    have hj' : j < 4 := by omega
    unfold e2vSeqC e2vSeqTC; rw [dif_pos hj, dif_pos hj', dif_pos hj]
    rw [e2vCol_next V c (e2vPt Vt ⟨j + 1, hj⟩) (by show ¬(4 * Vt.val + (j + 1)) % 4 = 0; omega) p,
      e2vAt_irrel V c (show (e2vPt Vt ⟨j + 1, hj⟩).val - 1 = (e2vPt Vt ⟨j, hj'⟩).val from by
        show 4 * Vt.val + (j + 1) - 1 = 4 * Vt.val + j; omega) _ (e2vPt Vt ⟨j, hj'⟩).isLt]
  have h := vertex_acc (e2vH V c) (e2vX V c) Vt p o (e2vSeqA V c Vt p o) (e2vSeqC V c Vt p)
    (e2vSeqTA V c Vt p o) (e2vSeqTC V c Vt p) hsA hsC hA0 hAs hC0 hCs
  have eA : e2vSeqA V c Vt p o 3 = (e2vAt V c (e2vPt Vt 3).val (e2vPt Vt 3).isLt).2.1 (ix2 p o) := by
    unfold e2vSeqA; rw [dif_pos (by decide : 3 < 4)]; rfl
  have eC : e2vSeqC V c Vt p 3 = (e2vAt V c (e2vPt Vt 3).val (e2vPt Vt 3).isLt).2.2 (ix2 p (0 : Fin 1)) := by
    unfold e2vSeqC; rw [dif_pos (by decide : 3 < 4)]; rfl
  rw [eA, eC] at h
  exact h

/-! ## What a point writes back, and the blocks tile the array -/

/-- What a point that writes back writes is its block of `G2` of H and XeT as the region finds them. -/
theorem e2vFlushed (c : Dev nD) (t : Fin cfg2.N) (hf : (cfg2.win 2).flush t = true) :
    (e2vDat V c).flushed 2 t = ((cfg2.win 2).blk t).view.read (Elt Ideal) (G2 (V c main_arg1) (V c main_v2)) := by
  have h3 : t.val % 4 = 3 := (flush2_2 t).mp hf
  have hlt := e2vLt t
  show (cfg2.win 2).cut (grid2.coords t) ((e2vDat V c).after 2 t) = _
  rw [e2vAfter_2]
  funext j
  rw [View.read_apply]
  show (e2vAt V c t.val t.isLt).1 j = G2 (V c main_arg1) (V c main_v2) (((cfg2.win 2).blk t).view.emb j)
  obtain ⟨p, o, rfl⟩ : ∃ (p : Fin 1024) (o : Fin 512), j = ix2 p o := ⟨j 0, j 1, eq_ix2 j⟩
  have hV : t.val / 4 < 16 := by omega
  have ht : t = e2vPt ⟨t.val / 4, hV⟩ 3 := Fin.ext (by show t.val = 4 * (t.val / 4) + 3; omega)
  have hemb : ((cfg2.win 2).blk t).view.emb (ix2 p o) = ix2 (vtx ⟨t.val / 4, hV⟩ p) o := by
    obtain ⟨-, -, -, -, e0, e1, -⟩ := e2vIdx t
    funext a; apply Fin.ext
    match a with
    | ⟨0, _⟩ => show win2_2.index t (0 : Fin 2) * 1024 + 1 * p.val = 1024 * (t.val / 4) + p.val; rw [e0]; omega
    | ⟨1, _⟩ => show win2_2.index t (1 : Fin 2) * 512 + 1 * o.val = o.val; rw [e1]; omega
  rw [hemb]
  have h := e2vTile V c ⟨t.val / 4, hV⟩ p o
  rw [← ht] at h
  exact h

/-- An index of the array is in point `t`'s block iff each coordinate is in the block's range on its axis. -/
theorem e2vMemBlk (t : Fin cfg2.N) (i : S16384x512.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole main_v3).slice (win2_2.rect t)).set ↔ _
  rw [View.set_slice_whole, Rect.mem_set_unit]
  exact Iff.rfl

/-- Every vertex `v` is in the block of the last step of vertex block `v / 1024`, which writes it back. -/
theorem e2vCover (i : S16384x512.Idx) : ∃ t : Fin cfg2.N, (cfg2.win 2).flush t = true ∧ i ∈ ((cfg2.win 2).blk t).view.set := by
  have hi0 : (i 0).val < 16384 := (i 0).isLt
  have hi1 : (i 1).val < 512 := (i 1).isLt
  obtain ⟨t, ht⟩ : ∃ t : Fin cfg2.N, t.val = 4 * ((i 0).val / 1024) + 3 :=
    ⟨Fin.cast N_2.symm ⟨4 * ((i 0).val / 1024) + 3, by omega⟩, rfl⟩
  obtain ⟨-, -, -, -, e0, e1, -⟩ := e2vIdx t
  refine ⟨t, (flush2_2 t).mpr (by omega), ?_⟩
  rw [e2vMemBlk]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 512 ≤ (i 1).val ∧ (i 1).val < win2_2.index t (1 : Fin 2) * 512 + 512
    rw [e1]; omega

/-! ## The array after the region -/

/-- The output array after the region, at the ideal values: `G2` of H and XeT as the region finds them. -/
theorem e2vArr (c : Dev nD) : (e2vDat (F := Ideal) V c).arrAt 2 cfg2.N = G2 (V c main_arg1) (V c main_v2) :=
  (e2vDat V c).arrAt_eq_of_cover 2 _ (fun t hf => e2vFlushed V c t hf) e2vCover

end Cert.KernelIdeal.Gen

end
-- ==== Proof.MeanOfTiles.lean ====
/-
  The vertex pass over the edge pass over the linear pass is the incidence mean.

  If an array xt' holds the mapped features, xt'[v, o] = (sum_i X[v, i] W[o, i]) + b[o], and an array xeT' holds the
  guarded means of xt' over each edge's vertices, xeT'[o, e] = (sum_v xt'[v, o] H[v, e]) r(sum_v H[v, e]), then the
  guarded means of xeT' over each vertex's edges, clamped below at zero, are the incidence mean of X along H.
  Entry by entry: the inner sums are rewritten with the two hypotheses.
-/
import proofs.«154376_j40303973106024_2_alg».proof.Proof.E2vValue
import proofs.«154376_j40303973106024_2_alg».proof.Proof.IncidenceMean

noncomputable section

open scoped BigOperators

namespace Cert.KernelIdeal.Gen

open Idealize.ShloMosaic Idealize.ShloMosaic.ValueIdx Cert.IncidenceMean

/-- The vertex pass's array over any arrays `xt'` and `xeT'` that hold the mapped features and their guarded means over
    the edges is the incidence mean. -/
theorem G2_eq_G (X : Vec Ideal S16384x512 .f32) (H : Vec Ideal S16384x8192 .f32) (W : Vec Ideal S512x512 .f32)
    (b : Vec Ideal S512 .f32) (xt' : Vec Ideal S16384x512 .bf16) (xeT' : Vec Ideal S512x8192 .bf16)
    (hxt : ∀ (v : Fin 16384) (o : Fin 512), xt' (ix2 v o) = Cert.IncidenceMean.xtAt X W b v o)
    (hxe : ∀ (o : Fin 512) (e : Fin 8192), xeT' (ix2 o e)
      = (∑ v : Fin 16384, xt' (ix2 v o) * H (ix2 v e)) * Cert.IncidenceMean.safeRecip (∑ v : Fin 16384, H (ix2 v e))) :
    G2 H xeT' = Cert.IncidenceMean.G X H W b := by
  funext i
  obtain ⟨v, o, rfl⟩ : ∃ (v : Fin 16384) (o : Fin 512), i = ix2 v o := ⟨i 0, i 1, eq_ix2 i⟩
  rw [G_ix2]
  unfold outAt c2At
  show max ((∑ e : Fin 8192, H (ix2 v e) * xeT' (ix2 o e)) * safeRecip (∑ e : Fin 8192, H (ix2 v e))) 0 = _
  refine congrArg (fun r => max (r * safeRecip (∑ e : Fin 8192, H (ix2 v e))) 0) (Finset.sum_congr rfl fun e _ => ?_)
  rw [hxe]
  unfold xeTAt c1At
  refine congrArg (fun r => H (ix2 v e) * (r * safeRecip (∑ u : Fin 16384, H (ix2 u e)))) (Finset.sum_congr rfl fun u _ => ?_)
  rw [hxt]

end Cert.KernelIdeal.Gen

end
-- ==== Proof.BiasRow.lean ====
/-
  The row the host makes of the bias before the first kernel region: @main's one host operation recasts the bias
  vector b (512 entries) as the 1 x 512 row the first kernel adds to every row of X W^T. Read at (0, q) it is b at q.
-/
import proofs.«154376_j40303973106024_2_alg».proof.Proof.Gen.KernelIdeal.Regions
import Idealize.ShloMosaic.Lib.StableHlo.Run
import Idealize.ShloMosaic.Lib.ValueLayout
import Idealize.ShloMosaic.Lib.ValueIdx

noncomputable section

namespace Cert.KernelIdeal.Gen

open Idealize.ShloMosaic Idealize.ShloMosaic.TcCoe Idealize.ShloMosaic.StableHlo Idealize.ShloMosaic.ValueIdx
open Idealize.SL.Sem

variable {F : FTy → Type} [FloatOps F]
variable (m : (ℓ : Loc nD τ sig) → Buf (Elt F) ℓ)

/-- After the host operation the row buffer holds the bias vector recast as one row. -/
theorem biasRow_eq (c : Dev nD) :
    (V1 m c main_v0 : S1x512.Idx → Elt F .f32) = shapeCast S1x512 (m ((c : Thread nD τ).loc main_arg3)) shapeCasts_S512_S1x512 := by
  dsimp only [V1, V0, hostOps0]; after_results; rfl

/-- Its entry (0, q) is the bias at q. -/
theorem biasRow_apply (c : Dev nD) (q : Fin 512) :
    (V1 m c main_v0 : S1x512.Idx → Elt F .f32) (ix2 (0 : Fin 1) q) = (m ((c : Thread nD τ).loc main_arg3) : S512.Idx → Elt F .f32) (ix1 q) := by
  rw [biasRow_eq]; exact shapeCast_a_1a_apply _ _ _ _

/-- The host operation writes no other buffer: the arguments reach the first region as launched. -/
theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)
theorem V1_arg2 (c : Dev nD) : V1 m c main_arg2 = m ((c : Thread nD τ).loc main_arg2) := V1_of m c main_arg2 (by decide)

end Cert.KernelIdeal.Gen

end
-- ==== Proof.KernelIsMean.lean ====
/-
  What the three kernel regions leave, composed, at the ideal values. The first kernel's output array holds the mapped
  features X W^T + b (the host has recast b as a row); the second's holds, for every feature and edge, the guarded mean of
  the mapped features over the edge's vertices; the third's holds, for every vertex and feature, the guarded mean of those
  edge features over the vertex's edges, clamped below at zero. Each array is read off the region's proof data at the
  contents the region before left, so the result array is the specification's function of the four arguments.
-/
import proofs.«154376_j40303973106024_2_alg».proof.Proof.MainRunAt
import proofs.«154376_j40303973106024_2_alg».proof.Proof.RunValues
import proofs.«154376_j40303973106024_2_alg».proof.Proof.Region0Ideal
import proofs.«154376_j40303973106024_2_alg».proof.Proof.V2eValue
import proofs.«154376_j40303973106024_2_alg».proof.Proof.E2vValue
import proofs.«154376_j40303973106024_2_alg».proof.Proof.MeanOfTiles
import proofs.«154376_j40303973106024_2_alg».proof.Proof.BiasRow
import proofs.«154376_j40303973106024_2_alg».proof.Proof.IncidenceMean

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Cert.IncidenceMean

variable (m : (ℓ : Loc nD τ sig) → Buf (Elt Ideal) ℓ)

/-- The four argument arrays on core `c`, as launched. -/
abbrev argX (c : Dev nD) : Vec Ideal S16384x512 .f32 := m ((c : Thread nD τ).loc main_arg0)
abbrev argH (c : Dev nD) : Vec Ideal S16384x8192 .f32 := m ((c : Thread nD τ).loc main_arg1)
abbrev argW (c : Dev nD) : Vec Ideal S512x512 .f32 := m ((c : Thread nD τ).loc main_arg2)
abbrev argB (c : Dev nD) : Vec Ideal S512 .f32 := m ((c : Thread nD τ).loc main_arg3)

/-- The arrays the first and the second kernel leave, and the result array, at their literal types. -/
abbrev mapped (c : Dev nD) : Vec Ideal S16384x512 .bf16 := res0 m c
abbrev edgeMean (c : Dev nD) : Vec Ideal S512x8192 .bf16 := res1 m c
abbrev vertexMean (c : Dev nD) : Vec Ideal S16384x512 .f32 := result m c

/-- The first kernel's output array is the linear kernel's whole-array function of the arguments and the bias row. -/
theorem mapped_eq (c : Dev nD) :
    mapped m c = G0 (F := Ideal) (argX m c) (argW m c) (V1 m c main_v0) := by
  have h : mapped m c = (dats0 (F := Ideal) (valsOf (V1 m)) c).arrAt 3 cfg0.N := out0_eq m region0 c
  rw [h, arrAt0_3]
  simp only [valsOf]
  rw [V1_arg0, V1_arg2]

/-- Entry by entry it is the mapped features. -/
theorem mapped_apply (c : Dev nD) (v : Fin 16384) (o : Fin 512) :
    mapped m c (ix2 v o) = xtAt (argX m c) (argW m c) (argB m c) v o := by
  rw [mapped_eq, G0_apply, biasRow_apply]
  rfl

/-- The second kernel's output array is the guarded mean over each edge's vertices of the first's. -/
theorem edgeMean_eq (c : Dev nD) : edgeMean m c = G1 (mapped m c) (argH m c) := by
  have h : edgeMean m c = (v2eDat (F := Ideal) (valsOf (W2 m region0)) c).arrAt 2 cfg1.N := out1_eq m region0 v2eRegion c
  rw [h, v2eArr, valsOf_W2_main_v1, valsOf_W2_main_arg1, V1_arg1]

theorem edgeMean_apply (c : Dev nD) (o : Fin 512) (e : Fin 8192) :
    edgeMean m c (ix2 o e)
      = (∑ v : Fin 16384, mapped m c (ix2 v o) * argH m c (ix2 v e)) * safeRecip (∑ v : Fin 16384, argH m c (ix2 v e)) := by
  rw [edgeMean_eq]
  rfl

/-- The result array is the specification's function of the four arguments. -/
theorem result_eq (c : Dev nD) :
    vertexMean m c = G (argX m c) (argH m c) (argW m c) (argB m c) := by
  have h : vertexMean m c = (e2vDat (F := Ideal) (valsOf (W3 m region0 v2eRegion)) c).arrAt 2 cfg2.N :=
    out2_eq m region0 v2eRegion e2vRegion c
  rw [h, e2vArr, valsOf_W3_main_arg1, valsOf_W3_main_v2, V1_arg1]
  exact G2_eq_G (argX m c) (argH m c) (argW m c) (argB m c) (mapped m c) (edgeMean m c) (mapped_apply m c) (edgeMean_apply m c)

end Cert.KernelIdeal.Run

end
-- ==== Proof.ReferenceIsMean.lean ====
/-
  The reference computes the incidence mean.

  The reference program maps the features (a product with the transposed weights, plus the bias row repeated down the
  vertices), forms the edge features as the product of the transposed incidence matrix with the mapped features, scaled
  row by row by the guarded reciprocal of the column sums, then the vertex features as the product of the incidence
  matrix with the edge features, scaled by the guarded reciprocal of the row sums, and clamps at zero.  Read entry by
  entry, each stage is the specification's formula: a product of matrices is the sum over the contracted coordinate, a
  transposition swaps the two coordinates, a repeated row or column reads its one entry, and a sum that starts from the
  word of 0.0 is the plain sum.  The one rearrangement is inside the edge features, where the reference multiplies the
  incidence entry first: multiplication of extended reals is commutative.
-/
import proofs.«154376_j40303973106024_2_alg».proof.Proof.Gen.ReferenceIdeal.Read
import proofs.«154376_j40303973106024_2_alg».proof.Proof.IncidenceMean

noncomputable section

open scoped BigOperators

namespace Cert.ReferenceIsMean

open Cert.ReferenceIdeal Cert.ReferenceIdeal.Gen Cert.ReferenceIdeal.Read Idealize.ShloMosaic Idealize.ShloMosaic.ValueIdx
  Cert.IncidenceMean

variable (x0 : (⟨S16384x512, .f32⟩ : BufTy).Contents (Elt Ideal)) (x1 : (⟨S16384x8192, .f32⟩ : BufTy).Contents (Elt Ideal))
  (x2 : (⟨S512x512, .f32⟩ : BufTy).Contents (Elt Ideal)) (x3 : (⟨S512, .f32⟩ : BufTy).Contents (Elt Ideal))

/-! ## The stages' index maps at explicit coordinates -/

theorem lidx1 (v : Fin 16384) (o : Fin 512) (k : Fin 512) : lidx_main_v1 (ix2 v o) k = ix2 v k :=
  funext fun a => Fin.ext (by match a with | ⟨0, _⟩ => rfl | ⟨1, _⟩ => rfl)

theorem ridx1 (v : Fin 16384) (o : Fin 512) (k : Fin 512) : idx_main_v0 (ridx_main_v1 (ix2 v o) k) = ix2 o k :=
  funext fun a => Fin.ext (by match a with | ⟨0, _⟩ => rfl | ⟨1, _⟩ => rfl)

theorem idx3 (v : Fin 16384) (o : Fin 512) : idx_main_v2 (idx_main_v3 (ix2 v o)) = ix1 o :=
  funext fun a => Fin.ext (by match a with | ⟨0, _⟩ => rfl)

theorem idx7 (e : Fin 8192) (k : Fin 16384) : idx_main_v7 (ix1 e) k = ix2 k e :=
  funext fun a => Fin.ext (by match a with | ⟨0, _⟩ => rfl | ⟨1, _⟩ => rfl)

theorem lidx6 (e : Fin 8192) (o : Fin 512) (k : Fin 16384) : idx_main_v5 (lidx_main_v6 (ix2 e o) k) = ix2 k e :=
  funext fun a => Fin.ext (by match a with | ⟨0, _⟩ => rfl | ⟨1, _⟩ => rfl)

theorem ridx6 (e : Fin 8192) (o : Fin 512) (k : Fin 16384) : ridx_main_v6 (ix2 e o) k = ix2 k o :=
  funext fun a => Fin.ext (by match a with | ⟨0, _⟩ => rfl | ⟨1, _⟩ => rfl)

theorem idx15 (e : Fin 8192) (o : Fin 512) : idx_main_v14 (idx_main_v15 (ix2 e o)) = ix1 e :=
  funext fun a => Fin.ext (by match a with | ⟨0, _⟩ => rfl)

theorem idx18 (v : Fin 16384) (k : Fin 8192) : idx_main_v18 (ix1 v) k = ix2 v k :=
  funext fun a => Fin.ext (by match a with | ⟨0, _⟩ => rfl | ⟨1, _⟩ => rfl)

theorem lidx17 (v : Fin 16384) (o : Fin 512) (k : Fin 8192) : lidx_main_v17 (ix2 v o) k = ix2 v k :=
  funext fun a => Fin.ext (by match a with | ⟨0, _⟩ => rfl | ⟨1, _⟩ => rfl)

theorem ridx17 (v : Fin 16384) (o : Fin 512) (k : Fin 8192) : ridx_main_v17 (ix2 v o) k = ix2 k o :=
  funext fun a => Fin.ext (by match a with | ⟨0, _⟩ => rfl | ⟨1, _⟩ => rfl)

theorem idx26 (v : Fin 16384) (o : Fin 512) : idx_main_v25 (idx_main_v26 (ix2 v o)) = ix1 v :=
  funext fun a => Fin.ext (by match a with | ⟨0, _⟩ => rfl)

/-! ## The stages, entry by entry -/

/-- The mapped features. -/
theorem mapped (v : Fin 16384) (o : Fin 512) : val_main_v4 (F := Ideal) x0 x2 x3 (ix2 v o) = xtAt x0 x2 x3 v o := by
  rw [val_main_v4_apply, val_main_v1_apply, val_main_v3_apply, val_main_v2_apply, idx3]
  refine congrArg (· + x3 (ix1 o)) (Finset.sum_congr rfl fun k _ => ?_)
  rw [val_main_v0_apply, lidx1, ridx1]

/-- The column sums of the incidence matrix. -/
theorem colSum (e : Fin 8192) : val_main_v7 (F := Ideal) x1 (ix1 e) = c1At x1 e := by
  rw [val_main_v7_apply]
  show Ideal.ofBits .f32 0x00000000#32 + _ = _
  rw [Ideal.ofBits_zero_f32, zero_add]
  exact Finset.sum_congr rfl fun k _ => congrArg x1 (idx7 e k)

/-- The guarded reciprocal of the column sums. -/
theorem colRecip (e : Fin 8192) : val_main_v13 (F := Ideal) x1 (ix1 e) = safeRecip (c1At x1 e) := by
  rw [val_main_v13_apply, val_main_v9_apply, val_main_v12_apply, colSum]
  generalize c1At x1 e = d
  rfl

/-- The edge features (edges by features in the reference's layout). -/
theorem edgeFeat (e : Fin 8192) (o : Fin 512) : val_main_v16 (F := Ideal) x0 x1 x2 x3 (ix2 e o) = xeTAt x0 x1 x2 x3 o e := by
  rw [val_main_v16_apply, val_main_v6_apply, val_main_v15_apply, val_main_v14_apply, idx15, colRecip]
  refine Eq.trans ?_ (xeTAt_comm x0 x1 x2 x3 o e)
  refine congrArg (· * safeRecip (c1At x1 e)) (Finset.sum_congr rfl fun k _ => ?_)
  rw [val_main_v5_apply, lidx6, ridx6, mapped]

/-- The row sums of the incidence matrix. -/
theorem rowSum (v : Fin 16384) : val_main_v18 (F := Ideal) x1 (ix1 v) = c2At x1 v := by
  rw [val_main_v18_apply]
  show Ideal.ofBits .f32 0x00000000#32 + _ = _
  rw [Ideal.ofBits_zero_f32, zero_add]
  exact Finset.sum_congr rfl fun k _ => congrArg x1 (idx18 v k)

/-- The guarded reciprocal of the row sums. -/
theorem rowRecip (v : Fin 16384) : val_main_v24 (F := Ideal) x1 (ix1 v) = safeRecip (c2At x1 v) := by
  rw [val_main_v24_apply, val_main_v20_apply, val_main_v23_apply, rowSum]
  generalize c2At x1 v = d
  rfl

/-- The result, entry by entry. -/
theorem result_at (v : Fin 16384) (o : Fin 512) : val_main_v28 (F := Ideal) x0 x1 x2 x3 (ix2 v o) = outAt x0 x1 x2 x3 v o := by
  rw [val_main_v28_apply, val_main_v27_apply, val_main_v17_apply, val_main_v26_apply, val_main_v25_apply, idx26, rowRecip]
  show max ((∑ k : Fin 8192, _) * safeRecip (c2At x1 v)) (Ideal.ofBits .f32 0x00000000#32) = _
  rw [Ideal.ofBits_zero_f32]
  unfold outAt
  refine congrArg (fun s => max (s * safeRecip (c2At x1 v)) 0) (Finset.sum_congr rfl fun k _ => ?_)
  rw [lidx17, ridx17, edgeFeat]

/-- THE REFERENCE IS THE SPECIFICATION. -/
theorem reference_eq : val_main_v28 (F := Ideal) x0 x1 x2 x3 = G x0 x1 x2 x3 := by
  funext j
  obtain ⟨v, o, rfl⟩ : ∃ (v : Fin 16384) (o : Fin 512), j = ix2 v o := ⟨j 0, j 1, eq_ix2 j⟩
  exact result_at x0 x1 x2 x3 v o

end Cert.ReferenceIsMean

end
-- ==== Proof.lean ====
/-
  The claim: the three-kernel hypergraph mean aggregation equals its reference over the extended reals.

  Both programs map the vertex features linearly (X W^T + b), average them over every edge's vertices along the incidence
  matrix H with the guarded reciprocal of H's column sums, average the edge features back over every vertex's edges with
  the guarded reciprocal of H's row sums, and clamp below at zero. The kernel does it in three pallas_calls — a linear
  kernel, and two kernels that accumulate a product and a degree sum over the tiles of a grid axis in scratch buffers and
  scale at the axis's last step — rounding the matrix operands to bf16, which at the ideal values is the identity; the
  reference in whole-array operations. The sums over tiles regroup into the whole sums and the products commute: finite
  sums and products of extended reals, no finiteness of the inputs used.

  The frames of the two kernel programs are the run of @main as one host operation and three kernel regions
  (MainRun, over each region's proof data and body obligation); the reference's frame is its run with the result dropped;
  the idealization's two ledger entries are the rule's statements at the two H-tile shapes; the equality joins the run of
  the idealized kernel, its result array read as the specification (KernelIsMean), with the reference's run read as the
  same function (ReferenceIsMean).
-/
import proofs.«154376_j40303973106024_2_alg».proof.Defs
import proofs.«154376_j40303973106024_2_alg».proof.Proof.Gen.Kernel
import proofs.«154376_j40303973106024_2_alg».proof.Proof.Gen.KernelIdeal
import proofs.«154376_j40303973106024_2_alg».proof.Proof.Gen.ReferenceIdeal
import proofs.«154376_j40303973106024_2_alg».proof.Proof.Gen.ReferenceIdeal.Run
import proofs.«154376_j40303973106024_2_alg».proof.Proof.Gen.ReferenceIdeal.Read
import proofs.«154376_j40303973106024_2_alg».proof.Proof.Gen.Pre_finite_inputs
import proofs.«154376_j40303973106024_2_alg».proof.Proof.MainRunAt
import proofs.«154376_j40303973106024_2_alg».proof.Proof.MainRunAtBits
import proofs.«154376_j40303973106024_2_alg».proof.Proof.KernelIsMean
import proofs.«154376_j40303973106024_2_alg».proof.Proof.ReferenceIsMean
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_kernel : Cert.frame_Kernel := fun m g _ => Cert.Kernel.Run.frame (F := Bits) m g

/-- So does its idealization. -/
theorem frame_kernelIdeal : Cert.frame_KernelIdeal := fun m g _ => Cert.KernelIdeal.Run.frame (F := Ideal) m g

/-- The reference's frame is its run with the result dropped. -/
theorem frame_reference : Cert.frame_ReferenceIdeal := fun m g _ =>
  (θ_run Cert.ReferenceIdeal.defs _ _).mono (fun _ h c => (h c).2) (Cert.ReferenceIdeal.Value.run (F := Ideal) m g)

/-- The ledger's two entries: a rounding to bf16 and back of an H tile, in each of the two aggregation kernels. -/
theorem preserves : Cert.preserves_Kernel_KernelIdeal :=
  ⟨IdealRules.truncf_extf.statement _ .f32 .bf16, IdealRules.truncf_extf.statement _ .f32 .bf16⟩

/-- At the ideal values the kernel's result array and the reference's are one function of arguments that agree. -/
theorem algebraic : Cert.algebraic_KernelIdeal_ReferenceIdeal := by
  intro m g m' g' _ hagree
  refine ⟨fun c => Cert.KernelIdeal.Run.result m c, Cert.KernelIdeal.Run.run (F := Ideal) m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v28_eq, Cert.ReferenceIsMean.reference_eq, (hagree c).1, (hagree c).2.1, (hagree c).2.2.1,
    (hagree c).2.2.2]
  exact (Cert.KernelIdeal.Run.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
